-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3200000 : Shape := ⟨1, ![3200000]⟩
abbrev S3x64x64 : Shape := ⟨3, ![3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg4 : FVec F S3x64x64 .f32) (main_arg5 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  main_v28

def fn {F : FTy → Type} [FloatOps F] (main_arg0 : FVec F S100000x64 .f32) (main_arg1 : FVec F S3200000 .f32) (main_arg2 : FVec F S3x64x64 .f32) (main_arg3 : FVec F S3x64 .f32) (main_arg4 : FVec F S3x64x64 .f32) (main_arg5 : FVec F S3x64 .f32) (main_arg6 : IVec S3200000 32) (main_arg7 : IVec S3200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg3
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg4 main_arg5 main_v13 main_v16
-- ==== Kernel.lean ====
abbrev S100000x64 : Shape := ⟨2, ![100000, 64]⟩
abbrev S3200000 : Shape := ⟨1, ![3200000]⟩
abbrev S3x64x64 : Shape := ⟨3, ![3, 64, 64]⟩
abbrev S3x64 : Shape := ⟨2, ![3, 64]⟩
abbrev S_ : Shape := ⟨0, ![]⟩
abbrev S3200000x1 : Shape := ⟨2, ![3200000, 1]⟩
abbrev S3200000x64 : Shape := ⟨2, ![3200000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x64 : Shape := ⟨2, ![10000, 64]⟩
abbrev S100000x256 : Shape := ⟨2, ![100000, 256]⟩

abbrev nBuf : Space → Nat
  | .hbm => 90
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S3200000, .f32⟩
  | .hbm, ⟨2, _⟩ => ⟨S3x64x64, .f32⟩
  | .hbm, ⟨3, _⟩ => ⟨S3x64, .f32⟩
  | .hbm, ⟨4, _⟩ => ⟨S3x64x64, .f32⟩
  | .hbm, ⟨5, _⟩ => ⟨S3x64, .f32⟩
  | .hbm, ⟨6, _⟩ => ⟨S3200000, .i32⟩
  | .hbm, ⟨7, _⟩ => ⟨S3200000, .i32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x64, .f32⟩
  | .hbm, ⟨17, _⟩ => ⟨S3200000x1, .f32⟩
  | .hbm, ⟨18, _⟩ => ⟨S3200000x64, .f32⟩
  | .hbm, ⟨19, _⟩ => ⟨S3200000x64, .f32⟩
  | .hbm, ⟨20, _⟩ => ⟨S_, .f32⟩
  | .hbm, ⟨21, _⟩ => ⟨S100000x64, .f32⟩
  | .hbm, ⟨22, _⟩ => ⟨S3200000x1, .i32⟩
  | .hbm, ⟨23, _⟩ => ⟨S100000x64, .f32⟩
  | .hbm, ⟨24, _⟩ => ⟨S1x64x64, .f32⟩
  | .hbm, ⟨25, _⟩ => ⟨S64x64, .f32⟩
  | .hbm, ⟨26, _⟩ => ⟨S1x64, .f32⟩
  | .hbm, ⟨27, _⟩ => ⟨S64, .f32⟩
  | .hbm, ⟨28, _⟩ => ⟨S1x64x64, .f32⟩
  | .hbm, ⟨29, _⟩ => ⟨S64x64, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S1x64, .f32⟩
  | .hbm, ⟨34, _⟩ => ⟨S100000x64, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000x64, .f32⟩
  | .hbm, ⟨44, _⟩ => ⟨S3200000x1, .f32⟩
  | .hbm, ⟨45, _⟩ => ⟨S3200000x64, .f32⟩
  | .hbm, ⟨46, _⟩ => ⟨S3200000x64, .f32⟩
  | .hbm, ⟨47, _⟩ => ⟨S_, .f32⟩
  | .hbm, ⟨48, _⟩ => ⟨S100000x64, .f32⟩
  | .hbm, ⟨49, _⟩ => ⟨S3200000x1, .i32⟩
  | .hbm, ⟨50, _⟩ => ⟨S100000x64, .f32⟩
  | .hbm, ⟨51, _⟩ => ⟨S1x64x64, .f32⟩
  | .hbm, ⟨52, _⟩ => ⟨S64x64, .f32⟩
  | .hbm, ⟨53, _⟩ => ⟨S1x64, .f32⟩
  | .hbm, ⟨54, _⟩ => ⟨S64, .f32⟩
  | .hbm, ⟨55, _⟩ => ⟨S1x64x64, .f32⟩
  | .hbm, ⟨56, _⟩ => ⟨S64x64, .f32⟩
  | .hbm, ⟨57, _⟩ => ⟨S1x64, .f32⟩
  | .hbm, ⟨58, _⟩ => ⟨S64, .f32⟩
  | .hbm, ⟨59, _⟩ => ⟨S1x64, .f32⟩
  | .hbm, ⟨60, _⟩ => ⟨S1x64, .f32⟩
  | .hbm, ⟨61, _⟩ => ⟨S100000x64, .f32⟩
  | .hbm, ⟨62, _⟩ => ⟨S_, .i32⟩
  | .hbm, ⟨63, _⟩ => ⟨S3200000, .i32⟩
  | .hbm, ⟨64, _⟩ => ⟨S3200000, .i1⟩
  | .hbm, ⟨65, _⟩ => ⟨S_, .i32⟩
  | .hbm, ⟨66, _⟩ => ⟨S3200000, .i32⟩
  | .hbm, ⟨67, _⟩ => ⟨S3200000, .i32⟩
  | .hbm, ⟨68, _⟩ => ⟨S3200000, .i32⟩
  | .hbm, ⟨69, _⟩ => ⟨S3200000x1, .i32⟩
  | .hbm, ⟨70, _⟩ => ⟨S3200000x64, .f32⟩
  | .hbm, ⟨71, _⟩ => ⟨S3200000x1, .f32⟩
  | .hbm, ⟨72, _⟩ => ⟨S3200000x64, .f32⟩
  | .hbm, ⟨73, _⟩ => ⟨S3200000x64, .f32⟩
  | .hbm, ⟨74, _⟩ => ⟨S_, .f32⟩
  | .hbm, ⟨75, _⟩ => ⟨S100000x64, .f32⟩
  | .hbm, ⟨76, _⟩ => ⟨S3200000x1, .i32⟩
  | .hbm, ⟨77, _⟩ => ⟨S100000x64, .f32⟩
  | .hbm, ⟨78, _⟩ => ⟨S1x64x64, .f32⟩
  | .hbm, ⟨79, _⟩ => ⟨S64x64, .f32⟩
  | .hbm, ⟨80, _⟩ => ⟨S1x64, .f32⟩
  | .hbm, ⟨81, _⟩ => ⟨S64, .f32⟩
  | .hbm, ⟨82, _⟩ => ⟨S1x64x64, .f32⟩
  | .hbm, ⟨83, _⟩ => ⟨S64x64, .f32⟩
  | .hbm, ⟨84, _⟩ => ⟨S1x64, .f32⟩
  | .hbm, ⟨85, _⟩ => ⟨S64, .f32⟩
  | .hbm, ⟨86, _⟩ => ⟨S1x64, .f32⟩
  | .hbm, ⟨87, _⟩ => ⟨S1x64, .f32⟩
  | .hbm, ⟨88, _⟩ => ⟨S100000x64, .f32⟩
  | .hbm, ⟨89, _⟩ => ⟨S100000x256, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_4 : Ref sig .tc := ⟨.hbm, 62, rfl⟩
abbrev main_v48 : Ref sig .tc := ⟨.hbm, 63, rfl⟩
abbrev main_v49 : Ref sig .tc := ⟨.hbm, 64, rfl⟩
abbrev main_c_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_6 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x64_S100000x64_S100000x256_d1 : Shape.Concatenates [S100000x64, S100000x64, S100000x64, S100000x64] S100000x256 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S3200000 : Shape := ⟨1, ![3200000]⟩
abbrev S3x64x64 : Shape := ⟨3, ![3, 64, 64]⟩
abbrev S3x64 : Shape := ⟨2, ![3, 64]⟩
abbrev S_ : Shape := ⟨0, ![]⟩
abbrev S3200000x1 : Shape := ⟨2, ![3200000, 1]⟩
abbrev S3200000x64 : Shape := ⟨2, ![3200000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S100000x256 : Shape := ⟨2, ![100000, 256]⟩

abbrev nBuf : Space → Nat
  | .hbm => 162
  | .vmem => 0
  | .smem => 0
  | _ => 0

abbrev hbmTy0_0 (i : Nat) : BufTy := match i % 128 with
  | 0 => ⟨S100000x64, .f32⟩
  | 1 => ⟨S3200000, .f32⟩
  | 2 => ⟨S3x64x64, .f32⟩
  | 3 => ⟨S3x64, .f32⟩
  | 4 => ⟨S3x64x64, .f32⟩
  | 5 => ⟨S3x64, .f32⟩
  | 6 => ⟨S3200000, .i32⟩
  | 7 => ⟨S3200000, .i32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x64, .f32⟩
  | 17 => ⟨S3200000x1, .f32⟩
  | 18 => ⟨S3200000x64, .f32⟩
  | 19 => ⟨S3200000x64, .f32⟩
  | 20 => ⟨S_, .f32⟩
  | 21 => ⟨S100000x64, .f32⟩
  | 22 => ⟨S3200000x1, .i32⟩
  | 23 => ⟨S100000x64, .f32⟩
  | 24 => ⟨S100000x64, .f32⟩
  | 25 => ⟨S1x64x64, .f32⟩
  | 26 => ⟨S64x64, .f32⟩
  | 27 => ⟨S100000x64, .f32⟩
  | 28 => ⟨S1x64, .f32⟩
  | 29 => ⟨S64, .f32⟩
  | 30 => ⟨S1x64, .f32⟩
  | 31 => ⟨S100000x64, .f32⟩
  | 32 => ⟨S100000x64, .f32⟩
  | 33 => ⟨S_, .f32⟩
  | 34 => ⟨S_, .f32⟩
  | 35 => ⟨S100000x64, .f32⟩
  | 36 => ⟨S100000x64, .i1⟩
  | 37 => ⟨S_, .f32⟩
  | 38 => ⟨S100000x64, .f32⟩
  | 39 => ⟨S100000x64, .f32⟩
  | 40 => ⟨S100000x64, .f32⟩
  | 41 => ⟨S100000x64, .f32⟩
  | 42 => ⟨S1x64x64, .f32⟩
  | 43 => ⟨S64x64, .f32⟩
  | 44 => ⟨S100000x64, .f32⟩
  | 45 => ⟨S1x64, .f32⟩
  | 46 => ⟨S64, .f32⟩
  | 47 => ⟨S1x64, .f32⟩
  | 48 => ⟨S100000x64, .f32⟩
  | 49 => ⟨S100000x64, .f32⟩
  | 50 => ⟨S_, .f32⟩
  | 51 => ⟨S_, .f32⟩
  | 52 => ⟨S100000x64, .f32⟩
  | 53 => ⟨S100000x64, .i1⟩
  | 54 => ⟨S_, .f32⟩
  | 55 => ⟨S100000x64, .f32⟩
  | 56 => ⟨S100000x64, .f32⟩
  | 57 => ⟨S100000x64, .f32⟩
  | 58 => ⟨S100000x64, .f32⟩
  | 59 => ⟨S_, .i32⟩
  | 60 => ⟨S3200000, .i32⟩
  | 61 => ⟨S3200000, .i1⟩
  | 62 => ⟨S_, .i32⟩
  | 63 => ⟨S3200000, .i32⟩
  | 64 => ⟨S3200000, .i32⟩
  | 65 => ⟨S3200000, .i32⟩
  | 66 => ⟨S3200000x1, .i32⟩
  | 67 => ⟨S3200000x64, .f32⟩
  | 68 => ⟨S3200000x1, .f32⟩
  | 69 => ⟨S3200000x64, .f32⟩
  | 70 => ⟨S3200000x64, .f32⟩
  | 71 => ⟨S_, .f32⟩
  | 72 => ⟨S100000x64, .f32⟩
  | 73 => ⟨S3200000x1, .i32⟩
  | 74 => ⟨S100000x64, .f32⟩
  | 75 => ⟨S100000x64, .f32⟩
  | 76 => ⟨S1x64x64, .f32⟩
  | 77 => ⟨S64x64, .f32⟩
  | 78 => ⟨S100000x64, .f32⟩
  | 79 => ⟨S1x64, .f32⟩
  | 80 => ⟨S64, .f32⟩
  | 81 => ⟨S1x64, .f32⟩
  | 82 => ⟨S100000x64, .f32⟩
  | 83 => ⟨S100000x64, .f32⟩
  | 84 => ⟨S_, .f32⟩
  | 85 => ⟨S_, .f32⟩
  | 86 => ⟨S100000x64, .f32⟩
  | 87 => ⟨S100000x64, .i1⟩
  | 88 => ⟨S_, .f32⟩
  | 89 => ⟨S100000x64, .f32⟩
  | 90 => ⟨S100000x64, .f32⟩
  | 91 => ⟨S100000x64, .f32⟩
  | 92 => ⟨S100000x64, .f32⟩
  | 93 => ⟨S1x64x64, .f32⟩
  | 94 => ⟨S64x64, .f32⟩
  | 95 => ⟨S100000x64, .f32⟩
  | 96 => ⟨S1x64, .f32⟩
  | 97 => ⟨S64, .f32⟩
  | 98 => ⟨S1x64, .f32⟩
  | 99 => ⟨S100000x64, .f32⟩
  | 100 => ⟨S100000x64, .f32⟩
  | 101 => ⟨S_, .f32⟩
  | 102 => ⟨S_, .f32⟩
  | 103 => ⟨S100000x64, .f32⟩
  | 104 => ⟨S100000x64, .i1⟩
  | 105 => ⟨S_, .f32⟩
  | 106 => ⟨S100000x64, .f32⟩
  | 107 => ⟨S100000x64, .f32⟩
  | 108 => ⟨S100000x64, .f32⟩
  | 109 => ⟨S100000x64, .f32⟩
  | 110 => ⟨S_, .i32⟩
  | 111 => ⟨S3200000, .i32⟩
  | 112 => ⟨S3200000, .i1⟩
  | 113 => ⟨S_, .i32⟩
  | 114 => ⟨S3200000, .i32⟩
  | 115 => ⟨S3200000, .i32⟩
  | 116 => ⟨S3200000, .i32⟩
  | 117 => ⟨S3200000x1, .i32⟩
  | 118 => ⟨S3200000x64, .f32⟩
  | 119 => ⟨S3200000x1, .f32⟩
  | 120 => ⟨S3200000x64, .f32⟩
  | 121 => ⟨S3200000x64, .f32⟩
  | 122 => ⟨S_, .f32⟩
  | 123 => ⟨S100000x64, .f32⟩
  | 124 => ⟨S3200000x1, .i32⟩
  | 125 => ⟨S100000x64, .f32⟩
  | 126 => ⟨S100000x64, .f32⟩
  | 127 => ⟨S1x64x64, .f32⟩
  | _ => ⟨S100000x64, .f32⟩

abbrev hbmTy0_1 (i : Nat) : BufTy := match i % 128 with
  | 0 => ⟨S64x64, .f32⟩
  | 1 => ⟨S100000x64, .f32⟩
  | 2 => ⟨S1x64, .f32⟩
  | 3 => ⟨S64, .f32⟩
  | 4 => ⟨S1x64, .f32⟩
  | 5 => ⟨S100000x64, .f32⟩
  | 6 => ⟨S100000x64, .f32⟩
  | 7 => ⟨S_, .f32⟩
  | 8 => ⟨S_, .f32⟩
  | 9 => ⟨S100000x64, .f32⟩
  | 10 => ⟨S100000x64, .i1⟩
  | 11 => ⟨S_, .f32⟩
  | 12 => ⟨S100000x64, .f32⟩
  | 13 => ⟨S100000x64, .f32⟩
  | 14 => ⟨S100000x64, .f32⟩
  | 15 => ⟨S100000x64, .f32⟩
  | 16 => ⟨S1x64x64, .f32⟩
  | 17 => ⟨S64x64, .f32⟩
  | 18 => ⟨S100000x64, .f32⟩
  | 19 => ⟨S1x64, .f32⟩
  | 20 => ⟨S64, .f32⟩
  | 21 => ⟨S1x64, .f32⟩
  | 22 => ⟨S100000x64, .f32⟩
  | 23 => ⟨S100000x64, .f32⟩
  | 24 => ⟨S_, .f32⟩
  | 25 => ⟨S_, .f32⟩
  | 26 => ⟨S100000x64, .f32⟩
  | 27 => ⟨S100000x64, .i1⟩
  | 28 => ⟨S_, .f32⟩
  | 29 => ⟨S100000x64, .f32⟩
  | 30 => ⟨S100000x64, .f32⟩
  | 31 => ⟨S100000x64, .f32⟩
  | 32 => ⟨S100000x64, .f32⟩
  | 33 => ⟨S100000x256, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v32 : Ref sig .tc := ⟨.hbm, 57, rfl⟩
abbrev main_v33 : Ref sig .tc := ⟨.hbm, 58, rfl⟩
abbrev main_c_3 : Ref sig .tc := ⟨.hbm, 59, rfl⟩
abbrev main_v34 : Ref sig .tc := ⟨.hbm, 60, rfl⟩
abbrev main_v35 : Ref sig .tc := ⟨.hbm, 61, rfl⟩
abbrev main_c_4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_6 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_7 : Ref sig .tc := ⟨.hbm, 101, rfl⟩
abbrev main_call3_cst : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_v66 : Ref sig .tc := ⟨.hbm, 108, rfl⟩
abbrev main_v67 : Ref sig .tc := ⟨.hbm, 109, rfl⟩
abbrev main_c_8 : Ref sig .tc := ⟨.hbm, 110, rfl⟩
abbrev main_v68 : Ref sig .tc := ⟨.hbm, 111, rfl⟩
abbrev main_v69 : Ref sig .tc := ⟨.hbm, 112, rfl⟩
abbrev main_c_9 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_10 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_11 : Ref sig .tc := ⟨.hbm, 135, rfl⟩
abbrev main_call4_cst : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_12 : Ref sig .tc := ⟨.hbm, 152, rfl⟩
abbrev main_call5_cst : Ref sig .tc := ⟨.hbm, 153, rfl⟩
abbrev main_call5_v0 : Ref sig .tc := ⟨.hbm, 154, rfl⟩
abbrev main_call5_v1 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x64_S100000x64_S100000x256_d1 : Shape.Concatenates [S100000x64, S100000x64, S100000x64, S100000x64] S100000x256 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelBody.lean ====
/-
  The three pallas regions of the program, each at a parameter V (the TensorCore's buffer contents when the region is
  entered).  Every region runs the same body over ten row blocks: it loads the block of node features, the block of
  aggregated features, the two weight matrices and the two biases, and stores one block of the layer's output, the
  body's arithmetic on the six loaded blocks.  Per region: each window's block at a point, what the body leaves in
  the output's buffer, the body's triple, the proof data of the pipeline, and the body obligation at every point.
-/
import proofs.«100247_j50328426774833_1_alg».proof.Proof.Gen.Kernel.Launch
import proofs.«100247_j50328426774833_1_alg».proof.Proof.Gen.Kernel.Skeleton
import proofs.«100247_j50328426774833_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of a [10000, 64] block, of a [64, 64] weight matrix and of a [1, 64] bias. -/
abbrev rA : Rect S10000x64 := Rect.unit (s := S10000x64) ![0, 0] S10000x64.size inb_S10000x64_S10000x64_0_0
abbrev rB : Rect S64x64 := Rect.unit (s := S64x64) ![0, 0] S64x64.size inb_S64x64_S64x64_0_0
abbrev rC : Rect S1x64 := Rect.unit (s := S1x64) ![0, 0] S1x64.size inb_S1x64_S1x64_0_0

/-- One store through the whole rectangle covers the block. -/
theorem coverA (p0 : Vec F S10000x64 .f32) (y : S10000x64.Idx) :
    ∃ pc ∈ ([⟨rA, p0⟩] : List (View.Piece (Elt F) S10000x64 .f32)), y ∈ pc.1.set :=
  View.cover_of_tiled [⟨rA, p0⟩] S10000x64.size (by rfl) y

section Regions
variable (V : (c : Dev nD) → (b : Ref sig .tc) → Buf (Elt F) ((c : Thread nD τ).loc b))

/-! # Region 0: the pallas_call of layer 0, at the entry contents V -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body, from the input windows' blocks: its one store, of the
    body's arithmetic on the six loaded blocks. -/
def out0_6 (x0 x1 : Vec F S10000x64 .f32) (x2 : Vec F S64x64 .f32) (x3 : Vec F S1x64 .f32) (x4 : Vec F S64x64 .f32) (x5 : Vec F S1x64 .f32) : Vec F S10000x64 .f32 :=
  View.canon [⟨rA, k0_pay1 (View.ld x0 rA) (View.ld x1 rA) (View.ld x2 rB) (View.ld x4 rB) (View.ld x3 rC) (View.ld x5 rC)⟩]

set_option maxHeartbeats 1000000 in
/-- The kernel body on whole staging memrefs: the inputs keep their contents and the output ends at out0_6 of them. -/
theorem sound_kernel0 (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S10000x64 .f32) (harg7 : arg7.IsWhole)
    (x0 x1 : Vec F S10000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__bi_interaction_kernel i arg1 harg1 arg2 harg2 arg3 harg3 arg4 harg4 arg5 harg5 arg6 harg6 arg7 harg7) K := by
  simp only [cc0__bi_interaction_kernel_eq_skeleton]; unfold cc0__bi_interaction_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverA _)

/-- The proof data of pipeline 0 on core c: the arrays as the region finds them; after the body each input's
    buffer at its block and the output's at out0_6 of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

/-! # Region 1: the pallas_call of layer 1, at the entry contents V -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body, from the input windows' blocks: its one store, of the
    body's arithmetic on the six loaded blocks. -/
def out1_6 (x0 x1 : Vec F S10000x64 .f32) (x2 : Vec F S64x64 .f32) (x3 : Vec F S1x64 .f32) (x4 : Vec F S64x64 .f32) (x5 : Vec F S1x64 .f32) : Vec F S10000x64 .f32 :=
  View.canon [⟨rA, k1_pay1 (View.ld x0 rA) (View.ld x1 rA) (View.ld x2 rB) (View.ld x4 rB) (View.ld x3 rC) (View.ld x5 rC)⟩]

set_option maxHeartbeats 1000000 in
/-- The kernel body on whole staging memrefs: the inputs keep their contents and the output ends at out1_6 of them. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S10000x64 .f32) (harg7 : arg7.IsWhole)
    (x0 x1 : Vec F S10000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__bi_interaction_kernel i arg1 harg1 arg2 harg2 arg3 harg3 arg4 harg4 arg5 harg5 arg6 harg6 arg7 harg7) K := by
  simp only [cc1__bi_interaction_kernel_eq_skeleton]; unfold cc1__bi_interaction_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverA _)

/-- The proof data of pipeline 1 on core c: the arrays as the region finds them; after the body each input's
    buffer at its block and the output's at out1_6 of the input blocks; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-! # Region 2: the pallas_call of layer 2, at the entry contents V -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body, from the input windows' blocks: its one store, of the
    body's arithmetic on the six loaded blocks. -/
def out2_6 (x0 x1 : Vec F S10000x64 .f32) (x2 : Vec F S64x64 .f32) (x3 : Vec F S1x64 .f32) (x4 : Vec F S64x64 .f32) (x5 : Vec F S1x64 .f32) : Vec F S10000x64 .f32 :=
  View.canon [⟨rA, k2_pay1 (View.ld x0 rA) (View.ld x1 rA) (View.ld x2 rB) (View.ld x4 rB) (View.ld x3 rC) (View.ld x5 rC)⟩]

set_option maxHeartbeats 1000000 in
/-- The kernel body on whole staging memrefs: the inputs keep their contents and the output ends at out2_6 of them. -/
theorem sound_kernel2 (c : Dev nD) (E : Set ℕ) (i : grid2.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S10000x64 .f32) (harg7 : arg7.IsWhole)
    (x0 x1 : Vec F S10000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__bi_interaction_kernel i arg1 harg1 arg2 harg2 arg3 harg3 arg4 harg4 arg5 harg5 arg6 harg6 arg7 harg7) K := by
  simp only [cc2__bi_interaction_kernel_eq_skeleton]; unfold cc2__bi_interaction_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverA _)

/-- The proof data of pipeline 2 on core c: the arrays as the region finds them; after the body each input's
    buffer at its block and the output's at out2_6 of the input blocks; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.KernelRun.lean ====
/-
  The run of the program: @main is four stretches of host operations with the three pallas regions between them.  The
  buffer contents at each boundary are a fold from the launch memory: a stretch applies its operations, a region
  replaces its output array by what its ten write-backs leave and keeps every other buffer.  Every weakly fair
  execution terminates with every unscoped buffer at the last boundary's contents; no stretch and no region writes an
  argument array, so each argument ends as launched.
-/
import proofs.«100247_j50328426774833_1_alg».proof.Proof.KernelBody
import proofs.«100247_j50328426774833_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev B0 : Dev nD → Valuation τ sig (Elt F) := fun c b => (s₀ m ρ).mem ((c : Dev nD), b)
/-- After the first stretch of host operations (region 0's entry). -/
abbrev B1 : Dev nD → Valuation τ sig (Elt F) := fun c => StableHlo.after hostOps0 (B0 m ρ c)
abbrev R1 : (c : Dev nD) → (b : Ref sig .tc) → Buf (Elt F) ((c : Thread nD τ).loc b) := fun c b => B1 m ρ c b

/-- At region 0's exit: its arrays at what the pipeline leaves, every other buffer as entered. -/
def B2 (c : Dev nD) : Valuation τ sig (Elt F) :=
  Pipeline.withArrays spec0 c (B1 m ρ c) fun w => (dat0 (R1 m ρ) c).arrAt w cfg0.N
theorem B2_arr (c : Dev nD) (w : Fin cfg0.W) :
    B2 m ρ c (Proc.devRef .tc (Pipeline.arrRef spec0 w)) = (dat0 (R1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev R2 : (c : Dev nD) → (b : Ref sig .tc) → Buf (Elt F) ((c : Thread nD τ).loc b) := fun c b => B2 m ρ c b
theorem hF0 (c : Dev nD) (w : Fin cfg0.W) : (dat0 (R1 m ρ) c).arrAt w cfg0.N = R2 m ρ c (Pipeline.arrRef spec0 w) :=
  (B2_arr m ρ c w).symm
theorem hrest0 (c : Dev nD) : ∀ b, b ∉ Finset.univ.image (Pipeline.arrRef spec0) → R2 m ρ c b = R1 m ρ c b :=
  fun b hb => B2_of_ne m ρ c b fun w e => hb (Finset.mem_image.mpr ⟨w, Finset.mem_univ _, e⟩)
/-- An input window's array leaves region 0 as it entered. -/
theorem B2_in (c : Dev nD) (w : Fin cfg0.W) (hw : (cfg0.win w).isOut = false) :
    B2 m ρ c (Proc.devRef .tc (Pipeline.arrRef spec0 w)) = B1 m ρ c (Proc.devRef .tc (Pipeline.arrRef spec0 w)) :=
  (B2_arr m ρ c w).trans (((dat0 (R1 m ρ) c).arrAt_in w hw _).trans (A_eq0 (R1 m ρ) c w))

/-- After the next stretch of host operations. -/
abbrev B3 : Dev nD → Valuation τ sig (Elt F) := fun c => StableHlo.after hostOps1 (B2 m ρ c)
abbrev R3 : (c : Dev nD) → (b : Ref sig .tc) → Buf (Elt F) ((c : Thread nD τ).loc b) := fun c b => B3 m ρ c b

/-- At region 1's exit: its arrays at what the pipeline leaves, every other buffer as entered. -/
def B4 (c : Dev nD) : Valuation τ sig (Elt F) :=
  Pipeline.withArrays spec1 c (B3 m ρ c) fun w => (dat1 (R3 m ρ) c).arrAt w cfg1.N
theorem B4_arr (c : Dev nD) (w : Fin cfg1.W) :
    B4 m ρ c (Proc.devRef .tc (Pipeline.arrRef spec1 w)) = (dat1 (R3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev R4 : (c : Dev nD) → (b : Ref sig .tc) → Buf (Elt F) ((c : Thread nD τ).loc b) := fun c b => B4 m ρ c b
theorem hF1 (c : Dev nD) (w : Fin cfg1.W) : (dat1 (R3 m ρ) c).arrAt w cfg1.N = R4 m ρ c (Pipeline.arrRef spec1 w) :=
  (B4_arr m ρ c w).symm
theorem hrest1 (c : Dev nD) : ∀ b, b ∉ Finset.univ.image (Pipeline.arrRef spec1) → R4 m ρ c b = R3 m ρ c b :=
  fun b hb => B4_of_ne m ρ c b fun w e => hb (Finset.mem_image.mpr ⟨w, Finset.mem_univ _, e⟩)
/-- An input window's array leaves region 1 as it entered. -/
theorem B4_in (c : Dev nD) (w : Fin cfg1.W) (hw : (cfg1.win w).isOut = false) :
    B4 m ρ c (Proc.devRef .tc (Pipeline.arrRef spec1 w)) = B3 m ρ c (Proc.devRef .tc (Pipeline.arrRef spec1 w)) :=
  (B4_arr m ρ c w).trans (((dat1 (R3 m ρ) c).arrAt_in w hw _).trans (A_eq1 (R3 m ρ) c w))

/-- After the next stretch of host operations. -/
abbrev B5 : Dev nD → Valuation τ sig (Elt F) := fun c => StableHlo.after hostOps2 (B4 m ρ c)
abbrev R5 : (c : Dev nD) → (b : Ref sig .tc) → Buf (Elt F) ((c : Thread nD τ).loc b) := fun c b => B5 m ρ c b

/-- At region 2's exit: its arrays at what the pipeline leaves, every other buffer as entered. -/
def B6 (c : Dev nD) : Valuation τ sig (Elt F) :=
  Pipeline.withArrays spec2 c (B5 m ρ c) fun w => (dat2 (R5 m ρ) c).arrAt w cfg2.N
theorem B6_arr (c : Dev nD) (w : Fin cfg2.W) :
    B6 m ρ c (Proc.devRef .tc (Pipeline.arrRef spec2 w)) = (dat2 (R5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev R6 : (c : Dev nD) → (b : Ref sig .tc) → Buf (Elt F) ((c : Thread nD τ).loc b) := fun c b => B6 m ρ c b
theorem hF2 (c : Dev nD) (w : Fin cfg2.W) : (dat2 (R5 m ρ) c).arrAt w cfg2.N = R6 m ρ c (Pipeline.arrRef spec2 w) :=
  (B6_arr m ρ c w).symm
theorem hrest2 (c : Dev nD) : ∀ b, b ∉ Finset.univ.image (Pipeline.arrRef spec2) → R6 m ρ c b = R5 m ρ c b :=
  fun b hb => B6_of_ne m ρ c b fun w e => hb (Finset.mem_image.mpr ⟨w, Finset.mem_univ _, e⟩)
/-- An input window's array leaves region 2 as it entered. -/
theorem B6_in (c : Dev nD) (w : Fin cfg2.W) (hw : (cfg2.win w).isOut = false) :
    B6 m ρ c (Proc.devRef .tc (Pipeline.arrRef spec2 w)) = B5 m ρ c (Proc.devRef .tc (Pipeline.arrRef spec2 w)) :=
  (B6_arr m ρ c w).trans (((dat2 (R5 m ρ) c).arrAt_in w hw _).trans (A_eq2 (R5 m ρ) c w))

/-- After the next stretch of host operations. -/
abbrev B7 : Dev nD → Valuation τ sig (Elt F) := fun c => StableHlo.after hostOps3 (B6 m ρ c)
abbrev R7 : (c : Dev nD) → (b : Ref sig .tc) → Buf (Elt F) ((c : Thread nD τ).loc b) := fun c b => B7 m ρ c b

/-- A buffer the stretch 0 does not write keeps its contents. -/
theorem B1_keep (c : Dev nD) (r : Ref sig .tc) (h : r ∉ hostOps0_W) : B1 m ρ c (Proc.devRef .tc r) = B0 m ρ c (Proc.devRef .tc r) :=
  StableHlo.after_of_writes_sub hostOps0 _ hostOps0_writes h

/-- A buffer the stretch 1 does not write keeps its contents. -/
theorem B3_keep (c : Dev nD) (r : Ref sig .tc) (h : r ∉ hostOps1_W) : B3 m ρ c (Proc.devRef .tc r) = B2 m ρ c (Proc.devRef .tc r) :=
  StableHlo.after_of_writes_sub hostOps1 _ hostOps1_writes h

/-- A buffer the stretch 2 does not write keeps its contents. -/
theorem B5_keep (c : Dev nD) (r : Ref sig .tc) (h : r ∉ hostOps2_W) : B5 m ρ c (Proc.devRef .tc r) = B4 m ρ c (Proc.devRef .tc r) :=
  StableHlo.after_of_writes_sub hostOps2 _ hostOps2_writes h

/-- A buffer the stretch 3 does not write keeps its contents. -/
theorem B7_keep (c : Dev nD) (r : Ref sig .tc) (h : r ∉ hostOps3_W) : B7 m ρ c (Proc.devRef .tc r) = B6 m ρ c (Proc.devRef .tc r) :=
  StableHlo.after_of_writes_sub hostOps3 _ hostOps3_writes h

theorem B7_main_arg0 (c : Dev nD) : B7 m ρ c (Proc.devRef .tc main_arg0) = m ((c : Thread nD τ).loc main_arg0) :=
  (B7_keep m ρ c main_arg0 (by decide)).trans <| (B6_of_ne m ρ c main_arg0 (by decide)).trans <| (B5_keep m ρ c main_arg0 (by decide)).trans <|
    (B4_of_ne m ρ c main_arg0 (by decide)).trans <| (B3_keep m ρ c main_arg0 (by decide)).trans <| (B2_in m ρ c 0 rfl).trans <|
    (B1_keep m ρ c main_arg0 (by decide)).trans rfl

theorem B7_main_arg1 (c : Dev nD) : B7 m ρ c (Proc.devRef .tc main_arg1) = m ((c : Thread nD τ).loc main_arg1) :=
  (B7_keep m ρ c main_arg1 (by decide)).trans <| (B6_of_ne m ρ c main_arg1 (by decide)).trans <| (B5_keep m ρ c main_arg1 (by decide)).trans <|
    (B4_of_ne m ρ c main_arg1 (by decide)).trans <| (B3_keep m ρ c main_arg1 (by decide)).trans <| (B2_of_ne m ρ c main_arg1 (by decide)).trans <|
    (B1_keep m ρ c main_arg1 (by decide)).trans rfl

theorem B7_main_arg2 (c : Dev nD) : B7 m ρ c (Proc.devRef .tc main_arg2) = m ((c : Thread nD τ).loc main_arg2) :=
  (B7_keep m ρ c main_arg2 (by decide)).trans <| (B6_of_ne m ρ c main_arg2 (by decide)).trans <| (B5_keep m ρ c main_arg2 (by decide)).trans <|
    (B4_of_ne m ρ c main_arg2 (by decide)).trans <| (B3_keep m ρ c main_arg2 (by decide)).trans <| (B2_of_ne m ρ c main_arg2 (by decide)).trans <|
    (B1_keep m ρ c main_arg2 (by decide)).trans rfl

theorem B7_main_arg3 (c : Dev nD) : B7 m ρ c (Proc.devRef .tc main_arg3) = m ((c : Thread nD τ).loc main_arg3) :=
  (B7_keep m ρ c main_arg3 (by decide)).trans <| (B6_of_ne m ρ c main_arg3 (by decide)).trans <| (B5_keep m ρ c main_arg3 (by decide)).trans <|
    (B4_of_ne m ρ c main_arg3 (by decide)).trans <| (B3_keep m ρ c main_arg3 (by decide)).trans <| (B2_of_ne m ρ c main_arg3 (by decide)).trans <|
    (B1_keep m ρ c main_arg3 (by decide)).trans rfl

theorem B7_main_arg4 (c : Dev nD) : B7 m ρ c (Proc.devRef .tc main_arg4) = m ((c : Thread nD τ).loc main_arg4) :=
  (B7_keep m ρ c main_arg4 (by decide)).trans <| (B6_of_ne m ρ c main_arg4 (by decide)).trans <| (B5_keep m ρ c main_arg4 (by decide)).trans <|
    (B4_of_ne m ρ c main_arg4 (by decide)).trans <| (B3_keep m ρ c main_arg4 (by decide)).trans <| (B2_of_ne m ρ c main_arg4 (by decide)).trans <|
    (B1_keep m ρ c main_arg4 (by decide)).trans rfl

theorem B7_main_arg5 (c : Dev nD) : B7 m ρ c (Proc.devRef .tc main_arg5) = m ((c : Thread nD τ).loc main_arg5) :=
  (B7_keep m ρ c main_arg5 (by decide)).trans <| (B6_of_ne m ρ c main_arg5 (by decide)).trans <| (B5_keep m ρ c main_arg5 (by decide)).trans <|
    (B4_of_ne m ρ c main_arg5 (by decide)).trans <| (B3_keep m ρ c main_arg5 (by decide)).trans <| (B2_of_ne m ρ c main_arg5 (by decide)).trans <|
    (B1_keep m ρ c main_arg5 (by decide)).trans rfl

theorem B7_main_arg6 (c : Dev nD) : B7 m ρ c (Proc.devRef .tc main_arg6) = m ((c : Thread nD τ).loc main_arg6) :=
  (B7_keep m ρ c main_arg6 (by decide)).trans <| (B6_of_ne m ρ c main_arg6 (by decide)).trans <| (B5_keep m ρ c main_arg6 (by decide)).trans <|
    (B4_of_ne m ρ c main_arg6 (by decide)).trans <| (B3_keep m ρ c main_arg6 (by decide)).trans <| (B2_of_ne m ρ c main_arg6 (by decide)).trans <|
    (B1_keep m ρ c main_arg6 (by decide)).trans rfl

theorem B7_main_arg7 (c : Dev nD) : B7 m ρ c (Proc.devRef .tc main_arg7) = m ((c : Thread nD τ).loc main_arg7) :=
  (B7_keep m ρ c main_arg7 (by decide)).trans <| (B6_of_ne m ρ c main_arg7 (by decide)).trans <| (B5_keep m ρ c main_arg7 (by decide)).trans <|
    (B4_of_ne m ρ c main_arg7 (by decide)).trans <| (B3_keep m ρ c main_arg7 (by decide)).trans <| (B2_of_ne m ρ c main_arg7 (by decide)).trans <|
    (B1_keep m ρ c main_arg7 (by decide)).trans rfl

/-! ## The proof data family and the thread state -/

abbrev admK : (p : Fin 3) → (pcfgs (F := F) p).Adm := fun p => (cfgs p).toPCfg_adm
/-- Every pipeline's proof data, each at its region's entry contents. -/
def pdatsK : (p : Fin 3) → (c : Dev nD) → Dat τ (Elt F) Unit ℕ (UR sig nD τ) ℕ (Pipeline.pin (pcfgs (F := F)) admK p) c
  | ⟨0, _⟩ => fun c => dat0 (R1 m ρ) c
  | ⟨1, _⟩ => fun c => dat1 (R3 m ρ) c
  | ⟨2, _⟩ => fun c => dat2 (R5 m ρ) c
abbrev 𝒱K : Variants := Variants.none
abbrev LK : GSem nD τ sig → Finset Unit := fun _ => ∅
abbrev lvK : GSem nD τ sig → Unit → ℕ := fun _ _ => 0
/-- What rides beside the buffers through every segment: the generator register at some state and nothing owed. -/
abbrev RK (c : Dev nD) : sProp 𝕄 := iprop((∃ r, prngReg c r) ∗ ∃ W, owes (c : Thread nD τ) (0 : CellTallies nD τ sig Unit) W)
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_ucK (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev TlastK (c : Dev nD) : sProp 𝕄 := iprop(StableHlo.held (c : Thread nD τ) (Pipeline.ucRefs τ sig) (B7 m ρ c) ∗ ∃ r, prngReg c r)

/-! ## The regions as segments -/

set_option backward.isDefEq.respectTransparency.types false in
/-- Region 0 over the thread state: entered from every unscoped buffer at B1, left at B2. -/
def regK0 : Pipeline.RegionSeg (pcfgs (F := F)) admK (pdatsK m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (R1 m ρ) c).loose
  hwaits := Pipeline.hwaits_of_owed_zero _ _ _ _ LK lvK 0 fun _ _ => rfl
  pre c := iprop(StableHlo.held (c : Thread nD τ) (Pipeline.ucRefs τ sig) (B1 m ρ c) ∗ RK c)
  post c := iprop(StableHlo.held (c : Thread nD τ) (Pipeline.ucRefs τ sig) (B2 m ρ c) ∗ RK c)
  X c := iprop(∃ r, prngReg c r)
  Y c := iprop(∃ r, prngReg c r)
  Z c := Pipeline.unscopedRest (Ix := Unit) (Name := ℕ) (U := UR sig nD τ) (Lvl := ℕ) spec0 c (R1 m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (R1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsK m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (R1 m ρ c) (R2 m ρ c) ((pdatsK m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at B3, left at B4. -/
def regK1 : Pipeline.RegionSeg (pcfgs (F := F)) admK (pdatsK m ρ) () defs₀ 𝒱K LK lvK 1 where
  win := launch1.win.to₀
  block_pos := launch1.block_pos
  stage_whole := launch1.stage_whole
  K := PEmpty
  osem k := k.elim
  ho := Pipeline.OwnSemFacts.none _
  hbody c := (body_obligation1 (R3 m ρ) c).loose
  hwaits := Pipeline.hwaits_of_owed_zero _ _ _ _ LK lvK 1 fun _ _ => rfl
  pre c := iprop(StableHlo.held (c : Thread nD τ) (Pipeline.ucRefs τ sig) (B3 m ρ c) ∗ RK c)
  post c := iprop(StableHlo.held (c : Thread nD τ) (Pipeline.ucRefs τ sig) (B4 m ρ c) ∗ RK c)
  X c := iprop(∃ r, prngReg c r)
  Y c := iprop(∃ r, prngReg c r)
  Z c := Pipeline.unscopedRest (Ix := Unit) (Name := ℕ) (U := UR sig nD τ) (Lvl := ℕ) spec1 c (R3 m ρ c)
  hentry c := by
    rw [Pipeline.ownSems0_none]
    have hsplit := Pipeline.arrays_of_unscopedBufs (p := 1) (pcfgs (F := F)) admK (pdatsK m ρ) launch1.win launch1.arr_whole c
      ((pdatsK m ρ 1 c).share_full fun _ => rfl) (R3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsK m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m ρ) ((pdatsK m ρ 1 c).share_full fun _ => rfl)
      (R3 m ρ c) (R4 m ρ c) ((pdatsK m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at B5, left at B6. -/
def regK2 : Pipeline.RegionSeg (pcfgs (F := F)) admK (pdatsK m ρ) () defs₀ 𝒱K LK lvK 2 where
  win := launch2.win.to₀
  block_pos := launch2.block_pos
  stage_whole := launch2.stage_whole
  K := PEmpty
  osem k := k.elim
  ho := Pipeline.OwnSemFacts.none _
  hbody c := (body_obligation2 (R5 m ρ) c).loose
  hwaits := Pipeline.hwaits_of_owed_zero _ _ _ _ LK lvK 2 fun _ _ => rfl
  pre c := iprop(StableHlo.held (c : Thread nD τ) (Pipeline.ucRefs τ sig) (B5 m ρ c) ∗ RK c)
  post c := iprop(StableHlo.held (c : Thread nD τ) (Pipeline.ucRefs τ sig) (B6 m ρ c) ∗ RK c)
  X c := iprop(∃ r, prngReg c r)
  Y c := iprop(∃ r, prngReg c r)
  Z c := Pipeline.unscopedRest (Ix := Unit) (Name := ℕ) (U := UR sig nD τ) (Lvl := ℕ) spec2 c (R5 m ρ c)
  hentry c := by
    rw [Pipeline.ownSems0_none]
    have hsplit := Pipeline.arrays_of_unscopedBufs (p := 2) (pcfgs (F := F)) admK (pdatsK m ρ) launch2.win launch2.arr_whole c
      ((pdatsK m ρ 2 c).share_full fun _ => rfl) (R5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsK m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdatsK m ρ) ((pdatsK m ρ 2 c).share_full fun _ => rfl)
      (R5 m ρ c) (R6 m ρ c) ((pdatsK m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsK : List (Pipeline.Seg (pcfgs (F := F)) admK (pdatsK m ρ) () defs₀ 𝒱K LK lvK) :=
  [ .host (hsegK hostOps0 hostOps0_sub hostOps0_fresh (B0 m ρ)),
    .region (regK0 m ρ),
    .host (hsegK hostOps1 hostOps1_sub hostOps1_fresh (B2 m ρ)),
    .region (regK1 m ρ),
    .host (hsegK hostOps2 hostOps2_sub hostOps2_fresh (B4 m ρ)),
    .region (regK2 m ρ),
    .host (hsegK hostOps3 hostOps3_sub hostOps3_fresh (B6 m ρ)) ]
theorem main_runK (c : Dev nD) : main (F := F) c = Pipeline.Seg.run (segsK m ρ) := (main_chain c).trans (by chain_rfl)

set_option backward.isDefEq.respectTransparency.types false in
/-- Every weakly fair execution of @main from memory m with zero counters terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) admK (pdatsK m ρ) () cellOf_inj emb₁ defs₀ 𝒱K LK lvK m ρ main (segsK m ρ)
    (fun c Q => by rw [main_runK m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RK c)) (Tₙ := TlastK m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (B7 m ρ c) ∗ RK c) ⊢ _
      iintro ⟨Hh, Hp, HO⟩
      isplitl [Hh Hp]
      · isplitl [Hh]; · iexact Hh
        iexact Hp
      iexact HO⟩)
    (hinit := by
      refine Pipeline.initEach LK lvK fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucK main_arg0 (by decide))).trans (B7_main_arg0 m ρ c),
     (h c _ (mem_ucK main_arg1 (by decide))).trans (B7_main_arg1 m ρ c),
     (h c _ (mem_ucK main_arg2 (by decide))).trans (B7_main_arg2 m ρ c),
     (h c _ (mem_ucK main_arg3 (by decide))).trans (B7_main_arg3 m ρ c),
     (h c _ (mem_ucK main_arg4 (by decide))).trans (B7_main_arg4 m ρ c),
     (h c _ (mem_ucK main_arg5 (by decide))).trans (B7_main_arg5 m ρ c),
     (h c _ (mem_ucK main_arg6 (by decide))).trans (B7_main_arg6 m ρ c),
     (h c _ (mem_ucK main_arg7 (by decide))).trans (B7_main_arg7 m ρ c)⟩) (run_all m ρ)

end Cert.Kernel.Hand

end
-- ==== Proof.KernelIdealBody.lean ====
/-
  The three pallas regions of the program, each at a parameter V (the TensorCore's buffer contents when the region is
  entered).  Every region runs the same body over ten row blocks: it loads the block of node features, the block of
  aggregated features, the two weight matrices and the two biases, and stores one block of the layer's output, the
  body's arithmetic on the six loaded blocks.  Per region: each window's block at a point, what the body leaves in
  the output's buffer, the body's triple, the proof data of the pipeline, and the body obligation at every point.
-/
import proofs.«100247_j50328426774833_1_alg».proof.Proof.Gen.KernelIdeal.Launch
import proofs.«100247_j50328426774833_1_alg».proof.Proof.Gen.KernelIdeal.Skeleton
import proofs.«100247_j50328426774833_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of a [10000, 64] block, of a [64, 64] weight matrix and of a [1, 64] bias. -/
abbrev rA : Rect S10000x64 := Rect.unit (s := S10000x64) ![0, 0] S10000x64.size inb_S10000x64_S10000x64_0_0
abbrev rB : Rect S64x64 := Rect.unit (s := S64x64) ![0, 0] S64x64.size inb_S64x64_S64x64_0_0
abbrev rC : Rect S1x64 := Rect.unit (s := S1x64) ![0, 0] S1x64.size inb_S1x64_S1x64_0_0

/-- One store through the whole rectangle covers the block. -/
theorem coverA (p0 : Vec F S10000x64 .f32) (y : S10000x64.Idx) :
    ∃ pc ∈ ([⟨rA, p0⟩] : List (View.Piece (Elt F) S10000x64 .f32)), y ∈ pc.1.set :=
  View.cover_of_tiled [⟨rA, p0⟩] S10000x64.size (by rfl) y

section Regions
variable (V : (c : Dev nD) → (b : Ref sig .tc) → Buf (Elt F) ((c : Thread nD τ).loc b))

/-! # Region 0: the pallas_call of layer 0, at the entry contents V -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body, from the input windows' blocks: its one store, of the
    body's arithmetic on the six loaded blocks. -/
def out0_6 (x0 x1 : Vec F S10000x64 .f32) (x2 : Vec F S64x64 .f32) (x3 : Vec F S1x64 .f32) (x4 : Vec F S64x64 .f32) (x5 : Vec F S1x64 .f32) : Vec F S10000x64 .f32 :=
  View.canon [⟨rA, k0_pay1 (View.ld x0 rA) (View.ld x1 rA) (View.ld x2 rB) (View.ld x4 rB) (View.ld x3 rC) (View.ld x5 rC)⟩]

set_option maxHeartbeats 1000000 in
/-- The kernel body on whole staging memrefs: the inputs keep their contents and the output ends at out0_6 of them. -/
theorem sound_kernel0 (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S10000x64 .f32) (harg7 : arg7.IsWhole)
    (x0 x1 : Vec F S10000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__bi_interaction_kernel i arg1 harg1 arg2 harg2 arg3 harg3 arg4 harg4 arg5 harg5 arg6 harg6 arg7 harg7) K := by
  simp only [cc0__bi_interaction_kernel_eq_skeleton]; unfold cc0__bi_interaction_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverA _)

/-- The proof data of pipeline 0 on core c: the arrays as the region finds them; after the body each input's
    buffer at its block and the output's at out0_6 of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

/-! # Region 1: the pallas_call of layer 1, at the entry contents V -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body, from the input windows' blocks: its one store, of the
    body's arithmetic on the six loaded blocks. -/
def out1_6 (x0 x1 : Vec F S10000x64 .f32) (x2 : Vec F S64x64 .f32) (x3 : Vec F S1x64 .f32) (x4 : Vec F S64x64 .f32) (x5 : Vec F S1x64 .f32) : Vec F S10000x64 .f32 :=
  View.canon [⟨rA, k1_pay1 (View.ld x0 rA) (View.ld x1 rA) (View.ld x2 rB) (View.ld x4 rB) (View.ld x3 rC) (View.ld x5 rC)⟩]

set_option maxHeartbeats 1000000 in
/-- The kernel body on whole staging memrefs: the inputs keep their contents and the output ends at out1_6 of them. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S10000x64 .f32) (harg7 : arg7.IsWhole)
    (x0 x1 : Vec F S10000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__bi_interaction_kernel i arg1 harg1 arg2 harg2 arg3 harg3 arg4 harg4 arg5 harg5 arg6 harg6 arg7 harg7) K := by
  simp only [cc1__bi_interaction_kernel_eq_skeleton]; unfold cc1__bi_interaction_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverA _)

/-- The proof data of pipeline 1 on core c: the arrays as the region finds them; after the body each input's
    buffer at its block and the output's at out1_6 of the input blocks; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-! # Region 2: the pallas_call of layer 2, at the entry contents V -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body, from the input windows' blocks: its one store, of the
    body's arithmetic on the six loaded blocks. -/
def out2_6 (x0 x1 : Vec F S10000x64 .f32) (x2 : Vec F S64x64 .f32) (x3 : Vec F S1x64 .f32) (x4 : Vec F S64x64 .f32) (x5 : Vec F S1x64 .f32) : Vec F S10000x64 .f32 :=
  View.canon [⟨rA, k2_pay1 (View.ld x0 rA) (View.ld x1 rA) (View.ld x2 rB) (View.ld x4 rB) (View.ld x3 rC) (View.ld x5 rC)⟩]

set_option maxHeartbeats 1000000 in
/-- The kernel body on whole staging memrefs: the inputs keep their contents and the output ends at out2_6 of them. -/
theorem sound_kernel2 (c : Dev nD) (E : Set ℕ) (i : grid2.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S10000x64 .f32) (harg7 : arg7.IsWhole)
    (x0 x1 : Vec F S10000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__bi_interaction_kernel i arg1 harg1 arg2 harg2 arg3 harg3 arg4 harg4 arg5 harg5 arg6 harg6 arg7 harg7) K := by
  simp only [cc2__bi_interaction_kernel_eq_skeleton]; unfold cc2__bi_interaction_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverA _)

/-- The proof data of pipeline 2 on core c: the arrays as the region finds them; after the body each input's
    buffer at its block and the output's at out2_6 of the input blocks; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KernelIdealRun.lean ====
/-
  The run of the program: @main is four stretches of host operations with the three pallas regions between them.  The
  buffer contents at each boundary are a fold from the launch memory: a stretch applies its operations, a region
  replaces its output array by what its ten write-backs leave and keeps every other buffer.  Every weakly fair
  execution terminates with every unscoped buffer at the last boundary's contents; no stretch and no region writes an
  argument array, so each argument ends as launched.
-/
import proofs.«100247_j50328426774833_1_alg».proof.Proof.KernelIdealBody
import proofs.«100247_j50328426774833_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev B0 : Dev nD → Valuation τ sig (Elt F) := fun c b => (s₀ m ρ).mem ((c : Dev nD), b)
/-- After the first stretch of host operations (region 0's entry). -/
abbrev B1 : Dev nD → Valuation τ sig (Elt F) := fun c => StableHlo.after hostOps0 (B0 m ρ c)
abbrev R1 : (c : Dev nD) → (b : Ref sig .tc) → Buf (Elt F) ((c : Thread nD τ).loc b) := fun c b => B1 m ρ c b

/-- At region 0's exit: its arrays at what the pipeline leaves, every other buffer as entered. -/
def B2 (c : Dev nD) : Valuation τ sig (Elt F) :=
  Pipeline.withArrays spec0 c (B1 m ρ c) fun w => (dat0 (R1 m ρ) c).arrAt w cfg0.N
theorem B2_arr (c : Dev nD) (w : Fin cfg0.W) :
    B2 m ρ c (Proc.devRef .tc (Pipeline.arrRef spec0 w)) = (dat0 (R1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev R2 : (c : Dev nD) → (b : Ref sig .tc) → Buf (Elt F) ((c : Thread nD τ).loc b) := fun c b => B2 m ρ c b
theorem hF0 (c : Dev nD) (w : Fin cfg0.W) : (dat0 (R1 m ρ) c).arrAt w cfg0.N = R2 m ρ c (Pipeline.arrRef spec0 w) :=
  (B2_arr m ρ c w).symm
theorem hrest0 (c : Dev nD) : ∀ b, b ∉ Finset.univ.image (Pipeline.arrRef spec0) → R2 m ρ c b = R1 m ρ c b :=
  fun b hb => B2_of_ne m ρ c b fun w e => hb (Finset.mem_image.mpr ⟨w, Finset.mem_univ _, e⟩)
/-- An input window's array leaves region 0 as it entered. -/
theorem B2_in (c : Dev nD) (w : Fin cfg0.W) (hw : (cfg0.win w).isOut = false) :
    B2 m ρ c (Proc.devRef .tc (Pipeline.arrRef spec0 w)) = B1 m ρ c (Proc.devRef .tc (Pipeline.arrRef spec0 w)) :=
  (B2_arr m ρ c w).trans (((dat0 (R1 m ρ) c).arrAt_in w hw _).trans (A_eq0 (R1 m ρ) c w))

/-- After the next stretch of host operations. -/
abbrev B3 : Dev nD → Valuation τ sig (Elt F) := fun c => StableHlo.after hostOps1 (B2 m ρ c)
abbrev R3 : (c : Dev nD) → (b : Ref sig .tc) → Buf (Elt F) ((c : Thread nD τ).loc b) := fun c b => B3 m ρ c b

/-- At region 1's exit: its arrays at what the pipeline leaves, every other buffer as entered. -/
def B4 (c : Dev nD) : Valuation τ sig (Elt F) :=
  Pipeline.withArrays spec1 c (B3 m ρ c) fun w => (dat1 (R3 m ρ) c).arrAt w cfg1.N
theorem B4_arr (c : Dev nD) (w : Fin cfg1.W) :
    B4 m ρ c (Proc.devRef .tc (Pipeline.arrRef spec1 w)) = (dat1 (R3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev R4 : (c : Dev nD) → (b : Ref sig .tc) → Buf (Elt F) ((c : Thread nD τ).loc b) := fun c b => B4 m ρ c b
theorem hF1 (c : Dev nD) (w : Fin cfg1.W) : (dat1 (R3 m ρ) c).arrAt w cfg1.N = R4 m ρ c (Pipeline.arrRef spec1 w) :=
  (B4_arr m ρ c w).symm
theorem hrest1 (c : Dev nD) : ∀ b, b ∉ Finset.univ.image (Pipeline.arrRef spec1) → R4 m ρ c b = R3 m ρ c b :=
  fun b hb => B4_of_ne m ρ c b fun w e => hb (Finset.mem_image.mpr ⟨w, Finset.mem_univ _, e⟩)
/-- An input window's array leaves region 1 as it entered. -/
theorem B4_in (c : Dev nD) (w : Fin cfg1.W) (hw : (cfg1.win w).isOut = false) :
    B4 m ρ c (Proc.devRef .tc (Pipeline.arrRef spec1 w)) = B3 m ρ c (Proc.devRef .tc (Pipeline.arrRef spec1 w)) :=
  (B4_arr m ρ c w).trans (((dat1 (R3 m ρ) c).arrAt_in w hw _).trans (A_eq1 (R3 m ρ) c w))

/-- After the next stretch of host operations. -/
abbrev B5 : Dev nD → Valuation τ sig (Elt F) := fun c => StableHlo.after hostOps2 (B4 m ρ c)
abbrev R5 : (c : Dev nD) → (b : Ref sig .tc) → Buf (Elt F) ((c : Thread nD τ).loc b) := fun c b => B5 m ρ c b

/-- At region 2's exit: its arrays at what the pipeline leaves, every other buffer as entered. -/
def B6 (c : Dev nD) : Valuation τ sig (Elt F) :=
  Pipeline.withArrays spec2 c (B5 m ρ c) fun w => (dat2 (R5 m ρ) c).arrAt w cfg2.N
theorem B6_arr (c : Dev nD) (w : Fin cfg2.W) :
    B6 m ρ c (Proc.devRef .tc (Pipeline.arrRef spec2 w)) = (dat2 (R5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev R6 : (c : Dev nD) → (b : Ref sig .tc) → Buf (Elt F) ((c : Thread nD τ).loc b) := fun c b => B6 m ρ c b
theorem hF2 (c : Dev nD) (w : Fin cfg2.W) : (dat2 (R5 m ρ) c).arrAt w cfg2.N = R6 m ρ c (Pipeline.arrRef spec2 w) :=
  (B6_arr m ρ c w).symm
theorem hrest2 (c : Dev nD) : ∀ b, b ∉ Finset.univ.image (Pipeline.arrRef spec2) → R6 m ρ c b = R5 m ρ c b :=
  fun b hb => B6_of_ne m ρ c b fun w e => hb (Finset.mem_image.mpr ⟨w, Finset.mem_univ _, e⟩)
/-- An input window's array leaves region 2 as it entered. -/
theorem B6_in (c : Dev nD) (w : Fin cfg2.W) (hw : (cfg2.win w).isOut = false) :
    B6 m ρ c (Proc.devRef .tc (Pipeline.arrRef spec2 w)) = B5 m ρ c (Proc.devRef .tc (Pipeline.arrRef spec2 w)) :=
  (B6_arr m ρ c w).trans (((dat2 (R5 m ρ) c).arrAt_in w hw _).trans (A_eq2 (R5 m ρ) c w))

/-- After the next stretch of host operations. -/
abbrev B7 : Dev nD → Valuation τ sig (Elt F) := fun c => StableHlo.after hostOps3 (B6 m ρ c)
abbrev R7 : (c : Dev nD) → (b : Ref sig .tc) → Buf (Elt F) ((c : Thread nD τ).loc b) := fun c b => B7 m ρ c b

/-- A buffer the stretch 0 does not write keeps its contents. -/
theorem B1_keep (c : Dev nD) (r : Ref sig .tc) (h : r ∉ hostOps0_W) : B1 m ρ c (Proc.devRef .tc r) = B0 m ρ c (Proc.devRef .tc r) :=
  StableHlo.after_of_writes_sub hostOps0 _ hostOps0_writes h

/-- A buffer the stretch 1 does not write keeps its contents. -/
theorem B3_keep (c : Dev nD) (r : Ref sig .tc) (h : r ∉ hostOps1_W) : B3 m ρ c (Proc.devRef .tc r) = B2 m ρ c (Proc.devRef .tc r) :=
  StableHlo.after_of_writes_sub hostOps1 _ hostOps1_writes h

/-- A buffer the stretch 2 does not write keeps its contents. -/
theorem B5_keep (c : Dev nD) (r : Ref sig .tc) (h : r ∉ hostOps2_W) : B5 m ρ c (Proc.devRef .tc r) = B4 m ρ c (Proc.devRef .tc r) :=
  StableHlo.after_of_writes_sub hostOps2 _ hostOps2_writes h

/-- A buffer the stretch 3 does not write keeps its contents. -/
theorem B7_keep (c : Dev nD) (r : Ref sig .tc) (h : r ∉ hostOps3_W) : B7 m ρ c (Proc.devRef .tc r) = B6 m ρ c (Proc.devRef .tc r) :=
  StableHlo.after_of_writes_sub hostOps3 _ hostOps3_writes h

theorem B7_main_arg0 (c : Dev nD) : B7 m ρ c (Proc.devRef .tc main_arg0) = m ((c : Thread nD τ).loc main_arg0) :=
  (B7_keep m ρ c main_arg0 (by decide)).trans <| (B6_of_ne m ρ c main_arg0 (by decide)).trans <| (B5_keep m ρ c main_arg0 (by decide)).trans <|
    (B4_of_ne m ρ c main_arg0 (by decide)).trans <| (B3_keep m ρ c main_arg0 (by decide)).trans <| (B2_in m ρ c 0 rfl).trans <|
    (B1_keep m ρ c main_arg0 (by decide)).trans rfl

theorem B7_main_arg1 (c : Dev nD) : B7 m ρ c (Proc.devRef .tc main_arg1) = m ((c : Thread nD τ).loc main_arg1) :=
  (B7_keep m ρ c main_arg1 (by decide)).trans <| (B6_of_ne m ρ c main_arg1 (by decide)).trans <| (B5_keep m ρ c main_arg1 (by decide)).trans <|
    (B4_of_ne m ρ c main_arg1 (by decide)).trans <| (B3_keep m ρ c main_arg1 (by decide)).trans <| (B2_of_ne m ρ c main_arg1 (by decide)).trans <|
    (B1_keep m ρ c main_arg1 (by decide)).trans rfl

theorem B7_main_arg2 (c : Dev nD) : B7 m ρ c (Proc.devRef .tc main_arg2) = m ((c : Thread nD τ).loc main_arg2) :=
  (B7_keep m ρ c main_arg2 (by decide)).trans <| (B6_of_ne m ρ c main_arg2 (by decide)).trans <| (B5_keep m ρ c main_arg2 (by decide)).trans <|
    (B4_of_ne m ρ c main_arg2 (by decide)).trans <| (B3_keep m ρ c main_arg2 (by decide)).trans <| (B2_of_ne m ρ c main_arg2 (by decide)).trans <|
    (B1_keep m ρ c main_arg2 (by decide)).trans rfl

theorem B7_main_arg3 (c : Dev nD) : B7 m ρ c (Proc.devRef .tc main_arg3) = m ((c : Thread nD τ).loc main_arg3) :=
  (B7_keep m ρ c main_arg3 (by decide)).trans <| (B6_of_ne m ρ c main_arg3 (by decide)).trans <| (B5_keep m ρ c main_arg3 (by decide)).trans <|
    (B4_of_ne m ρ c main_arg3 (by decide)).trans <| (B3_keep m ρ c main_arg3 (by decide)).trans <| (B2_of_ne m ρ c main_arg3 (by decide)).trans <|
    (B1_keep m ρ c main_arg3 (by decide)).trans rfl

theorem B7_main_arg4 (c : Dev nD) : B7 m ρ c (Proc.devRef .tc main_arg4) = m ((c : Thread nD τ).loc main_arg4) :=
  (B7_keep m ρ c main_arg4 (by decide)).trans <| (B6_of_ne m ρ c main_arg4 (by decide)).trans <| (B5_keep m ρ c main_arg4 (by decide)).trans <|
    (B4_of_ne m ρ c main_arg4 (by decide)).trans <| (B3_keep m ρ c main_arg4 (by decide)).trans <| (B2_of_ne m ρ c main_arg4 (by decide)).trans <|
    (B1_keep m ρ c main_arg4 (by decide)).trans rfl

theorem B7_main_arg5 (c : Dev nD) : B7 m ρ c (Proc.devRef .tc main_arg5) = m ((c : Thread nD τ).loc main_arg5) :=
  (B7_keep m ρ c main_arg5 (by decide)).trans <| (B6_of_ne m ρ c main_arg5 (by decide)).trans <| (B5_keep m ρ c main_arg5 (by decide)).trans <|
    (B4_of_ne m ρ c main_arg5 (by decide)).trans <| (B3_keep m ρ c main_arg5 (by decide)).trans <| (B2_of_ne m ρ c main_arg5 (by decide)).trans <|
    (B1_keep m ρ c main_arg5 (by decide)).trans rfl

theorem B7_main_arg6 (c : Dev nD) : B7 m ρ c (Proc.devRef .tc main_arg6) = m ((c : Thread nD τ).loc main_arg6) :=
  (B7_keep m ρ c main_arg6 (by decide)).trans <| (B6_of_ne m ρ c main_arg6 (by decide)).trans <| (B5_keep m ρ c main_arg6 (by decide)).trans <|
    (B4_of_ne m ρ c main_arg6 (by decide)).trans <| (B3_keep m ρ c main_arg6 (by decide)).trans <| (B2_of_ne m ρ c main_arg6 (by decide)).trans <|
    (B1_keep m ρ c main_arg6 (by decide)).trans rfl

theorem B7_main_arg7 (c : Dev nD) : B7 m ρ c (Proc.devRef .tc main_arg7) = m ((c : Thread nD τ).loc main_arg7) :=
  (B7_keep m ρ c main_arg7 (by decide)).trans <| (B6_of_ne m ρ c main_arg7 (by decide)).trans <| (B5_keep m ρ c main_arg7 (by decide)).trans <|
    (B4_of_ne m ρ c main_arg7 (by decide)).trans <| (B3_keep m ρ c main_arg7 (by decide)).trans <| (B2_of_ne m ρ c main_arg7 (by decide)).trans <|
    (B1_keep m ρ c main_arg7 (by decide)).trans rfl

/-! ## The proof data family and the thread state -/

abbrev admK : (p : Fin 3) → (pcfgs (F := F) p).Adm := fun p => (cfgs p).toPCfg_adm
/-- Every pipeline's proof data, each at its region's entry contents. -/
def pdatsK : (p : Fin 3) → (c : Dev nD) → Dat τ (Elt F) Unit ℕ (UR sig nD τ) ℕ (Pipeline.pin (pcfgs (F := F)) admK p) c
  | ⟨0, _⟩ => fun c => dat0 (R1 m ρ) c
  | ⟨1, _⟩ => fun c => dat1 (R3 m ρ) c
  | ⟨2, _⟩ => fun c => dat2 (R5 m ρ) c
abbrev 𝒱K : Variants := Variants.none
abbrev LK : GSem nD τ sig → Finset Unit := fun _ => ∅
abbrev lvK : GSem nD τ sig → Unit → ℕ := fun _ _ => 0
/-- What rides beside the buffers through every segment: the generator register at some state and nothing owed. -/
abbrev RK (c : Dev nD) : sProp 𝕄 := iprop((∃ r, prngReg c r) ∗ ∃ W, owes (c : Thread nD τ) (0 : CellTallies nD τ sig Unit) W)
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_ucK (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev TlastK (c : Dev nD) : sProp 𝕄 := iprop(StableHlo.held (c : Thread nD τ) (Pipeline.ucRefs τ sig) (B7 m ρ c) ∗ ∃ r, prngReg c r)

/-! ## The regions as segments -/

set_option backward.isDefEq.respectTransparency.types false in
/-- Region 0 over the thread state: entered from every unscoped buffer at B1, left at B2. -/
def regK0 : Pipeline.RegionSeg (pcfgs (F := F)) admK (pdatsK m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (R1 m ρ) c).loose
  hwaits := Pipeline.hwaits_of_owed_zero _ _ _ _ LK lvK 0 fun _ _ => rfl
  pre c := iprop(StableHlo.held (c : Thread nD τ) (Pipeline.ucRefs τ sig) (B1 m ρ c) ∗ RK c)
  post c := iprop(StableHlo.held (c : Thread nD τ) (Pipeline.ucRefs τ sig) (B2 m ρ c) ∗ RK c)
  X c := iprop(∃ r, prngReg c r)
  Y c := iprop(∃ r, prngReg c r)
  Z c := Pipeline.unscopedRest (Ix := Unit) (Name := ℕ) (U := UR sig nD τ) (Lvl := ℕ) spec0 c (R1 m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (R1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsK m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (R1 m ρ c) (R2 m ρ c) ((pdatsK m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at B3, left at B4. -/
def regK1 : Pipeline.RegionSeg (pcfgs (F := F)) admK (pdatsK m ρ) () defs₀ 𝒱K LK lvK 1 where
  win := launch1.win.to₀
  block_pos := launch1.block_pos
  stage_whole := launch1.stage_whole
  K := PEmpty
  osem k := k.elim
  ho := Pipeline.OwnSemFacts.none _
  hbody c := (body_obligation1 (R3 m ρ) c).loose
  hwaits := Pipeline.hwaits_of_owed_zero _ _ _ _ LK lvK 1 fun _ _ => rfl
  pre c := iprop(StableHlo.held (c : Thread nD τ) (Pipeline.ucRefs τ sig) (B3 m ρ c) ∗ RK c)
  post c := iprop(StableHlo.held (c : Thread nD τ) (Pipeline.ucRefs τ sig) (B4 m ρ c) ∗ RK c)
  X c := iprop(∃ r, prngReg c r)
  Y c := iprop(∃ r, prngReg c r)
  Z c := Pipeline.unscopedRest (Ix := Unit) (Name := ℕ) (U := UR sig nD τ) (Lvl := ℕ) spec1 c (R3 m ρ c)
  hentry c := by
    rw [Pipeline.ownSems0_none]
    have hsplit := Pipeline.arrays_of_unscopedBufs (p := 1) (pcfgs (F := F)) admK (pdatsK m ρ) launch1.win launch1.arr_whole c
      ((pdatsK m ρ 1 c).share_full fun _ => rfl) (R3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsK m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m ρ) ((pdatsK m ρ 1 c).share_full fun _ => rfl)
      (R3 m ρ c) (R4 m ρ c) ((pdatsK m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at B5, left at B6. -/
def regK2 : Pipeline.RegionSeg (pcfgs (F := F)) admK (pdatsK m ρ) () defs₀ 𝒱K LK lvK 2 where
  win := launch2.win.to₀
  block_pos := launch2.block_pos
  stage_whole := launch2.stage_whole
  K := PEmpty
  osem k := k.elim
  ho := Pipeline.OwnSemFacts.none _
  hbody c := (body_obligation2 (R5 m ρ) c).loose
  hwaits := Pipeline.hwaits_of_owed_zero _ _ _ _ LK lvK 2 fun _ _ => rfl
  pre c := iprop(StableHlo.held (c : Thread nD τ) (Pipeline.ucRefs τ sig) (B5 m ρ c) ∗ RK c)
  post c := iprop(StableHlo.held (c : Thread nD τ) (Pipeline.ucRefs τ sig) (B6 m ρ c) ∗ RK c)
  X c := iprop(∃ r, prngReg c r)
  Y c := iprop(∃ r, prngReg c r)
  Z c := Pipeline.unscopedRest (Ix := Unit) (Name := ℕ) (U := UR sig nD τ) (Lvl := ℕ) spec2 c (R5 m ρ c)
  hentry c := by
    rw [Pipeline.ownSems0_none]
    have hsplit := Pipeline.arrays_of_unscopedBufs (p := 2) (pcfgs (F := F)) admK (pdatsK m ρ) launch2.win launch2.arr_whole c
      ((pdatsK m ρ 2 c).share_full fun _ => rfl) (R5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsK m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdatsK m ρ) ((pdatsK m ρ 2 c).share_full fun _ => rfl)
      (R5 m ρ c) (R6 m ρ c) ((pdatsK m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsK : List (Pipeline.Seg (pcfgs (F := F)) admK (pdatsK m ρ) () defs₀ 𝒱K LK lvK) :=
  [ .host (hsegK hostOps0 hostOps0_sub hostOps0_fresh (B0 m ρ)),
    .region (regK0 m ρ),
    .host (hsegK hostOps1 hostOps1_sub hostOps1_fresh (B2 m ρ)),
    .region (regK1 m ρ),
    .host (hsegK hostOps2 hostOps2_sub hostOps2_fresh (B4 m ρ)),
    .region (regK2 m ρ),
    .host (hsegK hostOps3 hostOps3_sub hostOps3_fresh (B6 m ρ)) ]
theorem main_runK (c : Dev nD) : main (F := F) c = Pipeline.Seg.run (segsK m ρ) := (main_chain c).trans (by chain_rfl)

set_option backward.isDefEq.respectTransparency.types false in
/-- Every weakly fair execution of @main from memory m with zero counters terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) admK (pdatsK m ρ) () cellOf_inj emb₁ defs₀ 𝒱K LK lvK m ρ main (segsK m ρ)
    (fun c Q => by rw [main_runK m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RK c)) (Tₙ := TlastK m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (B7 m ρ c) ∗ RK c) ⊢ _
      iintro ⟨Hh, Hp, HO⟩
      isplitl [Hh Hp]
      · isplitl [Hh]; · iexact Hh
        iexact Hp
      iexact HO⟩)
    (hinit := by
      refine Pipeline.initEach LK lvK fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucK main_arg0 (by decide))).trans (B7_main_arg0 m ρ c),
     (h c _ (mem_ucK main_arg1 (by decide))).trans (B7_main_arg1 m ρ c),
     (h c _ (mem_ucK main_arg2 (by decide))).trans (B7_main_arg2 m ρ c),
     (h c _ (mem_ucK main_arg3 (by decide))).trans (B7_main_arg3 m ρ c),
     (h c _ (mem_ucK main_arg4 (by decide))).trans (B7_main_arg4 m ρ c),
     (h c _ (mem_ucK main_arg5 (by decide))).trans (B7_main_arg5 m ρ c),
     (h c _ (mem_ucK main_arg6 (by decide))).trans (B7_main_arg6 m ρ c),
     (h c _ (mem_ucK main_arg7 (by decide))).trans (B7_main_arg7 m ρ c)⟩) (run_all m ρ)

end Cert.KernelIdeal.Hand

end
-- ==== Proof.Spec.lean ====
/-
  One output entry of the bi-interaction layer, as a function of one row of the node features a, the same
  row of the aggregated neighbour features b, one column of each weight matrix and one entry of each bias:

      cell a b u β v γ = act (Σ_k (a k + b k) · u k + β) + act (Σ_k (a k · b k) · v k + γ),

  where act x is x when 0 ≤ x and slope · x otherwise (a leaky rectifier; the slope is the binary32
  word 0x3C23D70A, the same word in both programs, never evaluated).  Everything is on the extended reals.
-/
import Mathlib
import Idealize.ShloMosaic.Lib.ValueIdx
import Idealize.ShloMosaic.PureOps.Ideal.Laws

namespace Cert.BiSpec

open Idealize.ShloMosaic

/-- The leaky rectifier on the extended reals: the comparison with zero selects between x and slope · x. -/
noncomputable def act (x : EReal) : EReal :=
  Scalar.select (Ideal.cmp .oge x (Ideal.ofBits .f32 0x00000000#32)) x (Ideal.ofBits .f32 0x3C23D70A#32 * x)

/-- One entry of a layer's output from a row of features, the same row of aggregated features, a column of each
    weight matrix and an entry of each bias. -/
noncomputable def cell (a b : Fin 64 → EReal) (u : Fin 64 → EReal) (β : EReal) (v : Fin 64 → EReal) (γ : EReal) : EReal :=
  act ((∑ k : Fin 64, (a k + b k) * u k) + β) + act ((∑ k : Fin 64, (a k * b k) * v k) + γ)

end Cert.BiSpec
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.KPay.lean ====
/-
  One entry of a row block's dense layer, as the kernel body computes it.

  The body's arithmetic on a block of 10000 rows is, with x the block of node features, y the same block of aggregated
  features, W1, W2 the weight matrices and c1, c2 the biases as one-row matrices,

      rect (((x + y) W1) + rows c1) + rect (((x ∘ y) W2) + rows c2),

  where rows c lays the one row of c along every row, rect compares with zero and selects between its argument and the
  slope times its argument, and both products accumulate into a zero array. Read at entry (p, q) it is the cell of
  row p of x, row p of y, column q of each weight matrix and entry q of each bias: the products become the sums over
  the contracted coordinate, the spread biases their entry (0, q), and every other operation acts entry by entry.
-/
import proofs.«100247_j50328426774833_1_alg».proof.Proof.Gen.KernelIdeal.Skeleton
import proofs.«100247_j50328426774833_1_alg».proof.Proof.Spec
import proofs.«100247_j50328426774833_1_alg».proof.Proof.LibDot
import Idealize.ShloMosaic.Lib.ValueIdx
import Idealize.ShloMosaic.Lib.Pipeline.Value

namespace Cert.KernelIdeal.Hand

open Cert.KernelIdeal Cert.KernelIdeal.Gen Idealize.ShloMosaic Idealize.ShloMosaic.ValueIdx

/-- The body's product contracts axis 1 of its left operand with axis 0 of its right operand and nothing else. -/
theorem plainK : Cert.LibDot.Plain dot_S10000x64_S64x64_S10000x64_1_0_0_1_n_n where
  hrank := rfl
  hs := rfl
  hl0 := fun _ _ => rfl
  hl1 := fun j k => DotDims.lhsIdx_val_of_single dot_S10000x64_S64x64_S10000x64_1_0_0_1_n_n rfl j k
  hr0 := fun j k => DotDims.rhsIdx_val_of_single dot_S10000x64_S64x64_S10000x64_1_0_0_1_n_n rfl j k
  hr1 := fun _ _ => rfl

/-- A one-row matrix laid along the 10000 rows of a block, read at (p, q), is its entry (0, q). -/
theorem bias_apply (c : FVec Ideal S1x64 .f32) (p : Fin 10000) (q : Fin 64) :
    broadcastTo S10000x64 c broadcasts_S1x64_S10000x64 (ix2 p q) = c (ix2 (0 : Fin 1) q) := by
  refine broadcastTo_apply c broadcasts_S1x64_S10000x64 (ix2 p q) (ix2 (0 : Fin 1) q) ?_
  intro a
  match a with
  | ⟨0, _⟩ => rfl
  | ⟨1, _⟩ => rfl

/-- The first layer's body at entry (p, q) is the cell of rows p and column q. -/
theorem k0_pay1_apply (x0 x1 : Vec Ideal S10000x64 .f32) (w1 w2 : Vec Ideal S64x64 .f32) (c1 c2 : Vec Ideal S1x64 .f32) (p : Fin 10000) (q : Fin 64) :
    Gen.k0_pay1 x0 x1 w1 w2 c1 c2 (ValueIdx.ix2 p q)
      = Cert.BiSpec.cell (fun k => x0 (ValueIdx.ix2 p k)) (fun k => x1 (ValueIdx.ix2 p k)) (fun k => w1 (ValueIdx.ix2 k q)) (c1 (ValueIdx.ix2 0 q)) (fun k => w2 (ValueIdx.ix2 k q)) (c2 (ValueIdx.ix2 0 q)) := by
  unfold Gen.k0_pay1
  simp only [shapeCast_self]
  simp only [addf_apply, select_apply, cmpf_apply, mulf_apply, broadcast_apply, bias_apply,
    Cert.LibDot.matmul_ix2 plainK]
  rfl

/-- The second layer's body at entry (p, q) is the cell of rows p and column q. -/
theorem k1_pay1_apply (x0 x1 : Vec Ideal S10000x64 .f32) (w1 w2 : Vec Ideal S64x64 .f32) (c1 c2 : Vec Ideal S1x64 .f32) (p : Fin 10000) (q : Fin 64) :
    Gen.k1_pay1 x0 x1 w1 w2 c1 c2 (ValueIdx.ix2 p q)
      = Cert.BiSpec.cell (fun k => x0 (ValueIdx.ix2 p k)) (fun k => x1 (ValueIdx.ix2 p k)) (fun k => w1 (ValueIdx.ix2 k q)) (c1 (ValueIdx.ix2 0 q)) (fun k => w2 (ValueIdx.ix2 k q)) (c2 (ValueIdx.ix2 0 q)) := by
  unfold Gen.k1_pay1
  simp only [shapeCast_self]
  simp only [addf_apply, select_apply, cmpf_apply, mulf_apply, broadcast_apply, bias_apply,
    Cert.LibDot.matmul_ix2 plainK]
  rfl

/-- The third layer's body at entry (p, q) is the cell of rows p and column q. -/
theorem k2_pay1_apply (x0 x1 : Vec Ideal S10000x64 .f32) (w1 w2 : Vec Ideal S64x64 .f32) (c1 c2 : Vec Ideal S1x64 .f32) (p : Fin 10000) (q : Fin 64) :
    Gen.k2_pay1 x0 x1 w1 w2 c1 c2 (ValueIdx.ix2 p q)
      = Cert.BiSpec.cell (fun k => x0 (ValueIdx.ix2 p k)) (fun k => x1 (ValueIdx.ix2 p k)) (fun k => w1 (ValueIdx.ix2 k q)) (c1 (ValueIdx.ix2 0 q)) (fun k => w2 (ValueIdx.ix2 k q)) (c2 (ValueIdx.ix2 0 q)) := by
  unfold Gen.k2_pay1
  simp only [shapeCast_self]
  simp only [addf_apply, select_apply, cmpf_apply, mulf_apply, broadcast_apply, bias_apply,
    Cert.LibDot.matmul_ix2 plainK]
  rfl

end Cert.KernelIdeal.Hand
-- ==== Proof.KLayer.lean ====
/-
  A layer's output array as one function of the six arrays its region reads: entry (r, q) is the cell of row r of the
  features, row r of the aggregated features, column q of the two weight matrices and entry q of the two bias rows.
-/
import proofs.«100247_j50328426774833_1_alg».proof.Proof.Gen.KernelIdeal
import proofs.«100247_j50328426774833_1_alg».proof.Proof.Spec
import Idealize.ShloMosaic.Lib.ValueIdx
import Idealize.ShloMosaic.PureOps.Ideal

noncomputable section

namespace Cert.KernelIdeal.Hand

open Cert.KernelIdeal Idealize.ShloMosaic Idealize.ShloMosaic.ValueIdx

/-- A layer's output array from the features, the aggregated features, the two weight matrices and the two bias rows. -/
def klayer (h hn : FVec Ideal S100000x64 .f32) (W1 : FVec Ideal S64x64 .f32) (b1 : FVec Ideal S1x64 .f32)
    (W2 : FVec Ideal S64x64 .f32) (b2 : FVec Ideal S1x64 .f32) : FVec Ideal S100000x64 .f32 :=
  fun i => Cert.BiSpec.cell (fun k => h (ix2 (n0 := 100000) (n1 := 64) (i 0) k)) (fun k => hn (ix2 (n0 := 100000) (n1 := 64) (i 0) k))
    (fun k => W1 (ix2 (n0 := 64) (n1 := 64) k (i 1))) (b1 (ix2 (n0 := 1) (n1 := 64) 0 (i 1)))
    (fun k => W2 (ix2 (n0 := 64) (n1 := 64) k (i 1))) (b2 (ix2 (n0 := 1) (n1 := 64) 0 (i 1)))

/-- Cells of entrywise equal data are equal. -/
theorem cell_congr {a a' b b' u u' v v' : Fin 64 → EReal} {β β' γ γ' : EReal} (ha : ∀ k, a k = a' k) (hb : ∀ k, b k = b' k)
    (hu : ∀ k, u k = u' k) (hβ : β = β') (hv : ∀ k, v k = v' k) (hγ : γ = γ') :
    Cert.BiSpec.cell a b u β v γ = Cert.BiSpec.cell a' b' u' β' v' γ' := by
  rw [funext ha, funext hb, funext hu, hβ, funext hv, hγ]

end Cert.KernelIdeal.Hand

end
-- ==== Proof.KernelIdealValue.lean ====
/-
  From blocks to arrays.  A region's output array, after its ten write-backs, is one function of the six arrays the
  region reads: entry (r, q) is the cell of row r of the features, row r of the aggregated features, column q of the
  two weight matrices and entry q of the two bias rows.  Point t of the grid writes rows 10000 t .. 10000 t + 9999, so
  row r is written by point r / 10000; the feature blocks at point t are the same rows of their arrays, and the
  weights' and biases' one block is their whole array.
-/
import proofs.«100247_j50328426774833_1_alg».proof.Proof.KernelIdealBody
import proofs.«100247_j50328426774833_1_alg».proof.Proof.KPay
import proofs.«100247_j50328426774833_1_alg».proof.Proof.Spec
import proofs.«100247_j50328426774833_1_alg».proof.Proof.KLayer
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

section
variable (V : (c : Dev nD) → (b : Ref sig .tc) → Buf (Elt Ideal) ((c : Thread nD τ).loc b))

/-! ## Region 0 -/

/-- The printed index maps over the grid: the feature windows and the output move down one block of rows per point;
    the weights and biases stay at their one block. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-- Window 0's block at point t, at an entry, is the array at the entry's place ten thousand rows per block down. -/
theorem blk0_0 (c : Dev nD) (t : Fin cfg0.N) (p : Fin 10000) (k : Fin 64) (i : S100000x64.Idx)
    (h0 : (i 0).val = t.val * 10000 + p.val) (h1 : (i 1).val = k.val) :
    (iblk0 V c 0 t : Vec Ideal S10000x64 .f32) (ix2 p k) = (V c main_arg0 : S100000x64.Idx → Elt Ideal .f32) i := by
  obtain ⟨e0, e1, -, -, -, -, -, -, -, -, -, -, -, -⟩ := idx_facts0 t
  unfold iblk0
  rw [View.read_apply]
  show V c main_arg0 _ = V c main_arg0 _
  congr 1
  funext a
  apply Fin.ext
  match a with
  | ⟨0, _⟩ => show win0_0.index t 0 * 10000 + 1 * p.val = (i 0).val; rw [e0, h0]; omega
  | ⟨1, _⟩ => show win0_0.index t 1 * 64 + 1 * k.val = (i 1).val; rw [e1, h1]; omega

/-- Window 1's block at point t, at an entry, is the array at the entry's place ten thousand rows per block down. -/
theorem blk0_1 (c : Dev nD) (t : Fin cfg0.N) (p : Fin 10000) (k : Fin 64) (i : S100000x64.Idx)
    (h0 : (i 0).val = t.val * 10000 + p.val) (h1 : (i 1).val = k.val) :
    (iblk0 V c 1 t : Vec Ideal S10000x64 .f32) (ix2 p k) = (V c main_v12 : S100000x64.Idx → Elt Ideal .f32) i := by
  obtain ⟨-, -, e0, e1, -, -, -, -, -, -, -, -, -, -⟩ := idx_facts0 t
  unfold iblk0
  rw [View.read_apply]
  show V c main_v12 _ = V c main_v12 _
  congr 1
  funext a
  apply Fin.ext
  match a with
  | ⟨0, _⟩ => show win0_1.index t 0 * 10000 + 1 * p.val = (i 0).val; rw [e0, h0]; omega
  | ⟨1, _⟩ => show win0_1.index t 1 * 64 + 1 * k.val = (i 1).val; rw [e1, h1]; omega

/-- Window 2's block at point t, at an entry, is the array at the entry's place. -/
theorem blk0_2 (c : Dev nD) (t : Fin cfg0.N) (p : Fin 64) (k : Fin 64) (i : S64x64.Idx)
    (h0 : (i 0).val = p.val) (h1 : (i 1).val = k.val) :
    (iblk0 V c 2 t : Vec Ideal S64x64 .f32) (ix2 p k) = (V c main_v14 : S64x64.Idx → Elt Ideal .f32) i := by
  obtain ⟨-, -, -, -, e0, e1, -, -, -, -, -, -, -, -⟩ := idx_facts0 t
  unfold iblk0
  rw [View.read_apply]
  show V c main_v14 _ = V c main_v14 _
  congr 1
  funext a
  apply Fin.ext
  match a with
  | ⟨0, _⟩ => show win0_2.index t 0 * 64 + 1 * p.val = (i 0).val; rw [e0, h0]; omega
  | ⟨1, _⟩ => show win0_2.index t 1 * 64 + 1 * k.val = (i 1).val; rw [e1, h1]; omega

/-- Window 3's block at point t, at an entry, is the array at the entry's place. -/
theorem blk0_3 (c : Dev nD) (t : Fin cfg0.N) (p : Fin 1) (k : Fin 64) (i : S1x64.Idx)
    (h0 : (i 0).val = p.val) (h1 : (i 1).val = k.val) :
    (iblk0 V c 3 t : Vec Ideal S1x64 .f32) (ix2 p k) = (V c main_v21 : S1x64.Idx → Elt Ideal .f32) i := by
  obtain ⟨-, -, -, -, -, -, e0, e1, -, -, -, -, -, -⟩ := idx_facts0 t
  unfold iblk0
  rw [View.read_apply]
  show V c main_v21 _ = V c main_v21 _
  congr 1
  funext a
  apply Fin.ext
  match a with
  | ⟨0, _⟩ => show win0_3.index t 0 * 1 + 1 * p.val = (i 0).val; rw [e0, h0]; omega
  | ⟨1, _⟩ => show win0_3.index t 1 * 64 + 1 * k.val = (i 1).val; rw [e1, h1]; omega

/-- Window 4's block at point t, at an entry, is the array at the entry's place. -/
theorem blk0_4 (c : Dev nD) (t : Fin cfg0.N) (p : Fin 64) (k : Fin 64) (i : S64x64.Idx)
    (h0 : (i 0).val = p.val) (h1 : (i 1).val = k.val) :
    (iblk0 V c 4 t : Vec Ideal S64x64 .f32) (ix2 p k) = (V c main_v18 : S64x64.Idx → Elt Ideal .f32) i := by
  obtain ⟨-, -, -, -, -, -, -, -, e0, e1, -, -, -, -⟩ := idx_facts0 t
  unfold iblk0
  rw [View.read_apply]
  show V c main_v18 _ = V c main_v18 _
  congr 1
  funext a
  apply Fin.ext
  match a with
  | ⟨0, _⟩ => show win0_4.index t 0 * 64 + 1 * p.val = (i 0).val; rw [e0, h0]; omega
  | ⟨1, _⟩ => show win0_4.index t 1 * 64 + 1 * k.val = (i 1).val; rw [e1, h1]; omega

/-- Window 5's block at point t, at an entry, is the array at the entry's place. -/
theorem blk0_5 (c : Dev nD) (t : Fin cfg0.N) (p : Fin 1) (k : Fin 64) (i : S1x64.Idx)
    (h0 : (i 0).val = p.val) (h1 : (i 1).val = k.val) :
    (iblk0 V c 5 t : Vec Ideal S1x64 .f32) (ix2 p k) = (V c main_v22 : S1x64.Idx → Elt Ideal .f32) i := by
  obtain ⟨-, -, -, -, -, -, -, -, -, -, e0, e1, -, -⟩ := idx_facts0 t
  unfold iblk0
  rw [View.read_apply]
  show V c main_v22 _ = V c main_v22 _
  congr 1
  funext a
  apply Fin.ext
  match a with
  | ⟨0, _⟩ => show win0_5.index t 0 * 1 + 1 * p.val = (i 0).val; rw [e0, h0]; omega
  | ⟨1, _⟩ => show win0_5.index t 1 * 64 + 1 * k.val = (i 1).val; rw [e1, h1]; omega

/-- What point t writes back is block t of the layer function of the arrays as the region finds them. -/
theorem flushed0_eq (c : Dev nD) (t : Fin cfg0.N) :
    (dat0 V c).flushed 6 t = ((cfg0.win 6).blk t).view.read (Elt Ideal)
      (klayer (V c main_arg0) (V c main_v12) (V c main_v14) (V c main_v21) (V c main_v18) (V c main_v22)) := by
  show (cfg0.win 6).cut (grid0.coords t) ((dat0 V c).after 6 t) = _
  rw [after0_6]
  unfold out0_6
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  refine (k0_pay1_apply _ _ _ _ _ _ p q).trans ?_
  obtain ⟨-, -, -, -, -, -, -, -, -, -, -, -, e60, e61⟩ := idx_facts0 t
  have hi0 : ((((cfg0.win 6).blk t).view.emb (ix2 p q)) 0).val = t.val * 10000 + p.val := by
    show win0_6.index t 0 * 10000 + 1 * p.val = _; rw [e60]; omega
  have hi1 : ((((cfg0.win 6).blk t).view.emb (ix2 p q)) 1).val = q.val := by
    show win0_6.index t 1 * 64 + 1 * q.val = _; rw [e61]; omega
  rw [View.read_apply]
  show Cert.BiSpec.cell _ _ _ _ _ _ = Cert.BiSpec.cell _ _ _ _ _ _
  exact cell_congr (fun k => blk0_0 V c t p k _ hi0 rfl) (fun k => blk0_1 V c t p k _ hi0 rfl)
    (fun k => blk0_2 V c t k q _ rfl hi1) (blk0_3 V c t 0 q _ rfl hi1)
    (fun k => blk0_4 V c t k q _ rfl hi1) (blk0_5 V c t 0 q _ rfl hi1)

/-- An index of the output array is in point t's block iff each coordinate is in the block's range. -/
theorem mem_blk0 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v23).slice (win0_6.rect t)).set ↔ _
  rw [View.set_slice_whole, Rect.mem_set_unit]
  exact Iff.rfl

/-- Row r lies in the block of point r / 10000. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 10 := N_0
  have hlt : (i 0).val / 10000 < cfg0.N := by rw [hN]; omega
  refine ⟨⟨(i 0).val / 10000, hlt⟩, flush0_6 _, ?_⟩
  rw [mem_blk0]
  obtain ⟨-, -, -, -, -, -, -, -, -, -, -, -, e60, e61⟩ := idx_facts0 ⟨(i 0).val / 10000, hlt⟩
  intro a
  match a with
  | ⟨0, _⟩ =>
    show win0_6.index ⟨(i 0).val / 10000, hlt⟩ 0 * 10000 ≤ (i 0).val ∧ (i 0).val < win0_6.index ⟨(i 0).val / 10000, hlt⟩ 0 * 10000 + 10000
    rw [e60]; show (i 0).val / 10000 * 10000 ≤ (i 0).val ∧ (i 0).val < (i 0).val / 10000 * 10000 + 10000; omega
  | ⟨1, _⟩ =>
    show win0_6.index ⟨(i 0).val / 10000, hlt⟩ 1 * 64 ≤ (i 1).val ∧ (i 1).val < win0_6.index ⟨(i 0).val / 10000, hlt⟩ 1 * 64 + 64
    rw [e61]; omega

/-- The output array after region 0: the layer function of the arrays as the region finds them. -/
theorem final0 (c : Dev nD) : (dat0 V c).arrAt 6 cfg0.N
    = klayer (V c main_arg0) (V c main_v12) (V c main_v14) (V c main_v21) (V c main_v18) (V c main_v22) :=
  (dat0 V c).arrAt_eq_of_cover 6 _ (fun t _ => flushed0_eq V c t) (cover0)

/-! ## Region 1 -/

/-- The printed index maps over the grid: the feature windows and the output move down one block of rows per point;
    the weights and biases stay at their one block. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- Window 0's block at point t, at an entry, is the array at the entry's place ten thousand rows per block down. -/
theorem blk1_0 (c : Dev nD) (t : Fin cfg1.N) (p : Fin 10000) (k : Fin 64) (i : S100000x64.Idx)
    (h0 : (i 0).val = t.val * 10000 + p.val) (h1 : (i 1).val = k.val) :
    (iblk1 V c 0 t : Vec Ideal S10000x64 .f32) (ix2 p k) = (V c main_v23 : S100000x64.Idx → Elt Ideal .f32) i := by
  obtain ⟨e0, e1, -, -, -, -, -, -, -, -, -, -, -, -⟩ := idx_facts1 t
  unfold iblk1
  rw [View.read_apply]
  show V c main_v23 _ = V c main_v23 _
  congr 1
  funext a
  apply Fin.ext
  match a with
  | ⟨0, _⟩ => show win1_0.index t 0 * 10000 + 1 * p.val = (i 0).val; rw [e0, h0]; omega
  | ⟨1, _⟩ => show win1_0.index t 1 * 64 + 1 * k.val = (i 1).val; rw [e1, h1]; omega

/-- Window 1's block at point t, at an entry, is the array at the entry's place ten thousand rows per block down. -/
theorem blk1_1 (c : Dev nD) (t : Fin cfg1.N) (p : Fin 10000) (k : Fin 64) (i : S100000x64.Idx)
    (h0 : (i 0).val = t.val * 10000 + p.val) (h1 : (i 1).val = k.val) :
    (iblk1 V c 1 t : Vec Ideal S10000x64 .f32) (ix2 p k) = (V c main_v36 : S100000x64.Idx → Elt Ideal .f32) i := by
  obtain ⟨-, -, e0, e1, -, -, -, -, -, -, -, -, -, -⟩ := idx_facts1 t
  unfold iblk1
  rw [View.read_apply]
  show V c main_v36 _ = V c main_v36 _
  congr 1
  funext a
  apply Fin.ext
  match a with
  | ⟨0, _⟩ => show win1_1.index t 0 * 10000 + 1 * p.val = (i 0).val; rw [e0, h0]; omega
  | ⟨1, _⟩ => show win1_1.index t 1 * 64 + 1 * k.val = (i 1).val; rw [e1, h1]; omega

/-- Window 2's block at point t, at an entry, is the array at the entry's place. -/
theorem blk1_2 (c : Dev nD) (t : Fin cfg1.N) (p : Fin 64) (k : Fin 64) (i : S64x64.Idx)
    (h0 : (i 0).val = p.val) (h1 : (i 1).val = k.val) :
    (iblk1 V c 2 t : Vec Ideal S64x64 .f32) (ix2 p k) = (V c main_v38 : S64x64.Idx → Elt Ideal .f32) i := by
  obtain ⟨-, -, -, -, e0, e1, -, -, -, -, -, -, -, -⟩ := idx_facts1 t
  unfold iblk1
  rw [View.read_apply]
  show V c main_v38 _ = V c main_v38 _
  congr 1
  funext a
  apply Fin.ext
  match a with
  | ⟨0, _⟩ => show win1_2.index t 0 * 64 + 1 * p.val = (i 0).val; rw [e0, h0]; omega
  | ⟨1, _⟩ => show win1_2.index t 1 * 64 + 1 * k.val = (i 1).val; rw [e1, h1]; omega

/-- Window 3's block at point t, at an entry, is the array at the entry's place. -/
theorem blk1_3 (c : Dev nD) (t : Fin cfg1.N) (p : Fin 1) (k : Fin 64) (i : S1x64.Idx)
    (h0 : (i 0).val = p.val) (h1 : (i 1).val = k.val) :
    (iblk1 V c 3 t : Vec Ideal S1x64 .f32) (ix2 p k) = (V c main_v45 : S1x64.Idx → Elt Ideal .f32) i := by
  obtain ⟨-, -, -, -, -, -, e0, e1, -, -, -, -, -, -⟩ := idx_facts1 t
  unfold iblk1
  rw [View.read_apply]
  show V c main_v45 _ = V c main_v45 _
  congr 1
  funext a
  apply Fin.ext
  match a with
  | ⟨0, _⟩ => show win1_3.index t 0 * 1 + 1 * p.val = (i 0).val; rw [e0, h0]; omega
  | ⟨1, _⟩ => show win1_3.index t 1 * 64 + 1 * k.val = (i 1).val; rw [e1, h1]; omega

/-- Window 4's block at point t, at an entry, is the array at the entry's place. -/
theorem blk1_4 (c : Dev nD) (t : Fin cfg1.N) (p : Fin 64) (k : Fin 64) (i : S64x64.Idx)
    (h0 : (i 0).val = p.val) (h1 : (i 1).val = k.val) :
    (iblk1 V c 4 t : Vec Ideal S64x64 .f32) (ix2 p k) = (V c main_v42 : S64x64.Idx → Elt Ideal .f32) i := by
  obtain ⟨-, -, -, -, -, -, -, -, e0, e1, -, -, -, -⟩ := idx_facts1 t
  unfold iblk1
  rw [View.read_apply]
  show V c main_v42 _ = V c main_v42 _
  congr 1
  funext a
  apply Fin.ext
  match a with
  | ⟨0, _⟩ => show win1_4.index t 0 * 64 + 1 * p.val = (i 0).val; rw [e0, h0]; omega
  | ⟨1, _⟩ => show win1_4.index t 1 * 64 + 1 * k.val = (i 1).val; rw [e1, h1]; omega

/-- Window 5's block at point t, at an entry, is the array at the entry's place. -/
theorem blk1_5 (c : Dev nD) (t : Fin cfg1.N) (p : Fin 1) (k : Fin 64) (i : S1x64.Idx)
    (h0 : (i 0).val = p.val) (h1 : (i 1).val = k.val) :
    (iblk1 V c 5 t : Vec Ideal S1x64 .f32) (ix2 p k) = (V c main_v46 : S1x64.Idx → Elt Ideal .f32) i := by
  obtain ⟨-, -, -, -, -, -, -, -, -, -, e0, e1, -, -⟩ := idx_facts1 t
  unfold iblk1
  rw [View.read_apply]
  show V c main_v46 _ = V c main_v46 _
  congr 1
  funext a
  apply Fin.ext
  match a with
  | ⟨0, _⟩ => show win1_5.index t 0 * 1 + 1 * p.val = (i 0).val; rw [e0, h0]; omega
  | ⟨1, _⟩ => show win1_5.index t 1 * 64 + 1 * k.val = (i 1).val; rw [e1, h1]; omega

/-- What point t writes back is block t of the layer function of the arrays as the region finds them. -/
theorem flushed1_eq (c : Dev nD) (t : Fin cfg1.N) :
    (dat1 V c).flushed 6 t = ((cfg1.win 6).blk t).view.read (Elt Ideal)
      (klayer (V c main_v23) (V c main_v36) (V c main_v38) (V c main_v45) (V c main_v42) (V c main_v46)) := by
  show (cfg1.win 6).cut (grid1.coords t) ((dat1 V c).after 6 t) = _
  rw [after1_6]
  unfold out1_6
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  refine (k1_pay1_apply _ _ _ _ _ _ p q).trans ?_
  obtain ⟨-, -, -, -, -, -, -, -, -, -, -, -, e60, e61⟩ := idx_facts1 t
  have hi0 : ((((cfg1.win 6).blk t).view.emb (ix2 p q)) 0).val = t.val * 10000 + p.val := by
    show win1_6.index t 0 * 10000 + 1 * p.val = _; rw [e60]; omega
  have hi1 : ((((cfg1.win 6).blk t).view.emb (ix2 p q)) 1).val = q.val := by
    show win1_6.index t 1 * 64 + 1 * q.val = _; rw [e61]; omega
  rw [View.read_apply]
  show Cert.BiSpec.cell _ _ _ _ _ _ = Cert.BiSpec.cell _ _ _ _ _ _
  exact cell_congr (fun k => blk1_0 V c t p k _ hi0 rfl) (fun k => blk1_1 V c t p k _ hi0 rfl)
    (fun k => blk1_2 V c t k q _ rfl hi1) (blk1_3 V c t 0 q _ rfl hi1)
    (fun k => blk1_4 V c t k q _ rfl hi1) (blk1_5 V c t 0 q _ rfl hi1)

/-- An index of the output array is in point t's block iff each coordinate is in the block's range. -/
theorem mem_blk1 (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v47).slice (win1_6.rect t)).set ↔ _
  rw [View.set_slice_whole, Rect.mem_set_unit]
  exact Iff.rfl

/-- Row r lies in the block of point r / 10000. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 10 := N_1
  have hlt : (i 0).val / 10000 < cfg1.N := by rw [hN]; omega
  refine ⟨⟨(i 0).val / 10000, hlt⟩, flush1_6 _, ?_⟩
  rw [mem_blk1]
  obtain ⟨-, -, -, -, -, -, -, -, -, -, -, -, e60, e61⟩ := idx_facts1 ⟨(i 0).val / 10000, hlt⟩
  intro a
  match a with
  | ⟨0, _⟩ =>
    show win1_6.index ⟨(i 0).val / 10000, hlt⟩ 0 * 10000 ≤ (i 0).val ∧ (i 0).val < win1_6.index ⟨(i 0).val / 10000, hlt⟩ 0 * 10000 + 10000
    rw [e60]; show (i 0).val / 10000 * 10000 ≤ (i 0).val ∧ (i 0).val < (i 0).val / 10000 * 10000 + 10000; omega
  | ⟨1, _⟩ =>
    show win1_6.index ⟨(i 0).val / 10000, hlt⟩ 1 * 64 ≤ (i 1).val ∧ (i 1).val < win1_6.index ⟨(i 0).val / 10000, hlt⟩ 1 * 64 + 64
    rw [e61]; omega

/-- The output array after region 1: the layer function of the arrays as the region finds them. -/
theorem final1 (c : Dev nD) : (dat1 V c).arrAt 6 cfg1.N
    = klayer (V c main_v23) (V c main_v36) (V c main_v38) (V c main_v45) (V c main_v42) (V c main_v46) :=
  (dat1 V c).arrAt_eq_of_cover 6 _ (fun t _ => flushed1_eq V c t) (cover1)

/-! ## Region 2 -/

/-- The printed index maps over the grid: the feature windows and the output move down one block of rows per point;
    the weights and biases stay at their one block. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

/-- Window 0's block at point t, at an entry, is the array at the entry's place ten thousand rows per block down. -/
theorem blk2_0 (c : Dev nD) (t : Fin cfg2.N) (p : Fin 10000) (k : Fin 64) (i : S100000x64.Idx)
    (h0 : (i 0).val = t.val * 10000 + p.val) (h1 : (i 1).val = k.val) :
    (iblk2 V c 0 t : Vec Ideal S10000x64 .f32) (ix2 p k) = (V c main_v47 : S100000x64.Idx → Elt Ideal .f32) i := by
  obtain ⟨e0, e1, -, -, -, -, -, -, -, -, -, -, -, -⟩ := idx_facts2 t
  unfold iblk2
  rw [View.read_apply]
  show V c main_v47 _ = V c main_v47 _
  congr 1
  funext a
  apply Fin.ext
  match a with
  | ⟨0, _⟩ => show win2_0.index t 0 * 10000 + 1 * p.val = (i 0).val; rw [e0, h0]; omega
  | ⟨1, _⟩ => show win2_0.index t 1 * 64 + 1 * k.val = (i 1).val; rw [e1, h1]; omega

/-- Window 1's block at point t, at an entry, is the array at the entry's place ten thousand rows per block down. -/
theorem blk2_1 (c : Dev nD) (t : Fin cfg2.N) (p : Fin 10000) (k : Fin 64) (i : S100000x64.Idx)
    (h0 : (i 0).val = t.val * 10000 + p.val) (h1 : (i 1).val = k.val) :
    (iblk2 V c 1 t : Vec Ideal S10000x64 .f32) (ix2 p k) = (V c main_v60 : S100000x64.Idx → Elt Ideal .f32) i := by
  obtain ⟨-, -, e0, e1, -, -, -, -, -, -, -, -, -, -⟩ := idx_facts2 t
  unfold iblk2
  rw [View.read_apply]
  show V c main_v60 _ = V c main_v60 _
  congr 1
  funext a
  apply Fin.ext
  match a with
  | ⟨0, _⟩ => show win2_1.index t 0 * 10000 + 1 * p.val = (i 0).val; rw [e0, h0]; omega
  | ⟨1, _⟩ => show win2_1.index t 1 * 64 + 1 * k.val = (i 1).val; rw [e1, h1]; omega

/-- Window 2's block at point t, at an entry, is the array at the entry's place. -/
theorem blk2_2 (c : Dev nD) (t : Fin cfg2.N) (p : Fin 64) (k : Fin 64) (i : S64x64.Idx)
    (h0 : (i 0).val = p.val) (h1 : (i 1).val = k.val) :
    (iblk2 V c 2 t : Vec Ideal S64x64 .f32) (ix2 p k) = (V c main_v62 : S64x64.Idx → Elt Ideal .f32) i := by
  obtain ⟨-, -, -, -, e0, e1, -, -, -, -, -, -, -, -⟩ := idx_facts2 t
  unfold iblk2
  rw [View.read_apply]
  show V c main_v62 _ = V c main_v62 _
  congr 1
  funext a
  apply Fin.ext
  match a with
  | ⟨0, _⟩ => show win2_2.index t 0 * 64 + 1 * p.val = (i 0).val; rw [e0, h0]; omega
  | ⟨1, _⟩ => show win2_2.index t 1 * 64 + 1 * k.val = (i 1).val; rw [e1, h1]; omega

/-- Window 3's block at point t, at an entry, is the array at the entry's place. -/
theorem blk2_3 (c : Dev nD) (t : Fin cfg2.N) (p : Fin 1) (k : Fin 64) (i : S1x64.Idx)
    (h0 : (i 0).val = p.val) (h1 : (i 1).val = k.val) :
    (iblk2 V c 3 t : Vec Ideal S1x64 .f32) (ix2 p k) = (V c main_v69 : S1x64.Idx → Elt Ideal .f32) i := by
  obtain ⟨-, -, -, -, -, -, e0, e1, -, -, -, -, -, -⟩ := idx_facts2 t
  unfold iblk2
  rw [View.read_apply]
  show V c main_v69 _ = V c main_v69 _
  congr 1
  funext a
  apply Fin.ext
  match a with
  | ⟨0, _⟩ => show win2_3.index t 0 * 1 + 1 * p.val = (i 0).val; rw [e0, h0]; omega
  | ⟨1, _⟩ => show win2_3.index t 1 * 64 + 1 * k.val = (i 1).val; rw [e1, h1]; omega

/-- Window 4's block at point t, at an entry, is the array at the entry's place. -/
theorem blk2_4 (c : Dev nD) (t : Fin cfg2.N) (p : Fin 64) (k : Fin 64) (i : S64x64.Idx)
    (h0 : (i 0).val = p.val) (h1 : (i 1).val = k.val) :
    (iblk2 V c 4 t : Vec Ideal S64x64 .f32) (ix2 p k) = (V c main_v66 : S64x64.Idx → Elt Ideal .f32) i := by
  obtain ⟨-, -, -, -, -, -, -, -, e0, e1, -, -, -, -⟩ := idx_facts2 t
  unfold iblk2
  rw [View.read_apply]
  show V c main_v66 _ = V c main_v66 _
  congr 1
  funext a
  apply Fin.ext
  match a with
  | ⟨0, _⟩ => show win2_4.index t 0 * 64 + 1 * p.val = (i 0).val; rw [e0, h0]; omega
  | ⟨1, _⟩ => show win2_4.index t 1 * 64 + 1 * k.val = (i 1).val; rw [e1, h1]; omega

/-- Window 5's block at point t, at an entry, is the array at the entry's place. -/
theorem blk2_5 (c : Dev nD) (t : Fin cfg2.N) (p : Fin 1) (k : Fin 64) (i : S1x64.Idx)
    (h0 : (i 0).val = p.val) (h1 : (i 1).val = k.val) :
    (iblk2 V c 5 t : Vec Ideal S1x64 .f32) (ix2 p k) = (V c main_v70 : S1x64.Idx → Elt Ideal .f32) i := by
  obtain ⟨-, -, -, -, -, -, -, -, -, -, e0, e1, -, -⟩ := idx_facts2 t
  unfold iblk2
  rw [View.read_apply]
  show V c main_v70 _ = V c main_v70 _
  congr 1
  funext a
  apply Fin.ext
  match a with
  | ⟨0, _⟩ => show win2_5.index t 0 * 1 + 1 * p.val = (i 0).val; rw [e0, h0]; omega
  | ⟨1, _⟩ => show win2_5.index t 1 * 64 + 1 * k.val = (i 1).val; rw [e1, h1]; omega

/-- What point t writes back is block t of the layer function of the arrays as the region finds them. -/
theorem flushed2_eq (c : Dev nD) (t : Fin cfg2.N) :
    (dat2 V c).flushed 6 t = ((cfg2.win 6).blk t).view.read (Elt Ideal)
      (klayer (V c main_v47) (V c main_v60) (V c main_v62) (V c main_v69) (V c main_v66) (V c main_v70)) := by
  show (cfg2.win 6).cut (grid2.coords t) ((dat2 V c).after 6 t) = _
  rw [after2_6]
  unfold out2_6
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  refine (k2_pay1_apply _ _ _ _ _ _ p q).trans ?_
  obtain ⟨-, -, -, -, -, -, -, -, -, -, -, -, e60, e61⟩ := idx_facts2 t
  have hi0 : ((((cfg2.win 6).blk t).view.emb (ix2 p q)) 0).val = t.val * 10000 + p.val := by
    show win2_6.index t 0 * 10000 + 1 * p.val = _; rw [e60]; omega
  have hi1 : ((((cfg2.win 6).blk t).view.emb (ix2 p q)) 1).val = q.val := by
    show win2_6.index t 1 * 64 + 1 * q.val = _; rw [e61]; omega
  rw [View.read_apply]
  show Cert.BiSpec.cell _ _ _ _ _ _ = Cert.BiSpec.cell _ _ _ _ _ _
  exact cell_congr (fun k => blk2_0 V c t p k _ hi0 rfl) (fun k => blk2_1 V c t p k _ hi0 rfl)
    (fun k => blk2_2 V c t k q _ rfl hi1) (blk2_3 V c t 0 q _ rfl hi1)
    (fun k => blk2_4 V c t k q _ rfl hi1) (blk2_5 V c t 0 q _ rfl hi1)

/-- An index of the output array is in point t's block iff each coordinate is in the block's range. -/
theorem mem_blk2 (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v71).slice (win2_6.rect t)).set ↔ _
  rw [View.set_slice_whole, Rect.mem_set_unit]
  exact Iff.rfl

/-- Row r lies in the block of point r / 10000. -/
theorem cover2 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 10 := N_2
  have hlt : (i 0).val / 10000 < cfg2.N := by rw [hN]; omega
  refine ⟨⟨(i 0).val / 10000, hlt⟩, flush2_6 _, ?_⟩
  rw [mem_blk2]
  obtain ⟨-, -, -, -, -, -, -, -, -, -, -, -, e60, e61⟩ := idx_facts2 ⟨(i 0).val / 10000, hlt⟩
  intro a
  match a with
  | ⟨0, _⟩ =>
    show win2_6.index ⟨(i 0).val / 10000, hlt⟩ 0 * 10000 ≤ (i 0).val ∧ (i 0).val < win2_6.index ⟨(i 0).val / 10000, hlt⟩ 0 * 10000 + 10000
    rw [e60]; show (i 0).val / 10000 * 10000 ≤ (i 0).val ∧ (i 0).val < (i 0).val / 10000 * 10000 + 10000; omega
  | ⟨1, _⟩ =>
    show win2_6.index ⟨(i 0).val / 10000, hlt⟩ 1 * 64 ≤ (i 1).val ∧ (i 1).val < win2_6.index ⟨(i 0).val / 10000, hlt⟩ 1 * 64 + 64
    rw [e61]; omega

/-- The output array after region 2: the layer function of the arrays as the region finds them. -/
theorem final2 (c : Dev nD) : (dat2 V c).arrAt 6 cfg2.N
    = klayer (V c main_v47) (V c main_v60) (V c main_v62) (V c main_v69) (V c main_v66) (V c main_v70) :=
  (dat2 V c).arrAt_eq_of_cover 6 _ (fun t _ => flushed2_eq V c t) (cover2)

end

end Cert.KernelIdeal.Hand

end
-- ==== Proof.KernelIdealHost.lean ====
/-
  The kernel program's host operations between its regions, as pure functions of the arrays they read: per layer the
  aggregation of the node features (the same gather, scaling and scatter-add as the reference's), the layer's two
  weight matrices cut out of the stacked arrays, and its two biases cut out and laid as [1, 64] rows; at the end the
  four feature arrays side by side.  Each is read off a stretch of host operations from an arbitrary valuation of the
  buffers before the stretch.
-/
import proofs.«100247_j50328426774833_1_alg».proof.Proof.Gen.KernelIdeal.Launch
import Idealize.ShloMosaic.Lib.StableHlo.Run
import Idealize.ShloMosaic.PureOps.Ideal

noncomputable section

namespace Cert.KernelIdeal.Hand

open Cert.KernelIdeal Cert.KernelIdeal.Facts₀ Idealize.ShloMosaic Idealize.ShloMosaic.TcCoe Idealize.SL.Sem Idealize.ShloMosaic.StableHlo

/-- The aggregated neighbour features of the node features h. -/
def kagg (a : FVec Ideal S3200000 .f32) (src dst : IVec S3200000 32) (h : FVec Ideal S100000x64 .f32) : FVec Ideal S100000x64 .f32 :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (mulf
      (Host.gather gather_S100000x64_S3200000x1_S3200000x64_1_0_n_n_0_1_164 h
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x64 ![0, 1] bcast_S3200000x1_S3200000x64_0_1
        (broadcastInDim S3200000x1 ![0] bcast_S3200000_S3200000x1_0 a)))

def kwmat0 (w : FVec Ideal S3x64x64 .f32) : FVec Ideal S64x64 .f32 :=
  shapeCast S64x64 (extractStridedSlice S1x64x64 ![0, 0, 0] w slices_S3x64x64_S1x64x64_0_0_0) shapeCasts_S1x64x64_S64x64
def kwmat1 (w : FVec Ideal S3x64x64 .f32) : FVec Ideal S64x64 .f32 :=
  shapeCast S64x64 (extractStridedSlice S1x64x64 ![1, 0, 0] w slices_S3x64x64_S1x64x64_1_0_0) shapeCasts_S1x64x64_S64x64
def kwmat2 (w : FVec Ideal S3x64x64 .f32) : FVec Ideal S64x64 .f32 :=
  shapeCast S64x64 (extractStridedSlice S1x64x64 ![2, 0, 0] w slices_S3x64x64_S1x64x64_2_0_0) shapeCasts_S1x64x64_S64x64

def kbvec0 (b : FVec Ideal S3x64 .f32) : FVec Ideal S64 .f32 :=
  shapeCast S64 (extractStridedSlice S1x64 ![0, 0] b slices_S3x64_S1x64_0_0) shapeCasts_S1x64_S64
def kbvec1 (b : FVec Ideal S3x64 .f32) : FVec Ideal S64 .f32 :=
  shapeCast S64 (extractStridedSlice S1x64 ![1, 0] b slices_S3x64_S1x64_1_0) shapeCasts_S1x64_S64
def kbvec2 (b : FVec Ideal S3x64 .f32) : FVec Ideal S64 .f32 :=
  shapeCast S64 (extractStridedSlice S1x64 ![2, 0] b slices_S3x64_S1x64_2_0) shapeCasts_S1x64_S64

/-- A bias vector laid as a [1, 64] row. -/
def krow (b : FVec Ideal S64 .f32) : FVec Ideal S1x64 .f32 := shapeCast S1x64 b shapeCasts_S64_S1x64

def ksideBySide (x h1 h2 h3 : FVec Ideal S100000x64 .f32) : FVec Ideal S100000x256 .f32 :=
  concatenate S100000x256 1 [⟨S100000x64, x⟩, ⟨S100000x64, h1⟩, ⟨S100000x64, h2⟩, ⟨S100000x64, h3⟩]
    concatenates_S100000x64_S100000x64_S100000x64_S100000x64_S100000x256_d1

variable (V : Valuation τ sig (Elt Ideal))

theorem host0_v12 : StableHlo.after (Gen.hostOps0 (F := Ideal)) V (Proc.devRef .tc main_v12)
    = kagg (V (Proc.devRef .tc main_arg1)) (V (Proc.devRef .tc main_arg6)) (V (Proc.devRef .tc main_arg7)) (V (Proc.devRef .tc main_arg0)) := by
  after_results_simp; unfold kagg; rfl
theorem host0_v14 : StableHlo.after (Gen.hostOps0 (F := Ideal)) V (Proc.devRef .tc main_v14) = kwmat0 (V (Proc.devRef .tc main_arg2)) := by
  after_results; rfl
theorem host0_v21 : StableHlo.after (Gen.hostOps0 (F := Ideal)) V (Proc.devRef .tc main_v21) = krow (kbvec0 (V (Proc.devRef .tc main_arg3))) := by
  after_results; rfl
theorem host0_v18 : StableHlo.after (Gen.hostOps0 (F := Ideal)) V (Proc.devRef .tc main_v18) = kwmat0 (V (Proc.devRef .tc main_arg4)) := by
  after_results; rfl
theorem host0_v22 : StableHlo.after (Gen.hostOps0 (F := Ideal)) V (Proc.devRef .tc main_v22) = krow (kbvec0 (V (Proc.devRef .tc main_arg5))) := by
  after_results; rfl

theorem host1_v36 : StableHlo.after (Gen.hostOps1 (F := Ideal)) V (Proc.devRef .tc main_v36)
    = kagg (V (Proc.devRef .tc main_arg1)) (V (Proc.devRef .tc main_arg6)) (V (Proc.devRef .tc main_arg7)) (V (Proc.devRef .tc main_v23)) := by
  after_results_simp; unfold kagg; rfl
theorem host1_v38 : StableHlo.after (Gen.hostOps1 (F := Ideal)) V (Proc.devRef .tc main_v38) = kwmat1 (V (Proc.devRef .tc main_arg2)) := by
  after_results; rfl
theorem host1_v45 : StableHlo.after (Gen.hostOps1 (F := Ideal)) V (Proc.devRef .tc main_v45) = krow (kbvec1 (V (Proc.devRef .tc main_arg3))) := by
  after_results; rfl
theorem host1_v42 : StableHlo.after (Gen.hostOps1 (F := Ideal)) V (Proc.devRef .tc main_v42) = kwmat1 (V (Proc.devRef .tc main_arg4)) := by
  after_results; rfl
theorem host1_v46 : StableHlo.after (Gen.hostOps1 (F := Ideal)) V (Proc.devRef .tc main_v46) = krow (kbvec1 (V (Proc.devRef .tc main_arg5))) := by
  after_results; rfl

theorem host2_v60 : StableHlo.after (Gen.hostOps2 (F := Ideal)) V (Proc.devRef .tc main_v60)
    = kagg (V (Proc.devRef .tc main_arg1)) (V (Proc.devRef .tc main_arg6)) (V (Proc.devRef .tc main_arg7)) (V (Proc.devRef .tc main_v47)) := by
  after_results_simp; unfold kagg; rfl
theorem host2_v62 : StableHlo.after (Gen.hostOps2 (F := Ideal)) V (Proc.devRef .tc main_v62) = kwmat2 (V (Proc.devRef .tc main_arg2)) := by
  after_results; rfl
theorem host2_v69 : StableHlo.after (Gen.hostOps2 (F := Ideal)) V (Proc.devRef .tc main_v69) = krow (kbvec2 (V (Proc.devRef .tc main_arg3))) := by
  after_results; rfl
theorem host2_v66 : StableHlo.after (Gen.hostOps2 (F := Ideal)) V (Proc.devRef .tc main_v66) = kwmat2 (V (Proc.devRef .tc main_arg4)) := by
  after_results; rfl
theorem host2_v70 : StableHlo.after (Gen.hostOps2 (F := Ideal)) V (Proc.devRef .tc main_v70) = krow (kbvec2 (V (Proc.devRef .tc main_arg5))) := by
  after_results; rfl

theorem host3_v72 : StableHlo.after (Gen.hostOps3 (F := Ideal)) V (Proc.devRef .tc main_v72)
    = ksideBySide (V (Proc.devRef .tc main_arg0)) (V (Proc.devRef .tc main_v23)) (V (Proc.devRef .tc main_v47)) (V (Proc.devRef .tc main_v71)) := by
  after_results; rfl

end Cert.KernelIdeal.Hand

end
-- ==== Proof.KernelIdealNet.lean ====
/-
  The kernel program's result as one term of its argument arrays.  Following the buffer contents through @main: each
  region's output array is the layer function of the features it was given, of their aggregation (the host stretch
  before the region applied to the same features), and of the layer's weights and bias rows (cut out of the argument
  arrays, which nothing writes); the last host operation lays the input features and the three outputs side by side.
-/
import proofs.«100247_j50328426774833_1_alg».proof.Proof.KernelIdealRun
import proofs.«100247_j50328426774833_1_alg».proof.Proof.KernelIdealValue
import proofs.«100247_j50328426774833_1_alg».proof.Proof.KernelIdealHost

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem klayer_congr {h h' hn hn' : FVec Ideal S100000x64 .f32} {W1 W1' W2 W2' : FVec Ideal S64x64 .f32} {b1 b1' b2 b2' : FVec Ideal S1x64 .f32}
    (e0 : h = h') (e1 : hn = hn') (e2 : W1 = W1') (e3 : b1 = b1') (e4 : W2 = W2') (e5 : b2 = b2') :
    klayer h hn W1 b1 W2 b2 = klayer h' hn' W1' b1' W2' b2' := by rw [e0, e1, e2, e3, e4, e5]
theorem kagg_congr {a a' : FVec Ideal S3200000 .f32} {s s' d d' : IVec S3200000 32} {h h' : FVec Ideal S100000x64 .f32}
    (e0 : a = a') (e1 : s = s') (e2 : d = d') (e3 : h = h') : kagg a s d h = kagg a' s' d' h' := by rw [e0, e1, e2, e3]

/-- The features after layer 1, 2, 3, as the kernel program computes them. -/
def kh1 (c : Dev nD) : FVec Ideal S100000x64 .f32 :=
  klayer (m ((c : Thread nD τ).loc main_arg0)) (kagg (m ((c : Thread nD τ).loc main_arg1)) (m ((c : Thread nD τ).loc main_arg6)) (m ((c : Thread nD τ).loc main_arg7)) (m ((c : Thread nD τ).loc main_arg0))) (kwmat0 (m ((c : Thread nD τ).loc main_arg2))) (krow (kbvec0 (m ((c : Thread nD τ).loc main_arg3)))) (kwmat0 (m ((c : Thread nD τ).loc main_arg4))) (krow (kbvec0 (m ((c : Thread nD τ).loc main_arg5))))
def kh2 (c : Dev nD) : FVec Ideal S100000x64 .f32 :=
  klayer (kh1 m c) (kagg (m ((c : Thread nD τ).loc main_arg1)) (m ((c : Thread nD τ).loc main_arg6)) (m ((c : Thread nD τ).loc main_arg7)) (kh1 m c)) (kwmat1 (m ((c : Thread nD τ).loc main_arg2))) (krow (kbvec1 (m ((c : Thread nD τ).loc main_arg3)))) (kwmat1 (m ((c : Thread nD τ).loc main_arg4))) (krow (kbvec1 (m ((c : Thread nD τ).loc main_arg5))))
def kh3 (c : Dev nD) : FVec Ideal S100000x64 .f32 :=
  klayer (kh2 m c) (kagg (m ((c : Thread nD τ).loc main_arg1)) (m ((c : Thread nD τ).loc main_arg6)) (m ((c : Thread nD τ).loc main_arg7)) (kh2 m c)) (kwmat2 (m ((c : Thread nD τ).loc main_arg2))) (krow (kbvec2 (m ((c : Thread nD τ).loc main_arg3)))) (kwmat2 (m ((c : Thread nD τ).loc main_arg4))) (krow (kbvec2 (m ((c : Thread nD τ).loc main_arg5))))

/-! ## The argument arrays at each boundary -/
theorem B0_main_arg0 (c : Dev nD) : B0 m ρ c (Proc.devRef .tc main_arg0) = m ((c : Thread nD τ).loc main_arg0) := rfl
theorem B1_main_arg0 (c : Dev nD) : B1 m ρ c (Proc.devRef .tc main_arg0) = m ((c : Thread nD τ).loc main_arg0) := (B1_keep m ρ c main_arg0 (by decide)).trans rfl
theorem B2_main_arg0 (c : Dev nD) : B2 m ρ c (Proc.devRef .tc main_arg0) = m ((c : Thread nD τ).loc main_arg0) := (B2_in m ρ c 0 rfl).trans (B1_main_arg0 m ρ c)
theorem B3_main_arg0 (c : Dev nD) : B3 m ρ c (Proc.devRef .tc main_arg0) = m ((c : Thread nD τ).loc main_arg0) := (B3_keep m ρ c main_arg0 (by decide)).trans (B2_main_arg0 m ρ c)
theorem B4_main_arg0 (c : Dev nD) : B4 m ρ c (Proc.devRef .tc main_arg0) = m ((c : Thread nD τ).loc main_arg0) := (B4_of_ne m ρ c main_arg0 (by decide)).trans (B3_main_arg0 m ρ c)
theorem B5_main_arg0 (c : Dev nD) : B5 m ρ c (Proc.devRef .tc main_arg0) = m ((c : Thread nD τ).loc main_arg0) := (B5_keep m ρ c main_arg0 (by decide)).trans (B4_main_arg0 m ρ c)
theorem B6_main_arg0 (c : Dev nD) : B6 m ρ c (Proc.devRef .tc main_arg0) = m ((c : Thread nD τ).loc main_arg0) := (B6_of_ne m ρ c main_arg0 (by decide)).trans (B5_main_arg0 m ρ c)
theorem B0_main_arg1 (c : Dev nD) : B0 m ρ c (Proc.devRef .tc main_arg1) = m ((c : Thread nD τ).loc main_arg1) := rfl
theorem B1_main_arg1 (c : Dev nD) : B1 m ρ c (Proc.devRef .tc main_arg1) = m ((c : Thread nD τ).loc main_arg1) := (B1_keep m ρ c main_arg1 (by decide)).trans rfl
theorem B2_main_arg1 (c : Dev nD) : B2 m ρ c (Proc.devRef .tc main_arg1) = m ((c : Thread nD τ).loc main_arg1) := (B2_of_ne m ρ c main_arg1 (by decide)).trans (B1_main_arg1 m ρ c)
theorem B3_main_arg1 (c : Dev nD) : B3 m ρ c (Proc.devRef .tc main_arg1) = m ((c : Thread nD τ).loc main_arg1) := (B3_keep m ρ c main_arg1 (by decide)).trans (B2_main_arg1 m ρ c)
theorem B4_main_arg1 (c : Dev nD) : B4 m ρ c (Proc.devRef .tc main_arg1) = m ((c : Thread nD τ).loc main_arg1) := (B4_of_ne m ρ c main_arg1 (by decide)).trans (B3_main_arg1 m ρ c)
theorem B5_main_arg1 (c : Dev nD) : B5 m ρ c (Proc.devRef .tc main_arg1) = m ((c : Thread nD τ).loc main_arg1) := (B5_keep m ρ c main_arg1 (by decide)).trans (B4_main_arg1 m ρ c)
theorem B6_main_arg1 (c : Dev nD) : B6 m ρ c (Proc.devRef .tc main_arg1) = m ((c : Thread nD τ).loc main_arg1) := (B6_of_ne m ρ c main_arg1 (by decide)).trans (B5_main_arg1 m ρ c)
theorem B0_main_arg2 (c : Dev nD) : B0 m ρ c (Proc.devRef .tc main_arg2) = m ((c : Thread nD τ).loc main_arg2) := rfl
theorem B1_main_arg2 (c : Dev nD) : B1 m ρ c (Proc.devRef .tc main_arg2) = m ((c : Thread nD τ).loc main_arg2) := (B1_keep m ρ c main_arg2 (by decide)).trans rfl
theorem B2_main_arg2 (c : Dev nD) : B2 m ρ c (Proc.devRef .tc main_arg2) = m ((c : Thread nD τ).loc main_arg2) := (B2_of_ne m ρ c main_arg2 (by decide)).trans (B1_main_arg2 m ρ c)
theorem B3_main_arg2 (c : Dev nD) : B3 m ρ c (Proc.devRef .tc main_arg2) = m ((c : Thread nD τ).loc main_arg2) := (B3_keep m ρ c main_arg2 (by decide)).trans (B2_main_arg2 m ρ c)
theorem B4_main_arg2 (c : Dev nD) : B4 m ρ c (Proc.devRef .tc main_arg2) = m ((c : Thread nD τ).loc main_arg2) := (B4_of_ne m ρ c main_arg2 (by decide)).trans (B3_main_arg2 m ρ c)
theorem B5_main_arg2 (c : Dev nD) : B5 m ρ c (Proc.devRef .tc main_arg2) = m ((c : Thread nD τ).loc main_arg2) := (B5_keep m ρ c main_arg2 (by decide)).trans (B4_main_arg2 m ρ c)
theorem B6_main_arg2 (c : Dev nD) : B6 m ρ c (Proc.devRef .tc main_arg2) = m ((c : Thread nD τ).loc main_arg2) := (B6_of_ne m ρ c main_arg2 (by decide)).trans (B5_main_arg2 m ρ c)
theorem B0_main_arg3 (c : Dev nD) : B0 m ρ c (Proc.devRef .tc main_arg3) = m ((c : Thread nD τ).loc main_arg3) := rfl
theorem B1_main_arg3 (c : Dev nD) : B1 m ρ c (Proc.devRef .tc main_arg3) = m ((c : Thread nD τ).loc main_arg3) := (B1_keep m ρ c main_arg3 (by decide)).trans rfl
theorem B2_main_arg3 (c : Dev nD) : B2 m ρ c (Proc.devRef .tc main_arg3) = m ((c : Thread nD τ).loc main_arg3) := (B2_of_ne m ρ c main_arg3 (by decide)).trans (B1_main_arg3 m ρ c)
theorem B3_main_arg3 (c : Dev nD) : B3 m ρ c (Proc.devRef .tc main_arg3) = m ((c : Thread nD τ).loc main_arg3) := (B3_keep m ρ c main_arg3 (by decide)).trans (B2_main_arg3 m ρ c)
theorem B4_main_arg3 (c : Dev nD) : B4 m ρ c (Proc.devRef .tc main_arg3) = m ((c : Thread nD τ).loc main_arg3) := (B4_of_ne m ρ c main_arg3 (by decide)).trans (B3_main_arg3 m ρ c)
theorem B5_main_arg3 (c : Dev nD) : B5 m ρ c (Proc.devRef .tc main_arg3) = m ((c : Thread nD τ).loc main_arg3) := (B5_keep m ρ c main_arg3 (by decide)).trans (B4_main_arg3 m ρ c)
theorem B6_main_arg3 (c : Dev nD) : B6 m ρ c (Proc.devRef .tc main_arg3) = m ((c : Thread nD τ).loc main_arg3) := (B6_of_ne m ρ c main_arg3 (by decide)).trans (B5_main_arg3 m ρ c)
theorem B0_main_arg4 (c : Dev nD) : B0 m ρ c (Proc.devRef .tc main_arg4) = m ((c : Thread nD τ).loc main_arg4) := rfl
theorem B1_main_arg4 (c : Dev nD) : B1 m ρ c (Proc.devRef .tc main_arg4) = m ((c : Thread nD τ).loc main_arg4) := (B1_keep m ρ c main_arg4 (by decide)).trans rfl
theorem B2_main_arg4 (c : Dev nD) : B2 m ρ c (Proc.devRef .tc main_arg4) = m ((c : Thread nD τ).loc main_arg4) := (B2_of_ne m ρ c main_arg4 (by decide)).trans (B1_main_arg4 m ρ c)
theorem B3_main_arg4 (c : Dev nD) : B3 m ρ c (Proc.devRef .tc main_arg4) = m ((c : Thread nD τ).loc main_arg4) := (B3_keep m ρ c main_arg4 (by decide)).trans (B2_main_arg4 m ρ c)
theorem B4_main_arg4 (c : Dev nD) : B4 m ρ c (Proc.devRef .tc main_arg4) = m ((c : Thread nD τ).loc main_arg4) := (B4_of_ne m ρ c main_arg4 (by decide)).trans (B3_main_arg4 m ρ c)
theorem B5_main_arg4 (c : Dev nD) : B5 m ρ c (Proc.devRef .tc main_arg4) = m ((c : Thread nD τ).loc main_arg4) := (B5_keep m ρ c main_arg4 (by decide)).trans (B4_main_arg4 m ρ c)
theorem B6_main_arg4 (c : Dev nD) : B6 m ρ c (Proc.devRef .tc main_arg4) = m ((c : Thread nD τ).loc main_arg4) := (B6_of_ne m ρ c main_arg4 (by decide)).trans (B5_main_arg4 m ρ c)
theorem B0_main_arg5 (c : Dev nD) : B0 m ρ c (Proc.devRef .tc main_arg5) = m ((c : Thread nD τ).loc main_arg5) := rfl
theorem B1_main_arg5 (c : Dev nD) : B1 m ρ c (Proc.devRef .tc main_arg5) = m ((c : Thread nD τ).loc main_arg5) := (B1_keep m ρ c main_arg5 (by decide)).trans rfl
theorem B2_main_arg5 (c : Dev nD) : B2 m ρ c (Proc.devRef .tc main_arg5) = m ((c : Thread nD τ).loc main_arg5) := (B2_of_ne m ρ c main_arg5 (by decide)).trans (B1_main_arg5 m ρ c)
theorem B3_main_arg5 (c : Dev nD) : B3 m ρ c (Proc.devRef .tc main_arg5) = m ((c : Thread nD τ).loc main_arg5) := (B3_keep m ρ c main_arg5 (by decide)).trans (B2_main_arg5 m ρ c)
theorem B4_main_arg5 (c : Dev nD) : B4 m ρ c (Proc.devRef .tc main_arg5) = m ((c : Thread nD τ).loc main_arg5) := (B4_of_ne m ρ c main_arg5 (by decide)).trans (B3_main_arg5 m ρ c)
theorem B5_main_arg5 (c : Dev nD) : B5 m ρ c (Proc.devRef .tc main_arg5) = m ((c : Thread nD τ).loc main_arg5) := (B5_keep m ρ c main_arg5 (by decide)).trans (B4_main_arg5 m ρ c)
theorem B6_main_arg5 (c : Dev nD) : B6 m ρ c (Proc.devRef .tc main_arg5) = m ((c : Thread nD τ).loc main_arg5) := (B6_of_ne m ρ c main_arg5 (by decide)).trans (B5_main_arg5 m ρ c)
theorem B0_main_arg6 (c : Dev nD) : B0 m ρ c (Proc.devRef .tc main_arg6) = m ((c : Thread nD τ).loc main_arg6) := rfl
theorem B1_main_arg6 (c : Dev nD) : B1 m ρ c (Proc.devRef .tc main_arg6) = m ((c : Thread nD τ).loc main_arg6) := (B1_keep m ρ c main_arg6 (by decide)).trans rfl
theorem B2_main_arg6 (c : Dev nD) : B2 m ρ c (Proc.devRef .tc main_arg6) = m ((c : Thread nD τ).loc main_arg6) := (B2_of_ne m ρ c main_arg6 (by decide)).trans (B1_main_arg6 m ρ c)
theorem B3_main_arg6 (c : Dev nD) : B3 m ρ c (Proc.devRef .tc main_arg6) = m ((c : Thread nD τ).loc main_arg6) := (B3_keep m ρ c main_arg6 (by decide)).trans (B2_main_arg6 m ρ c)
theorem B4_main_arg6 (c : Dev nD) : B4 m ρ c (Proc.devRef .tc main_arg6) = m ((c : Thread nD τ).loc main_arg6) := (B4_of_ne m ρ c main_arg6 (by decide)).trans (B3_main_arg6 m ρ c)
theorem B5_main_arg6 (c : Dev nD) : B5 m ρ c (Proc.devRef .tc main_arg6) = m ((c : Thread nD τ).loc main_arg6) := (B5_keep m ρ c main_arg6 (by decide)).trans (B4_main_arg6 m ρ c)
theorem B6_main_arg6 (c : Dev nD) : B6 m ρ c (Proc.devRef .tc main_arg6) = m ((c : Thread nD τ).loc main_arg6) := (B6_of_ne m ρ c main_arg6 (by decide)).trans (B5_main_arg6 m ρ c)
theorem B0_main_arg7 (c : Dev nD) : B0 m ρ c (Proc.devRef .tc main_arg7) = m ((c : Thread nD τ).loc main_arg7) := rfl
theorem B1_main_arg7 (c : Dev nD) : B1 m ρ c (Proc.devRef .tc main_arg7) = m ((c : Thread nD τ).loc main_arg7) := (B1_keep m ρ c main_arg7 (by decide)).trans rfl
theorem B2_main_arg7 (c : Dev nD) : B2 m ρ c (Proc.devRef .tc main_arg7) = m ((c : Thread nD τ).loc main_arg7) := (B2_of_ne m ρ c main_arg7 (by decide)).trans (B1_main_arg7 m ρ c)
theorem B3_main_arg7 (c : Dev nD) : B3 m ρ c (Proc.devRef .tc main_arg7) = m ((c : Thread nD τ).loc main_arg7) := (B3_keep m ρ c main_arg7 (by decide)).trans (B2_main_arg7 m ρ c)
theorem B4_main_arg7 (c : Dev nD) : B4 m ρ c (Proc.devRef .tc main_arg7) = m ((c : Thread nD τ).loc main_arg7) := (B4_of_ne m ρ c main_arg7 (by decide)).trans (B3_main_arg7 m ρ c)
theorem B5_main_arg7 (c : Dev nD) : B5 m ρ c (Proc.devRef .tc main_arg7) = m ((c : Thread nD τ).loc main_arg7) := (B5_keep m ρ c main_arg7 (by decide)).trans (B4_main_arg7 m ρ c)
theorem B6_main_arg7 (c : Dev nD) : B6 m ρ c (Proc.devRef .tc main_arg7) = m ((c : Thread nD τ).loc main_arg7) := (B6_of_ne m ρ c main_arg7 (by decide)).trans (B5_main_arg7 m ρ c)

/-! ## The three regions' output arrays -/

/-- Region 0 leaves the first layer's features in its output array. -/
theorem B2_main_v23 (c : Dev nD) : B2 m ρ c (Proc.devRef .tc main_v23) = kh1 m c :=
  (B2_arr m ρ c 6).trans <| (final0 (R1 m ρ) c).trans <| klayer_congr
    (B1_main_arg0 m ρ c)
    ((host0_v12 (B0 m ρ c)).trans (kagg_congr (B0_main_arg1 m ρ c) (B0_main_arg6 m ρ c) (B0_main_arg7 m ρ c) (B0_main_arg0 m ρ c)))
    ((host0_v14 (B0 m ρ c)).trans (congrArg kwmat0 (B0_main_arg2 m ρ c)))
    ((host0_v21 (B0 m ρ c)).trans (congrArg (fun b => krow (kbvec0 b)) (B0_main_arg3 m ρ c)))
    ((host0_v18 (B0 m ρ c)).trans (congrArg kwmat0 (B0_main_arg4 m ρ c)))
    ((host0_v22 (B0 m ρ c)).trans (congrArg (fun b => krow (kbvec0 b)) (B0_main_arg5 m ρ c)))

/-- The first layer's features reach region 1 unchanged. -/
theorem B3_main_v23 (c : Dev nD) : B3 m ρ c (Proc.devRef .tc main_v23) = kh1 m c :=
  (B3_keep m ρ c main_v23 (by decide)).trans (B2_main_v23 m ρ c)

/-- Region 1 leaves the second layer's features in its output array. -/
theorem B4_main_v47 (c : Dev nD) : B4 m ρ c (Proc.devRef .tc main_v47) = kh2 m c :=
  (B4_arr m ρ c 6).trans <| (final1 (R3 m ρ) c).trans <| klayer_congr
    (B3_main_v23 m ρ c)
    ((host1_v36 (B2 m ρ c)).trans (kagg_congr (B2_main_arg1 m ρ c) (B2_main_arg6 m ρ c) (B2_main_arg7 m ρ c) (B2_main_v23 m ρ c)))
    ((host1_v38 (B2 m ρ c)).trans (congrArg kwmat1 (B2_main_arg2 m ρ c)))
    ((host1_v45 (B2 m ρ c)).trans (congrArg (fun b => krow (kbvec1 b)) (B2_main_arg3 m ρ c)))
    ((host1_v42 (B2 m ρ c)).trans (congrArg kwmat1 (B2_main_arg4 m ρ c)))
    ((host1_v46 (B2 m ρ c)).trans (congrArg (fun b => krow (kbvec1 b)) (B2_main_arg5 m ρ c)))

theorem B5_main_v47 (c : Dev nD) : B5 m ρ c (Proc.devRef .tc main_v47) = kh2 m c :=
  (B5_keep m ρ c main_v47 (by decide)).trans (B4_main_v47 m ρ c)

/-- Region 2 leaves the third layer's features in its output array. -/
theorem B6_main_v71 (c : Dev nD) : B6 m ρ c (Proc.devRef .tc main_v71) = kh3 m c :=
  (B6_arr m ρ c 6).trans <| (final2 (R5 m ρ) c).trans <| klayer_congr
    (B5_main_v47 m ρ c)
    ((host2_v60 (B4 m ρ c)).trans (kagg_congr (B4_main_arg1 m ρ c) (B4_main_arg6 m ρ c) (B4_main_arg7 m ρ c) (B4_main_v47 m ρ c)))
    ((host2_v62 (B4 m ρ c)).trans (congrArg kwmat2 (B4_main_arg2 m ρ c)))
    ((host2_v69 (B4 m ρ c)).trans (congrArg (fun b => krow (kbvec2 b)) (B4_main_arg3 m ρ c)))
    ((host2_v66 (B4 m ρ c)).trans (congrArg kwmat2 (B4_main_arg4 m ρ c)))
    ((host2_v70 (B4 m ρ c)).trans (congrArg (fun b => krow (kbvec2 b)) (B4_main_arg5 m ρ c)))

/-- The earlier layers' features are still in their arrays when the last host operation reads them. -/
theorem B6_main_v23 (c : Dev nD) : B6 m ρ c (Proc.devRef .tc main_v23) = kh1 m c :=
  (B6_of_ne m ρ c main_v23 (by decide)).trans <| (B5_keep m ρ c main_v23 (by decide)).trans <| (B4_in m ρ c 0 rfl).trans (B3_main_v23 m ρ c)
theorem B6_main_v47 (c : Dev nD) : B6 m ρ c (Proc.devRef .tc main_v47) = kh2 m c :=
  (B6_in m ρ c 0 rfl).trans (B5_main_v47 m ρ c)

theorem ksideBySide_congr {x x' h1 h1' h2 h2' h3 h3' : FVec Ideal S100000x64 .f32} (e0 : x = x') (e1 : h1 = h1') (e2 : h2 = h2') (e3 : h3 = h3') :
    ksideBySide x h1 h2 h3 = ksideBySide x' h1' h2' h3' := by rw [e0, e1, e2, e3]

/-- The result array at the end: the input features and the three layers' features side by side. -/
theorem B7_main_v72 (c : Dev nD) : B7 m ρ c (Proc.devRef .tc main_v72) = ksideBySide (m ((c : Thread nD τ).loc main_arg0)) (kh1 m c) (kh2 m c) (kh3 m c) :=
  (host3_v72 (B6 m ρ c)).trans (ksideBySide_congr (B6_main_arg0 m ρ c) (B6_main_v23 m ρ c) (B6_main_v47 m ρ c) (B6_main_v71 m ρ c))

/-- The run, read: the result array at that term, the argument arrays as launched. -/
theorem run : θ_run (defs (F := Ideal)) (onTc (τ := τ) (main (F := Ideal))) ⟨m, fun _ => 0, ρ⟩ (fun r => ∀ c : Dev nD,
      r.2.mem ((c.tc : Thread nD τ).loc main_v72) = ksideBySide (m ((c : Thread nD τ).loc main_arg0)) (kh1 m c) (kh2 m c) (kh3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucK main_v72 (by decide))).trans (B7_main_v72 m ρ c),
     (h c _ (mem_ucK main_arg0 (by decide))).trans (B7_main_arg0 m ρ c),
     (h c _ (mem_ucK main_arg1 (by decide))).trans (B7_main_arg1 m ρ c),
     (h c _ (mem_ucK main_arg2 (by decide))).trans (B7_main_arg2 m ρ c),
     (h c _ (mem_ucK main_arg3 (by decide))).trans (B7_main_arg3 m ρ c),
     (h c _ (mem_ucK main_arg4 (by decide))).trans (B7_main_arg4 m ρ c),
     (h c _ (mem_ucK main_arg5 (by decide))).trans (B7_main_arg5 m ρ c),
     (h c _ (mem_ucK main_arg6 (by decide))).trans (B7_main_arg6 m ρ c),
     (h c _ (mem_ucK main_arg7 (by decide))).trans (B7_main_arg7 m ρ c)⟩) (run_all m ρ)

end Cert.KernelIdeal.Hand

end
-- ==== Proof.RefOps.lean ====
/-
  The reference program's function as a list of its host operations, layer by layer, the calls of the rectifier
  written out at the call site over that call's buffers: fifty-one operations per layer (the aggregation, the two
  dense halves with their rectifiers, the sum), then the concatenation.  The function is that straight line.
-/
import proofs.«100247_j50328426774833_1_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- The first layer: from the input features to the first layer's output. -/
abbrev ops0 : List (HloOp τ sig (Elt F)) :=
  [ StableHlo.nullary main_c (constantI S_ 32 0#32),
    StableHlo.unary main_c main_v0 (broadcastInDim S3200000 ![] bcast_S_S3200000 : (⟨S_, .i32⟩ : BufTy).Contents (Elt F) → (⟨S3200000, .i32⟩ : BufTy).Contents (Elt F)),
    StableHlo.binary main_arg6 main_v0 main_v1 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v2 (broadcastInDim S3200000 ![] bcast_S_S3200000 : (⟨S_, .i32⟩ : BufTy).Contents (Elt F) → (⟨S3200000, .i32⟩ : BufTy).Contents (Elt F)),
    StableHlo.binary main_arg6 main_v2 main_v3 (addi : (⟨S3200000, .i32⟩ : BufTy).Contents (Elt F) → (⟨S3200000, .i32⟩ : BufTy).Contents (Elt F) → (⟨S3200000, .i32⟩ : BufTy).Contents (Elt F)),
    StableHlo.ternary main_v1 main_v3 main_arg6 main_v4 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v4 main_v5 (broadcastInDim S3200000x1 ![0] bcast_S3200000_S3200000x1_0 : (⟨S3200000, .i32⟩ : BufTy).Contents (Elt F) → (⟨S3200000x1, .i32⟩ : BufTy).Contents (Elt F)),
    StableHlo.binary main_arg0 main_v5 main_v6 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_arg1 main_v7 (broadcastInDim S3200000x1 ![0] bcast_S3200000_S3200000x1_0 : (⟨S3200000, .f32⟩ : BufTy).Contents (Elt F) → (⟨S3200000x1, .f32⟩ : BufTy).Contents (Elt F)),
    StableHlo.unary main_v7 main_v8 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v6 main_v8 main_v9 (mulf : (⟨S3200000x64, .f32⟩ : BufTy).Contents (Elt F) → (⟨S3200000x64, .f32⟩ : BufTy).Contents (Elt F) → (⟨S3200000x64, .f32⟩ : BufTy).Contents (Elt F)),
    StableHlo.nullary main_cst (constant S_ .f32 0x00000000#32),
    StableHlo.unary main_cst main_v10 (broadcastInDim S100000x64 ![] bcast_S_S100000x64 : (⟨S_, .f32⟩ : BufTy).Contents (Elt F) → (⟨S100000x64, .f32⟩ : BufTy).Contents (Elt F)),
    StableHlo.unary main_arg7 main_v11 (broadcastInDim S3200000x1 ![0] bcast_S3200000_S3200000x1_0 : (⟨S3200000, .i32⟩ : BufTy).Contents (Elt F) → (⟨S3200000x1, .i32⟩ : BufTy).Contents (Elt F)),
    StableHlo.ternary main_v10 main_v11 main_v9 main_v12 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.binary main_arg0 main_v12 main_v13 (addf : (⟨S100000x64, .f32⟩ : BufTy).Contents (Elt F) → (⟨S100000x64, .f32⟩ : BufTy).Contents (Elt F) → (⟨S100000x64, .f32⟩ : BufTy).Contents (Elt F)),
    StableHlo.unary main_arg2 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v14 main_v15 rfl shapeCasts_S1x64x64_S64x64,
    StableHlo.binary main_v13 main_v15 main_v16 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v17 ((extractStridedSlice S1x64 ![0, 0] · slices_S3x64_S1x64_0_0) : (⟨S3x64, .f32⟩ : BufTy).Contents (Elt F) → (⟨S1x64, .f32⟩ : BufTy).Contents (Elt F)),
    StableHlo.reshape main_v17 main_v18 rfl shapeCasts_S1x64_S64,
    StableHlo.unary main_v18 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S100000x64 ![0, 1] bcast_S1x64_S100000x64_0_1 : (⟨S1x64, .f32⟩ : BufTy).Contents (Elt F) → (⟨S100000x64, .f32⟩ : BufTy).Contents (Elt F)),
    StableHlo.binary main_v16 main_v20 main_v21 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3C23D70A#32),
    StableHlo.TRef.nullary main_call0.cst (constant S_ .f32 0x00000000#32),
    StableHlo.TRef.unary main_call0.cst main_call0.v0 (broadcastInDim S100000x64 ![] bcast_S_S100000x64),
    StableHlo.TRef.binary (.of main_v21 : StableHlo.TRef sig ⟨S100000x64, .f32⟩) main_call0.v0 main_call0.v1 (cmpf .oge),
    StableHlo.TRef.unary (.of main_cst_1 : StableHlo.TRef sig ⟨S_, .f32⟩) main_call0.v2 id,
    StableHlo.TRef.unary main_call0.v2 main_call0.v3 (broadcastInDim S100000x64 ![] bcast_S_S100000x64),
    StableHlo.TRef.binary main_call0.v3 (.of main_v21 : StableHlo.TRef sig ⟨S100000x64, .f32⟩) main_call0.v4 mulf,
    StableHlo.TRef.ternary main_call0.v1 (.of main_v21 : StableHlo.TRef sig ⟨S100000x64, .f32⟩) main_call0.v4 main_call0.call0.v0 select,
    StableHlo.binary main_arg0 main_v12 main_v23 (mulf : (⟨S100000x64, .f32⟩ : BufTy).Contents (Elt F) → (⟨S100000x64, .f32⟩ : BufTy).Contents (Elt F) → (⟨S100000x64, .f32⟩ : BufTy).Contents (Elt F)),
    StableHlo.unary main_arg4 main_v24 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v24 main_v25 rfl shapeCasts_S1x64x64_S64x64,
    StableHlo.binary main_v23 main_v25 main_v26 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v27 ((extractStridedSlice S1x64 ![0, 0] · slices_S3x64_S1x64_0_0) : (⟨S3x64, .f32⟩ : BufTy).Contents (Elt F) → (⟨S1x64, .f32⟩ : BufTy).Contents (Elt F)),
    StableHlo.reshape main_v27 main_v28 rfl shapeCasts_S1x64_S64,
    StableHlo.unary main_v28 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S100000x64 ![0, 1] bcast_S1x64_S100000x64_0_1 : (⟨S1x64, .f32⟩ : BufTy).Contents (Elt F) → (⟨S100000x64, .f32⟩ : BufTy).Contents (Elt F)),
    StableHlo.binary main_v26 main_v30 main_v31 (addf : (⟨S100000x64, .f32⟩ : BufTy).Contents (Elt F) → (⟨S100000x64, .f32⟩ : BufTy).Contents (Elt F) → (⟨S100000x64, .f32⟩ : BufTy).Contents (Elt F)),
    StableHlo.nullary main_cst_2 (constant S_ .f32 0x3C23D70A#32),
    StableHlo.TRef.nullary main_call1.cst (constant S_ .f32 0x00000000#32),
    StableHlo.TRef.unary main_call1.cst main_call1.v0 (broadcastInDim S100000x64 ![] bcast_S_S100000x64),
    StableHlo.TRef.binary (.of main_v31 : StableHlo.TRef sig ⟨S100000x64, .f32⟩) main_call1.v0 main_call1.v1 (cmpf .oge),
    StableHlo.TRef.unary (.of main_cst_2 : StableHlo.TRef sig ⟨S_, .f32⟩) main_call1.v2 id,
    StableHlo.TRef.unary main_call1.v2 main_call1.v3 (broadcastInDim S100000x64 ![] bcast_S_S100000x64),
    StableHlo.TRef.binary main_call1.v3 (.of main_v31 : StableHlo.TRef sig ⟨S100000x64, .f32⟩) main_call1.v4 mulf,
    StableHlo.TRef.ternary main_call1.v1 (.of main_v31 : StableHlo.TRef sig ⟨S100000x64, .f32⟩) main_call1.v4 main_call1.call0.v0 select,
    StableHlo.binary main_v22 main_v32 main_v33 (addf : (⟨S100000x64, .f32⟩ : BufTy).Contents (Elt F) → (⟨S100000x64, .f32⟩ : BufTy).Contents (Elt F) → (⟨S100000x64, .f32⟩ : BufTy).Contents (Elt F)) ]

/-- The second layer, reading the first layer's output. -/
abbrev ops1 : List (HloOp τ sig (Elt F)) :=
  [ StableHlo.nullary main_c_3 (constantI S_ 32 0#32),
    StableHlo.unary main_c_3 main_v34 (broadcastInDim S3200000 ![] bcast_S_S3200000 : (⟨S_, .i32⟩ : BufTy).Contents (Elt F) → (⟨S3200000, .i32⟩ : BufTy).Contents (Elt F)),
    StableHlo.binary main_arg6 main_v34 main_v35 (cmpi .slt : (⟨S3200000, .i32⟩ : BufTy).Contents (Elt F) → (⟨S3200000, .i32⟩ : BufTy).Contents (Elt F) → (⟨S3200000, .i1⟩ : BufTy).Contents (Elt F)),
    StableHlo.nullary main_c_4 (constantI S_ 32 100000#32),
    StableHlo.unary main_c_4 main_v36 (broadcastInDim S3200000 ![] bcast_S_S3200000 : (⟨S_, .i32⟩ : BufTy).Contents (Elt F) → (⟨S3200000, .i32⟩ : BufTy).Contents (Elt F)),
    StableHlo.binary main_arg6 main_v36 main_v37 (addi : (⟨S3200000, .i32⟩ : BufTy).Contents (Elt F) → (⟨S3200000, .i32⟩ : BufTy).Contents (Elt F) → (⟨S3200000, .i32⟩ : BufTy).Contents (Elt F)),
    StableHlo.ternary main_v35 main_v37 main_arg6 main_v38 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v38 main_v39 (broadcastInDim S3200000x1 ![0] bcast_S3200000_S3200000x1_0 : (⟨S3200000, .i32⟩ : BufTy).Contents (Elt F) → (⟨S3200000x1, .i32⟩ : BufTy).Contents (Elt F)),
    StableHlo.binary main_v33 main_v39 main_v40 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_arg1 main_v41 (broadcastInDim S3200000x1 ![0] bcast_S3200000_S3200000x1_0 : (⟨S3200000, .f32⟩ : BufTy).Contents (Elt F) → (⟨S3200000x1, .f32⟩ : BufTy).Contents (Elt F)),
    StableHlo.unary main_v41 main_v42 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v40 main_v42 main_v43 (mulf : (⟨S3200000x64, .f32⟩ : BufTy).Contents (Elt F) → (⟨S3200000x64, .f32⟩ : BufTy).Contents (Elt F) → (⟨S3200000x64, .f32⟩ : BufTy).Contents (Elt F)),
    StableHlo.nullary main_cst_5 (constant S_ .f32 0x00000000#32),
    StableHlo.unary main_cst_5 main_v44 (broadcastInDim S100000x64 ![] bcast_S_S100000x64 : (⟨S_, .f32⟩ : BufTy).Contents (Elt F) → (⟨S100000x64, .f32⟩ : BufTy).Contents (Elt F)),
    StableHlo.unary main_arg7 main_v45 (broadcastInDim S3200000x1 ![0] bcast_S3200000_S3200000x1_0 : (⟨S3200000, .i32⟩ : BufTy).Contents (Elt F) → (⟨S3200000x1, .i32⟩ : BufTy).Contents (Elt F)),
    StableHlo.ternary main_v44 main_v45 main_v43 main_v46 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.binary main_v33 main_v46 main_v47 (addf : (⟨S100000x64, .f32⟩ : BufTy).Contents (Elt F) → (⟨S100000x64, .f32⟩ : BufTy).Contents (Elt F) → (⟨S100000x64, .f32⟩ : BufTy).Contents (Elt F)),
    StableHlo.unary main_arg2 main_v48 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v48 main_v49 rfl shapeCasts_S1x64x64_S64x64,
    StableHlo.binary main_v47 main_v49 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v51 ((extractStridedSlice S1x64 ![1, 0] · slices_S3x64_S1x64_1_0) : (⟨S3x64, .f32⟩ : BufTy).Contents (Elt F) → (⟨S1x64, .f32⟩ : BufTy).Contents (Elt F)),
    StableHlo.reshape main_v51 main_v52 rfl shapeCasts_S1x64_S64,
    StableHlo.unary main_v52 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v54 main_v55 (addf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x3C23D70A#32),
    StableHlo.TRef.nullary main_call2.cst (constant S_ .f32 0x00000000#32),
    StableHlo.TRef.unary main_call2.cst main_call2.v0 (broadcastInDim S100000x64 ![] bcast_S_S100000x64),
    StableHlo.TRef.binary (.of main_v55 : StableHlo.TRef sig ⟨S100000x64, .f32⟩) main_call2.v0 main_call2.v1 (cmpf .oge),
    StableHlo.TRef.unary (.of main_cst_6 : StableHlo.TRef sig ⟨S_, .f32⟩) main_call2.v2 id,
    StableHlo.TRef.unary main_call2.v2 main_call2.v3 (broadcastInDim S100000x64 ![] bcast_S_S100000x64),
    StableHlo.TRef.binary main_call2.v3 (.of main_v55 : StableHlo.TRef sig ⟨S100000x64, .f32⟩) main_call2.v4 mulf,
    StableHlo.TRef.ternary main_call2.v1 (.of main_v55 : StableHlo.TRef sig ⟨S100000x64, .f32⟩) main_call2.v4 main_call2.call0.v0 select,
    StableHlo.binary main_v33 main_v46 main_v57 (mulf : (⟨S100000x64, .f32⟩ : BufTy).Contents (Elt F) → (⟨S100000x64, .f32⟩ : BufTy).Contents (Elt F) → (⟨S100000x64, .f32⟩ : BufTy).Contents (Elt F)),
    StableHlo.unary main_arg4 main_v58 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v58 main_v59 rfl shapeCasts_S1x64x64_S64x64,
    StableHlo.binary main_v57 main_v59 main_v60 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v61 ((extractStridedSlice S1x64 ![1, 0] · slices_S3x64_S1x64_1_0) : (⟨S3x64, .f32⟩ : BufTy).Contents (Elt F) → (⟨S1x64, .f32⟩ : BufTy).Contents (Elt F)),
    StableHlo.reshape main_v61 main_v62 rfl shapeCasts_S1x64_S64,
    StableHlo.unary main_v62 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S100000x64 ![0, 1] bcast_S1x64_S100000x64_0_1 : (⟨S1x64, .f32⟩ : BufTy).Contents (Elt F) → (⟨S100000x64, .f32⟩ : BufTy).Contents (Elt F)),
    StableHlo.binary main_v60 main_v64 main_v65 (addf : (⟨S100000x64, .f32⟩ : BufTy).Contents (Elt F) → (⟨S100000x64, .f32⟩ : BufTy).Contents (Elt F) → (⟨S100000x64, .f32⟩ : BufTy).Contents (Elt F)),
    StableHlo.nullary main_cst_7 (constant S_ .f32 0x3C23D70A#32),
    StableHlo.TRef.nullary main_call3.cst (constant S_ .f32 0x00000000#32),
    StableHlo.TRef.unary main_call3.cst main_call3.v0 (broadcastInDim S100000x64 ![] bcast_S_S100000x64),
    StableHlo.TRef.binary (.of main_v65 : StableHlo.TRef sig ⟨S100000x64, .f32⟩) main_call3.v0 main_call3.v1 (cmpf .oge),
    StableHlo.TRef.unary (.of main_cst_7 : StableHlo.TRef sig ⟨S_, .f32⟩) main_call3.v2 id,
    StableHlo.TRef.unary main_call3.v2 main_call3.v3 (broadcastInDim S100000x64 ![] bcast_S_S100000x64),
    StableHlo.TRef.binary main_call3.v3 (.of main_v65 : StableHlo.TRef sig ⟨S100000x64, .f32⟩) main_call3.v4 mulf,
    StableHlo.TRef.ternary main_call3.v1 (.of main_v65 : StableHlo.TRef sig ⟨S100000x64, .f32⟩) main_call3.v4 main_call3.call0.v0 select,
    StableHlo.binary main_v56 main_v66 main_v67 (addf : (⟨S100000x64, .f32⟩ : BufTy).Contents (Elt F) → (⟨S100000x64, .f32⟩ : BufTy).Contents (Elt F) → (⟨S100000x64, .f32⟩ : BufTy).Contents (Elt F)) ]

/-- The third layer, reading the second layer's output. -/
abbrev ops2 : List (HloOp τ sig (Elt F)) :=
  [ StableHlo.nullary main_c_8 (constantI S_ 32 0#32),
    StableHlo.unary main_c_8 main_v68 (broadcastInDim S3200000 ![] bcast_S_S3200000 : (⟨S_, .i32⟩ : BufTy).Contents (Elt F) → (⟨S3200000, .i32⟩ : BufTy).Contents (Elt F)),
    StableHlo.binary main_arg6 main_v68 main_v69 (cmpi .slt : (⟨S3200000, .i32⟩ : BufTy).Contents (Elt F) → (⟨S3200000, .i32⟩ : BufTy).Contents (Elt F) → (⟨S3200000, .i1⟩ : BufTy).Contents (Elt F)),
    StableHlo.nullary main_c_9 (constantI S_ 32 100000#32),
    StableHlo.unary main_c_9 main_v70 (broadcastInDim S3200000 ![] bcast_S_S3200000 : (⟨S_, .i32⟩ : BufTy).Contents (Elt F) → (⟨S3200000, .i32⟩ : BufTy).Contents (Elt F)),
    StableHlo.binary main_arg6 main_v70 main_v71 (addi : (⟨S3200000, .i32⟩ : BufTy).Contents (Elt F) → (⟨S3200000, .i32⟩ : BufTy).Contents (Elt F) → (⟨S3200000, .i32⟩ : BufTy).Contents (Elt F)),
    StableHlo.ternary main_v69 main_v71 main_arg6 main_v72 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v72 main_v73 (broadcastInDim S3200000x1 ![0] bcast_S3200000_S3200000x1_0 : (⟨S3200000, .i32⟩ : BufTy).Contents (Elt F) → (⟨S3200000x1, .i32⟩ : BufTy).Contents (Elt F)),
    StableHlo.binary main_v67 main_v73 main_v74 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_arg1 main_v75 (broadcastInDim S3200000x1 ![0] bcast_S3200000_S3200000x1_0 : (⟨S3200000, .f32⟩ : BufTy).Contents (Elt F) → (⟨S3200000x1, .f32⟩ : BufTy).Contents (Elt F)),
    StableHlo.unary main_v75 main_v76 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v74 main_v76 main_v77 (mulf : (⟨S3200000x64, .f32⟩ : BufTy).Contents (Elt F) → (⟨S3200000x64, .f32⟩ : BufTy).Contents (Elt F) → (⟨S3200000x64, .f32⟩ : BufTy).Contents (Elt F)),
    StableHlo.nullary main_cst_10 (constant S_ .f32 0x00000000#32),
    StableHlo.unary main_cst_10 main_v78 (broadcastInDim S100000x64 ![] bcast_S_S100000x64 : (⟨S_, .f32⟩ : BufTy).Contents (Elt F) → (⟨S100000x64, .f32⟩ : BufTy).Contents (Elt F)),
    StableHlo.unary main_arg7 main_v79 (broadcastInDim S3200000x1 ![0] bcast_S3200000_S3200000x1_0 : (⟨S3200000, .i32⟩ : BufTy).Contents (Elt F) → (⟨S3200000x1, .i32⟩ : BufTy).Contents (Elt F)),
    StableHlo.ternary main_v78 main_v79 main_v77 main_v80 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.binary main_v67 main_v80 main_v81 (addf : (⟨S100000x64, .f32⟩ : BufTy).Contents (Elt F) → (⟨S100000x64, .f32⟩ : BufTy).Contents (Elt F) → (⟨S100000x64, .f32⟩ : BufTy).Contents (Elt F)),
    StableHlo.unary main_arg2 main_v82 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v82 main_v83 rfl shapeCasts_S1x64x64_S64x64,
    StableHlo.binary main_v81 main_v83 main_v84 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v85 ((extractStridedSlice S1x64 ![2, 0] · slices_S3x64_S1x64_2_0) : (⟨S3x64, .f32⟩ : BufTy).Contents (Elt F) → (⟨S1x64, .f32⟩ : BufTy).Contents (Elt F)),
    StableHlo.reshape main_v85 main_v86 rfl shapeCasts_S1x64_S64,
    StableHlo.unary main_v86 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v88 main_v89 (addf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3C23D70A#32),
    StableHlo.TRef.nullary main_call4.cst (constant S_ .f32 0x00000000#32),
    StableHlo.TRef.unary main_call4.cst main_call4.v0 (broadcastInDim S100000x64 ![] bcast_S_S100000x64),
    StableHlo.TRef.binary (.of main_v89 : StableHlo.TRef sig ⟨S100000x64, .f32⟩) main_call4.v0 main_call4.v1 (cmpf .oge),
    StableHlo.TRef.unary (.of main_cst_11 : StableHlo.TRef sig ⟨S_, .f32⟩) main_call4.v2 id,
    StableHlo.TRef.unary main_call4.v2 main_call4.v3 (broadcastInDim S100000x64 ![] bcast_S_S100000x64),
    StableHlo.TRef.binary main_call4.v3 (.of main_v89 : StableHlo.TRef sig ⟨S100000x64, .f32⟩) main_call4.v4 mulf,
    StableHlo.TRef.ternary main_call4.v1 (.of main_v89 : StableHlo.TRef sig ⟨S100000x64, .f32⟩) main_call4.v4 main_call4.call0.v0 select,
    StableHlo.binary main_v67 main_v80 main_v91 (mulf : (⟨S100000x64, .f32⟩ : BufTy).Contents (Elt F) → (⟨S100000x64, .f32⟩ : BufTy).Contents (Elt F) → (⟨S100000x64, .f32⟩ : BufTy).Contents (Elt F)),
    StableHlo.unary main_arg4 main_v92 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v92 main_v93 rfl shapeCasts_S1x64x64_S64x64,
    StableHlo.binary main_v91 main_v93 main_v94 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v95 ((extractStridedSlice S1x64 ![2, 0] · slices_S3x64_S1x64_2_0) : (⟨S3x64, .f32⟩ : BufTy).Contents (Elt F) → (⟨S1x64, .f32⟩ : BufTy).Contents (Elt F)),
    StableHlo.reshape main_v95 main_v96 rfl shapeCasts_S1x64_S64,
    StableHlo.unary main_v96 main_v97 (broadcastInDim S1x64 ![1] bcast_S64_S1x64_1 : (⟨S64, .f32⟩ : BufTy).Contents (Elt F) → (⟨S1x64, .f32⟩ : BufTy).Contents (Elt F)),
    StableHlo.unary main_v97 main_v98 (broadcastInDim S100000x64 ![0, 1] bcast_S1x64_S100000x64_0_1 : (⟨S1x64, .f32⟩ : BufTy).Contents (Elt F) → (⟨S100000x64, .f32⟩ : BufTy).Contents (Elt F)),
    StableHlo.binary main_v94 main_v98 main_v99 (addf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3C23D70A#32),
    StableHlo.TRef.nullary main_call5.cst (constant S_ .f32 0x00000000#32),
    StableHlo.TRef.unary main_call5.cst main_call5.v0 (broadcastInDim S100000x64 ![] bcast_S_S100000x64),
    StableHlo.TRef.binary (.of main_v99 : StableHlo.TRef sig ⟨S100000x64, .f32⟩) main_call5.v0 main_call5.v1 (cmpf .oge),
    StableHlo.TRef.unary (.of main_cst_12 : StableHlo.TRef sig ⟨S_, .f32⟩) main_call5.v2 id,
    StableHlo.TRef.unary main_call5.v2 main_call5.v3 (broadcastInDim S100000x64 ![] bcast_S_S100000x64),
    StableHlo.TRef.binary main_call5.v3 (.of main_v99 : StableHlo.TRef sig ⟨S100000x64, .f32⟩) main_call5.v4 mulf,
    StableHlo.TRef.ternary main_call5.v1 (.of main_v99 : StableHlo.TRef sig ⟨S100000x64, .f32⟩) main_call5.v4 main_call5.call0.v0 select,
    StableHlo.binary main_v90 main_v100 main_v101 (addf : (⟨S100000x64, .f32⟩ : BufTy).Contents (Elt F) → (⟨S100000x64, .f32⟩ : BufTy).Contents (Elt F) → (⟨S100000x64, .f32⟩ : BufTy).Contents (Elt F)) ]

/-- The concatenation of the input features and the three layers' outputs. -/
abbrev opCat : HloOp τ sig (Elt F) :=
  StableHlo.nary ![main_arg0, main_v33, main_v67, main_v101] main_v102 (fun u => concatenate S100000x256 1 [⟨S100000x64, u 0⟩, ⟨S100000x64, u 1⟩, ⟨S100000x64, u 2⟩, ⟨S100000x64, u 3⟩] concatenates_S100000x64_S100000x64_S100000x64_S100000x64_S100000x256_d1)

/-- The whole function: the three layers, then the concatenation. -/
abbrev ops : List (HloOp τ sig (Elt F)) := ops0 ++ (ops1 ++ (ops2 ++ [opCat]))

-- one hundred and fifty-four binds re-associated: the rewrite under the chain recurses once per statement
set_option maxRecDepth 8192 in
/-- The function is that straight line: the rectifier's and the selection's definitions unfolded at their calls,
    both sides are one chain of steps once sequencing is re-associated. -/
theorem main_eq (c : Dev nD) : main (F := F) c = seq ops := by
  simp only [ops, seq_append]
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub ..⟩
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub ..⟩
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩

theorem opCat_sub : ([opCat] : List (HloOp τ sig (Elt F))).Forall fun op => op.bufs ⊆ tcRefs τ sig := nary_bufs_sub ..
theorem opCat_fresh : ([opCat] : List (HloOp τ sig (Elt F))).Forall fun op => op.fresh = ∅ := rfl

theorem ops_sub : (ops : List (HloOp τ sig (Elt F))).Forall fun op => op.bufs ⊆ tcRefs τ sig :=
  forall_append ops0_sub (forall_append ops1_sub (forall_append ops2_sub opCat_sub))

theorem ops_fresh : ∀ op ∈ (ops : List (HloOp τ sig (Elt F))), op.fresh = ∅ :=
  List.forall_iff_forall_mem.1 (forall_append ops0_fresh (forall_append ops1_fresh (forall_append ops2_fresh opCat_fresh)))

/-- What the buffers hold after two lines run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.ReferenceIdeal.Hand

end
-- ==== Proof.RefTerms.lean ====
/-
  The reference's host operations of one layer, as pure functions of the arrays they read.

  agg: the aggregation  hn[v] = Σ_{e : dst e = v} a e · h[src e]  as the program computes it: the source indices
  are wrapped once if negative, the rows of h gathered, scaled by the edge weights, and added into a zero array at
  the destination rows.  wmat l, bvec l: layer l's weight matrix and bias vector, cut out of the stacked arrays.
  rect: the leaky rectifier on a whole array.  dense: the dense part of a layer,
  rect ((h + hn) W1 + b1) + rect ((h ∘ hn) W2 + b2), the biases spread along the rows.
-/
import proofs.«100247_j50328426774833_1_alg».proof.Proof.Gen.ReferenceIdeal
import Idealize.ShloMosaic.PureOps.Ideal

noncomputable section

namespace Cert.ReferenceIdeal.Hand

open Cert.ReferenceIdeal Cert.ReferenceIdeal.Facts₀ Idealize.ShloMosaic

/-- The aggregated neighbour features of the node features h. -/
def agg (a : FVec Ideal S3200000 .f32) (src dst : IVec S3200000 32) (h : FVec Ideal S100000x64 .f32) : FVec Ideal S100000x64 .f32 :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (mulf
      (Host.gather gather_S100000x64_S3200000x1_S3200000x64_1_0_n_n_0_1_164 h
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x64 ![0, 1] bcast_S3200000x1_S3200000x64_0_1
        (broadcastInDim S3200000x1 ![0] bcast_S3200000_S3200000x1_0 a)))

/-- Layer 0, 1, 2's weight matrix out of a stacked [3, 64, 64] array. -/
def wmat0 (w : FVec Ideal S3x64x64 .f32) : FVec Ideal S64x64 .f32 :=
  shapeCast S64x64 (extractStridedSlice S1x64x64 ![0, 0, 0] w slices_S3x64x64_S1x64x64_0_0_0) shapeCasts_S1x64x64_S64x64
def wmat1 (w : FVec Ideal S3x64x64 .f32) : FVec Ideal S64x64 .f32 :=
  shapeCast S64x64 (extractStridedSlice S1x64x64 ![1, 0, 0] w slices_S3x64x64_S1x64x64_1_0_0) shapeCasts_S1x64x64_S64x64
def wmat2 (w : FVec Ideal S3x64x64 .f32) : FVec Ideal S64x64 .f32 :=
  shapeCast S64x64 (extractStridedSlice S1x64x64 ![2, 0, 0] w slices_S3x64x64_S1x64x64_2_0_0) shapeCasts_S1x64x64_S64x64

/-- Layer 0, 1, 2's bias vector out of a stacked [3, 64] array. -/
def bvec0 (b : FVec Ideal S3x64 .f32) : FVec Ideal S64 .f32 :=
  shapeCast S64 (extractStridedSlice S1x64 ![0, 0] b slices_S3x64_S1x64_0_0) shapeCasts_S1x64_S64
def bvec1 (b : FVec Ideal S3x64 .f32) : FVec Ideal S64 .f32 :=
  shapeCast S64 (extractStridedSlice S1x64 ![1, 0] b slices_S3x64_S1x64_1_0) shapeCasts_S1x64_S64
def bvec2 (b : FVec Ideal S3x64 .f32) : FVec Ideal S64 .f32 :=
  shapeCast S64 (extractStridedSlice S1x64 ![2, 0] b slices_S3x64_S1x64_2_0) shapeCasts_S1x64_S64

/-- The leaky rectifier on an array, as the reference spells it: compare with a zero array, multiply by the slope
    array, select. -/
def rect (x : FVec Ideal S100000x64 .f32) : FVec Ideal S100000x64 .f32 :=
  select (cmpf .oge x (broadcastInDim S100000x64 ![] bcast_S_S100000x64 (constant (F := Ideal) S_ .f32 0x00000000#32))) x
    (mulf (broadcastInDim S100000x64 ![] bcast_S_S100000x64 (id (constant (F := Ideal) S_ .f32 0x3C23D70A#32))) x)

/-- A bias vector spread along the rows of a [100000, 64] array. -/
def spread (b : FVec Ideal S64 .f32) : FVec Ideal S100000x64 .f32 :=
  broadcastInDim S100000x64 ![0, 1] bcast_S1x64_S100000x64_0_1 (broadcastInDim S1x64 ![1] bcast_S64_S1x64_1 b)

/-- The dense part of a layer on whole arrays. -/
def dense (h hn : FVec Ideal S100000x64 .f32) (W1 : FVec Ideal S64x64 .f32) (b1 : FVec Ideal S64 .f32)
    (W2 : FVec Ideal S64x64 .f32) (b2 : FVec Ideal S64 .f32) : FVec Ideal S100000x64 .f32 :=
  addf
    (rect (addf (Host.dotGeneral dot_S100000x64_S64x64_S100000x64_1_0_0_1_n_n none (addf h hn) W1) (spread b1)))
    (rect (addf (Host.dotGeneral dot_S100000x64_S64x64_S100000x64_1_0_0_1_n_n none (mulf h hn) W2) (spread b2)))

/-- The four arrays side by side: the program's result from the input features and the three layers' outputs. -/
def sideBySide (x h1 h2 h3 : FVec Ideal S100000x64 .f32) : FVec Ideal S100000x256 .f32 :=
  concatenate S100000x256 1 [⟨S100000x64, x⟩, ⟨S100000x64, h1⟩, ⟨S100000x64, h2⟩, ⟨S100000x64, h3⟩]
    concatenates_S100000x64_S100000x64_S100000x64_S100000x64_S100000x256_d1

/-- One layer: the dense part of the features and their aggregation. -/
def layerWith (W1 : FVec Ideal S64x64 .f32) (b1 : FVec Ideal S64 .f32) (W2 : FVec Ideal S64x64 .f32) (b2 : FVec Ideal S64 .f32)
    (a : FVec Ideal S3200000 .f32) (src dst : IVec S3200000 32) (h : FVec Ideal S100000x64 .f32) : FVec Ideal S100000x64 .f32 :=
  dense h (agg a src dst h) W1 b1 W2 b2

/-- The features after the first, second and third layer. -/
def h1of (x : FVec Ideal S100000x64 .f32) (a : FVec Ideal S3200000 .f32) (w1s : FVec Ideal S3x64x64 .f32) (b1s : FVec Ideal S3x64 .f32)
    (w2s : FVec Ideal S3x64x64 .f32) (b2s : FVec Ideal S3x64 .f32) (src dst : IVec S3200000 32) : FVec Ideal S100000x64 .f32 :=
  layerWith (wmat0 w1s) (bvec0 b1s) (wmat0 w2s) (bvec0 b2s) a src dst x
def h2of (x : FVec Ideal S100000x64 .f32) (a : FVec Ideal S3200000 .f32) (w1s : FVec Ideal S3x64x64 .f32) (b1s : FVec Ideal S3x64 .f32)
    (w2s : FVec Ideal S3x64x64 .f32) (b2s : FVec Ideal S3x64 .f32) (src dst : IVec S3200000 32) : FVec Ideal S100000x64 .f32 :=
  layerWith (wmat1 w1s) (bvec1 b1s) (wmat1 w2s) (bvec1 b2s) a src dst (h1of x a w1s b1s w2s b2s src dst)
def h3of (x : FVec Ideal S100000x64 .f32) (a : FVec Ideal S3200000 .f32) (w1s : FVec Ideal S3x64x64 .f32) (b1s : FVec Ideal S3x64 .f32)
    (w2s : FVec Ideal S3x64x64 .f32) (b2s : FVec Ideal S3x64 .f32) (src dst : IVec S3200000 32) : FVec Ideal S100000x64 .f32 :=
  layerWith (wmat2 w1s) (bvec2 b1s) (wmat2 w2s) (bvec2 b2s) a src dst (h2of x a w1s b1s w2s b2s src dst)

/-- The whole network: the input features and the three layers' outputs side by side. -/
def net (x : FVec Ideal S100000x64 .f32) (a : FVec Ideal S3200000 .f32) (w1s : FVec Ideal S3x64x64 .f32) (b1s : FVec Ideal S3x64 .f32)
    (w2s : FVec Ideal S3x64x64 .f32) (b2s : FVec Ideal S3x64 .f32) (src dst : IVec S3200000 32) : FVec Ideal S100000x256 .f32 :=
  sideBySide x (h1of x a w1s b1s w2s b2s src dst) (h2of x a w1s b1s w2s b2s src dst) (h3of x a w1s b1s w2s b2s src dst)

end Cert.ReferenceIdeal.Hand

end
-- ==== Proof.RefLayers.lean ====
/-
  What each layer's operations leave in its output buffer, as a function of what the buffers held before the layer:
  the layer's dense map of the features it reads and their aggregation, the weights and biases cut out of the
  stacked arrays; and which buffers a layer does not write.
-/
import proofs.«100247_j50328426774833_1_alg».proof.Proof.RefOps
import proofs.«100247_j50328426774833_1_alg».proof.Proof.RefTerms

noncomputable section

namespace Cert.ReferenceIdeal.Hand

open Cert.ReferenceIdeal Cert.ReferenceIdeal.Facts₀ Idealize.ShloMosaic Idealize.ShloMosaic.TcCoe Idealize.SL.Sem Idealize.ShloMosaic.StableHlo

/-- An operation writing one buffer that is in a list writes inside the list. -/
theorem writes_sub_of {Val : EltTy → Type} {W : List (Ref sig .tc)} {op : HloOp τ sig Val} (y : Ref sig .tc)
    (h : op.writes = {Proc.devRef .tc y}) (hy : y ∈ W) : op.writes ⊆ (W.map (Proc.devRef (τ := τ) .tc)).toFinset := by
  rw [h, Finset.singleton_subset_iff, List.mem_toFinset]; exact List.mem_map_of_mem hy

/-- The buffers the layer writes. -/
abbrev ops0_W : List (Ref sig .tc) :=
  [main_c, main_v0, main_v1, main_c_0, main_v2, main_v3, main_v4, main_v5, main_v6, main_v7,
    main_v8, main_v9, main_cst, main_v10, main_v11, main_v12, main_v13, main_v14, main_v15, main_v16,
    main_v17, main_v18, main_v19, main_v20, main_v21, main_cst_1, main_call0_cst, main_call0_v0, main_call0_v1, main_call0_v2,
    main_call0_v3, main_call0_v4, main_v22, main_v23, main_v24, main_v25, main_v26, main_v27, main_v28, main_v29,
    main_v30, main_v31, main_cst_2, main_call1_cst, main_call1_v0, main_call1_v1, main_call1_v2, main_call1_v3, main_call1_v4, main_v32,
    main_v33]

theorem ops0_writes : (ops0 (F := Ideal)).Forall fun op => op.writes ⊆ (ops0_W.map (Proc.devRef (τ := τ) .tc)).toFinset :=
  ⟨writes_sub_of main_c rfl (by decide), writes_sub_of main_v0 rfl (by decide), writes_sub_of main_v1 rfl (by decide),
    writes_sub_of main_c_0 rfl (by decide), writes_sub_of main_v2 rfl (by decide), writes_sub_of main_v3 rfl (by decide),
    writes_sub_of main_v4 rfl (by decide), writes_sub_of main_v5 rfl (by decide), writes_sub_of main_v6 rfl (by decide),
    writes_sub_of main_v7 rfl (by decide), writes_sub_of main_v8 rfl (by decide), writes_sub_of main_v9 rfl (by decide),
    writes_sub_of main_cst rfl (by decide), writes_sub_of main_v10 rfl (by decide), writes_sub_of main_v11 rfl (by decide),
    writes_sub_of main_v12 rfl (by decide), writes_sub_of main_v13 rfl (by decide), writes_sub_of main_v14 rfl (by decide),
    writes_sub_of main_v15 rfl (by decide), writes_sub_of main_v16 rfl (by decide), writes_sub_of main_v17 rfl (by decide),
    writes_sub_of main_v18 rfl (by decide), writes_sub_of main_v19 rfl (by decide), writes_sub_of main_v20 rfl (by decide),
    writes_sub_of main_v21 rfl (by decide), writes_sub_of main_cst_1 rfl (by decide), writes_sub_of main_call0_cst rfl (by decide),
    writes_sub_of main_call0_v0 rfl (by decide), writes_sub_of main_call0_v1 rfl (by decide), writes_sub_of main_call0_v2 rfl (by decide),
    writes_sub_of main_call0_v3 rfl (by decide), writes_sub_of main_call0_v4 rfl (by decide), writes_sub_of main_v22 rfl (by decide),
    writes_sub_of main_v23 rfl (by decide), writes_sub_of main_v24 rfl (by decide), writes_sub_of main_v25 rfl (by decide),
    writes_sub_of main_v26 rfl (by decide), writes_sub_of main_v27 rfl (by decide), writes_sub_of main_v28 rfl (by decide),
    writes_sub_of main_v29 rfl (by decide), writes_sub_of main_v30 rfl (by decide), writes_sub_of main_v31 rfl (by decide),
    writes_sub_of main_cst_2 rfl (by decide), writes_sub_of main_call1_cst rfl (by decide), writes_sub_of main_call1_v0 rfl (by decide),
    writes_sub_of main_call1_v1 rfl (by decide), writes_sub_of main_call1_v2 rfl (by decide), writes_sub_of main_call1_v3 rfl (by decide),
    writes_sub_of main_call1_v4 rfl (by decide), writes_sub_of main_v32 rfl (by decide), writes_sub_of main_v33 rfl (by decide)⟩

/-- A buffer the layer does not write holds after it what it held before. -/
theorem ops0_keeps (V : Valuation τ sig (Elt Ideal)) (r : Ref sig .tc) (h : r ∉ ops0_W) :
    after (ops0 (F := Ideal)) V (Proc.devRef .tc r) = V (Proc.devRef .tc r) :=
  after_of_writes_sub ops0 V ops0_writes h

/-- The buffers the layer writes. -/
abbrev ops1_W : List (Ref sig .tc) :=
  [main_c_3, main_v34, main_v35, main_c_4, main_v36, main_v37, main_v38, main_v39, main_v40, main_v41,
    main_v42, main_v43, main_cst_5, main_v44, main_v45, main_v46, main_v47, main_v48, main_v49, main_v50,
    main_v51, main_v52, main_v53, main_v54, main_v55, main_cst_6, main_call2_cst, main_call2_v0, main_call2_v1, main_call2_v2,
    main_call2_v3, main_call2_v4, main_v56, main_v57, main_v58, main_v59, main_v60, main_v61, main_v62, main_v63,
    main_v64, main_v65, main_cst_7, main_call3_cst, main_call3_v0, main_call3_v1, main_call3_v2, main_call3_v3, main_call3_v4, main_v66,
    main_v67]

theorem ops1_writes : (ops1 (F := Ideal)).Forall fun op => op.writes ⊆ (ops1_W.map (Proc.devRef (τ := τ) .tc)).toFinset :=
  ⟨writes_sub_of main_c_3 rfl (by decide), writes_sub_of main_v34 rfl (by decide), writes_sub_of main_v35 rfl (by decide),
    writes_sub_of main_c_4 rfl (by decide), writes_sub_of main_v36 rfl (by decide), writes_sub_of main_v37 rfl (by decide),
    writes_sub_of main_v38 rfl (by decide), writes_sub_of main_v39 rfl (by decide), writes_sub_of main_v40 rfl (by decide),
    writes_sub_of main_v41 rfl (by decide), writes_sub_of main_v42 rfl (by decide), writes_sub_of main_v43 rfl (by decide),
    writes_sub_of main_cst_5 rfl (by decide), writes_sub_of main_v44 rfl (by decide), writes_sub_of main_v45 rfl (by decide),
    writes_sub_of main_v46 rfl (by decide), writes_sub_of main_v47 rfl (by decide), writes_sub_of main_v48 rfl (by decide),
    writes_sub_of main_v49 rfl (by decide), writes_sub_of main_v50 rfl (by decide), writes_sub_of main_v51 rfl (by decide),
    writes_sub_of main_v52 rfl (by decide), writes_sub_of main_v53 rfl (by decide), writes_sub_of main_v54 rfl (by decide),
    writes_sub_of main_v55 rfl (by decide), writes_sub_of main_cst_6 rfl (by decide), writes_sub_of main_call2_cst rfl (by decide),
    writes_sub_of main_call2_v0 rfl (by decide), writes_sub_of main_call2_v1 rfl (by decide), writes_sub_of main_call2_v2 rfl (by decide),
    writes_sub_of main_call2_v3 rfl (by decide), writes_sub_of main_call2_v4 rfl (by decide), writes_sub_of main_v56 rfl (by decide),
    writes_sub_of main_v57 rfl (by decide), writes_sub_of main_v58 rfl (by decide), writes_sub_of main_v59 rfl (by decide),
    writes_sub_of main_v60 rfl (by decide), writes_sub_of main_v61 rfl (by decide), writes_sub_of main_v62 rfl (by decide),
    writes_sub_of main_v63 rfl (by decide), writes_sub_of main_v64 rfl (by decide), writes_sub_of main_v65 rfl (by decide),
    writes_sub_of main_cst_7 rfl (by decide), writes_sub_of main_call3_cst rfl (by decide), writes_sub_of main_call3_v0 rfl (by decide),
    writes_sub_of main_call3_v1 rfl (by decide), writes_sub_of main_call3_v2 rfl (by decide), writes_sub_of main_call3_v3 rfl (by decide),
    writes_sub_of main_call3_v4 rfl (by decide), writes_sub_of main_v66 rfl (by decide), writes_sub_of main_v67 rfl (by decide)⟩

/-- A buffer the layer does not write holds after it what it held before. -/
theorem ops1_keeps (V : Valuation τ sig (Elt Ideal)) (r : Ref sig .tc) (h : r ∉ ops1_W) :
    after (ops1 (F := Ideal)) V (Proc.devRef .tc r) = V (Proc.devRef .tc r) :=
  after_of_writes_sub ops1 V ops1_writes h

/-- The buffers the layer writes. -/
abbrev ops2_W : List (Ref sig .tc) :=
  [main_c_8, main_v68, main_v69, main_c_9, main_v70, main_v71, main_v72, main_v73, main_v74, main_v75,
    main_v76, main_v77, main_cst_10, main_v78, main_v79, main_v80, main_v81, main_v82, main_v83, main_v84,
    main_v85, main_v86, main_v87, main_v88, main_v89, main_cst_11, main_call4_cst, main_call4_v0, main_call4_v1, main_call4_v2,
    main_call4_v3, main_call4_v4, main_v90, main_v91, main_v92, main_v93, main_v94, main_v95, main_v96, main_v97,
    main_v98, main_v99, main_cst_12, main_call5_cst, main_call5_v0, main_call5_v1, main_call5_v2, main_call5_v3, main_call5_v4, main_v100,
    main_v101]

theorem ops2_writes : (ops2 (F := Ideal)).Forall fun op => op.writes ⊆ (ops2_W.map (Proc.devRef (τ := τ) .tc)).toFinset :=
  ⟨writes_sub_of main_c_8 rfl (by decide), writes_sub_of main_v68 rfl (by decide), writes_sub_of main_v69 rfl (by decide),
    writes_sub_of main_c_9 rfl (by decide), writes_sub_of main_v70 rfl (by decide), writes_sub_of main_v71 rfl (by decide),
    writes_sub_of main_v72 rfl (by decide), writes_sub_of main_v73 rfl (by decide), writes_sub_of main_v74 rfl (by decide),
    writes_sub_of main_v75 rfl (by decide), writes_sub_of main_v76 rfl (by decide), writes_sub_of main_v77 rfl (by decide),
    writes_sub_of main_cst_10 rfl (by decide), writes_sub_of main_v78 rfl (by decide), writes_sub_of main_v79 rfl (by decide),
    writes_sub_of main_v80 rfl (by decide), writes_sub_of main_v81 rfl (by decide), writes_sub_of main_v82 rfl (by decide),
    writes_sub_of main_v83 rfl (by decide), writes_sub_of main_v84 rfl (by decide), writes_sub_of main_v85 rfl (by decide),
    writes_sub_of main_v86 rfl (by decide), writes_sub_of main_v87 rfl (by decide), writes_sub_of main_v88 rfl (by decide),
    writes_sub_of main_v89 rfl (by decide), writes_sub_of main_cst_11 rfl (by decide), writes_sub_of main_call4_cst rfl (by decide),
    writes_sub_of main_call4_v0 rfl (by decide), writes_sub_of main_call4_v1 rfl (by decide), writes_sub_of main_call4_v2 rfl (by decide),
    writes_sub_of main_call4_v3 rfl (by decide), writes_sub_of main_call4_v4 rfl (by decide), writes_sub_of main_v90 rfl (by decide),
    writes_sub_of main_v91 rfl (by decide), writes_sub_of main_v92 rfl (by decide), writes_sub_of main_v93 rfl (by decide),
    writes_sub_of main_v94 rfl (by decide), writes_sub_of main_v95 rfl (by decide), writes_sub_of main_v96 rfl (by decide),
    writes_sub_of main_v97 rfl (by decide), writes_sub_of main_v98 rfl (by decide), writes_sub_of main_v99 rfl (by decide),
    writes_sub_of main_cst_12 rfl (by decide), writes_sub_of main_call5_cst rfl (by decide), writes_sub_of main_call5_v0 rfl (by decide),
    writes_sub_of main_call5_v1 rfl (by decide), writes_sub_of main_call5_v2 rfl (by decide), writes_sub_of main_call5_v3 rfl (by decide),
    writes_sub_of main_call5_v4 rfl (by decide), writes_sub_of main_v100 rfl (by decide), writes_sub_of main_v101 rfl (by decide)⟩

/-- A buffer the layer does not write holds after it what it held before. -/
theorem ops2_keeps (V : Valuation τ sig (Elt Ideal)) (r : Ref sig .tc) (h : r ∉ ops2_W) :
    after (ops2 (F := Ideal)) V (Proc.devRef .tc r) = V (Proc.devRef .tc r) :=
  after_of_writes_sub ops2 V ops2_writes h

set_option maxRecDepth 8192 in
set_option maxHeartbeats 1000000 in
/-- What layer 0's operations leave in its output buffer: the layer's map of the features it reads, over what
    the buffers held before it. -/
theorem after_ops0 (V : Valuation τ sig (Elt Ideal)) :
    after (ops0 (F := Ideal)) V (Proc.devRef .tc main_v33)
      = layerWith (wmat0 (V (Proc.devRef .tc main_arg2))) (bvec0 (V (Proc.devRef .tc main_arg3))) (wmat0 (V (Proc.devRef .tc main_arg4))) (bvec0 (V (Proc.devRef .tc main_arg5)))
          (V (Proc.devRef .tc main_arg1)) (V (Proc.devRef .tc main_arg6)) (V (Proc.devRef .tc main_arg7)) (V (Proc.devRef .tc main_arg0)) := by
  after_results_simp
  rfl

set_option maxRecDepth 8192 in
set_option maxHeartbeats 1000000 in
/-- What layer 1's operations leave in its output buffer: the layer's map of the features it reads, over what
    the buffers held before it. -/
theorem after_ops1 (V : Valuation τ sig (Elt Ideal)) :
    after (ops1 (F := Ideal)) V (Proc.devRef .tc main_v67)
      = layerWith (wmat1 (V (Proc.devRef .tc main_arg2))) (bvec1 (V (Proc.devRef .tc main_arg3))) (wmat1 (V (Proc.devRef .tc main_arg4))) (bvec1 (V (Proc.devRef .tc main_arg5)))
          (V (Proc.devRef .tc main_arg1)) (V (Proc.devRef .tc main_arg6)) (V (Proc.devRef .tc main_arg7)) (V (Proc.devRef .tc main_v33)) := by
  after_results_simp
  rfl

set_option maxRecDepth 8192 in
set_option maxHeartbeats 1000000 in
/-- What layer 2's operations leave in its output buffer: the layer's map of the features it reads, over what
    the buffers held before it. -/
theorem after_ops2 (V : Valuation τ sig (Elt Ideal)) :
    after (ops2 (F := Ideal)) V (Proc.devRef .tc main_v101)
      = layerWith (wmat2 (V (Proc.devRef .tc main_arg2))) (bvec2 (V (Proc.devRef .tc main_arg3))) (wmat2 (V (Proc.devRef .tc main_arg4))) (bvec2 (V (Proc.devRef .tc main_arg5)))
          (V (Proc.devRef .tc main_arg1)) (V (Proc.devRef .tc main_arg6)) (V (Proc.devRef .tc main_arg7)) (V (Proc.devRef .tc main_v67)) := by
  after_results_simp
  rfl

end Cert.ReferenceIdeal.Hand

end
-- ==== Proof.RefRun.lean ====
/-
  The reference program's run: every weakly fair execution of its function terminates with the result buffer at
  the network of the launch contents of its arguments (the input features and the three layers' outputs side by
  side) and the arguments unchanged.  The three layers compose through the buffers each leaves for the next; the
  composed term is never written out.
-/
import proofs.«100247_j50328426774833_1_alg».proof.Proof.RefLayers

noncomputable section

namespace Cert.ReferenceIdeal.Hand

open Cert.ReferenceIdeal Cert.ReferenceIdeal.Facts₀ Idealize.ShloMosaic Idealize.ShloMosaic.TcCoe Idealize.SL.Sem Idealize.ShloMosaic.StableHlo

/-- The concatenation leaves in the result buffer the four arrays it reads, side by side. -/
theorem cat_eq (U : Valuation τ sig (Elt Ideal)) :
    after [opCat (F := Ideal)] U (Proc.devRef .tc main_v102)
      = sideBySide (U (Proc.devRef .tc main_arg0)) (U (Proc.devRef .tc main_v33)) (U (Proc.devRef .tc main_v67)) (U (Proc.devRef .tc main_v101)) := by
  after_results_simp
  rfl

/-- The concatenation writes only the result buffer. -/
theorem cat_keeps (U : Valuation τ sig (Elt Ideal)) (r : Ref sig .tc) (h : r ≠ main_v102) :
    after [opCat (F := Ideal)] U (Proc.devRef .tc r) = U (Proc.devRef .tc r) := by
  show (opCat (F := Ideal)).result U (Proc.devRef .tc r) = U (Proc.devRef .tc r)
  rw [nary_result_ne]; exact h

/-- A buffer no layer writes, other than the result buffer, holds after the whole function what it held before. -/
theorem ops_keeps (V : Valuation τ sig (Elt Ideal)) (r : Ref sig .tc) (h0 : r ∉ ops0_W) (h1 : r ∉ ops1_W) (h2 : r ∉ ops2_W)
    (h : r ≠ main_v102) : after (ops (F := Ideal)) V (Proc.devRef .tc r) = V (Proc.devRef .tc r) := by
  show after (ops0 ++ (ops1 ++ (ops2 ++ [opCat]))) V _ = _
  rw [after_append, after_append, after_append, cat_keeps _ r h, ops2_keeps _ r h2, ops1_keeps _ r h1, ops0_keeps _ r h0]

/-- The result buffer after the whole function: the network of what the argument buffers held before it. -/
theorem out_eq (V : Valuation τ sig (Elt Ideal)) :
    after (ops (F := Ideal)) V (Proc.devRef .tc main_v102)
      = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  show after (ops0 ++ (ops1 ++ (ops2 ++ [opCat]))) V _ = _
  rw [after_append, after_append, after_append, cat_eq]
  -- the third layer, over what the second left
  rw [after_ops2, ops2_keeps _ main_arg0 (by decide), ops2_keeps _ main_v33 (by decide), ops2_keeps _ main_v67 (by decide)]
  -- the second layer, over what the first left
  rw [after_ops1, ops1_keeps _ main_arg0 (by decide), ops1_keeps _ main_arg1 (by decide), ops1_keeps _ main_arg2 (by decide),
    ops1_keeps _ main_arg3 (by decide), ops1_keeps _ main_arg4 (by decide), ops1_keeps _ main_arg5 (by decide),
    ops1_keeps _ main_arg6 (by decide), ops1_keeps _ main_arg7 (by decide), ops1_keeps _ main_v33 (by decide)]
  -- the first layer, over the arguments
  rw [after_ops0, ops0_keeps _ main_arg0 (by decide), ops0_keeps _ main_arg1 (by decide), ops0_keeps _ main_arg2 (by decide),
    ops0_keeps _ main_arg3 (by decide), ops0_keeps _ main_arg4 (by decide), ops0_keeps _ main_arg5 (by decide),
    ops0_keeps _ main_arg6 (by decide), ops0_keeps _ main_arg7 (by decide)]
  rfl

/-- On every device, from any memory with zero counters: every weakly fair execution of the function terminates
    with the result buffer at the network of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v102)
          = net (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v102).trans (out_eq (launchContents m c)),
      (h c main_arg0).trans (ops_keeps (launchContents m c) main_arg0 (by decide) (by decide) (by decide) (by decide)),
      (h c main_arg1).trans (ops_keeps (launchContents m c) main_arg1 (by decide) (by decide) (by decide) (by decide)),
      (h c main_arg2).trans (ops_keeps (launchContents m c) main_arg2 (by decide) (by decide) (by decide) (by decide)),
      (h c main_arg3).trans (ops_keeps (launchContents m c) main_arg3 (by decide) (by decide) (by decide) (by decide)),
      (h c main_arg4).trans (ops_keeps (launchContents m c) main_arg4 (by decide) (by decide) (by decide) (by decide)),
      (h c main_arg5).trans (ops_keeps (launchContents m c) main_arg5 (by decide) (by decide) (by decide) (by decide)),
      (h c main_arg6).trans (ops_keeps (launchContents m c) main_arg6 (by decide) (by decide) (by decide) (by decide)),
      (h c main_arg7).trans (ops_keeps (launchContents m c) main_arg7 (by decide) (by decide) (by decide) (by decide))⟩)
    (run_seq scopedRefs_eq scopedSems_eq defs main (fun _ => ops) main_eq (fun _ => ops_sub) m ρ (fun _ => ops_fresh))

end Cert.ReferenceIdeal.Hand

end
-- ==== Proof.RefDense.lean ====
/-
  One entry of the reference's dense layer.

  On whole arrays the layer is  rect ((h + hn) W1 + rows b1) + rect ((h ∘ hn) W2 + rows b2),  where rows b lays the
  vector b along every row and rect compares with a zero array and selects between its argument and the slope array
  times its argument. Read at entry (r, q) it is the cell of row r of h, row r of hn, column q of each weight matrix
  and entry q of each bias: the two products become the sums over the contracted coordinate, a spread scalar reads
  the scalar, a spread bias vector its entry q, and every other operation acts entry by entry.
-/
import proofs.«100247_j50328426774833_1_alg».proof.Proof.RefTerms
import proofs.«100247_j50328426774833_1_alg».proof.Proof.Spec
import proofs.«100247_j50328426774833_1_alg».proof.Proof.LibDot
import Idealize.ShloMosaic.Lib.ValueIdx
import Idealize.ShloMosaic.Lib.Pipeline.Value
import Idealize.ShloMosaic.Lib.IdealHost
import Idealize.ShloMosaic.Lib.KernelVsHost

namespace Cert.ReferenceIdeal.Hand

open Cert.ReferenceIdeal Cert.ReferenceIdeal.Facts₀ Idealize.ShloMosaic Idealize.ShloMosaic.ValueIdx

/-- The host's product contracts axis 1 of its left operand with axis 0 of its right operand and nothing else. -/
theorem plainR : Cert.LibDot.Plain dot_S100000x64_S64x64_S100000x64_1_0_0_1_n_n where
  hrank := rfl
  hs := rfl
  hl0 := fun _ _ => rfl
  hl1 := fun j k => DotDims.lhsIdx_val_of_single dot_S100000x64_S64x64_S100000x64_1_0_0_1_n_n rfl j k
  hr0 := fun j k => DotDims.rhsIdx_val_of_single dot_S100000x64_S64x64_S100000x64_1_0_0_1_n_n rfl j k
  hr1 := fun _ _ => rfl

/-- A scalar spread over the whole [100000, 64] array reads the scalar at every entry. -/
theorem scalar_apply (x : FVec Ideal S_ .f32) (j : S100000x64.Idx) :
    broadcastInDim S100000x64 ![] bcast_S_S100000x64 x j = x ix0 :=
  broadcastInDim_scalar_apply bcast_S_S100000x64 x j

/-- A bias vector spread along the rows, read at (r, q), is its entry q. -/
theorem spread_apply (b : FVec Ideal S64 .f32) (r : Fin 100000) (q : Fin 64) :
    spread b (ix2 r q) = b (ix1 q) := by
  unfold spread
  refine (broadcastInDim_oneRow_apply bcast_S1x64_S100000x64_0_1 _ r q).trans ?_
  refine broadcastInDim_apply ![1] bcast_S64_S1x64_1 b (ix2 (0 : Fin 1) q) (ix1 q) ?_
  intro a
  match a with
  | ⟨0, _⟩ => rfl

/-- The rectifier on an array, read at an entry, is the rectifier of the entry. -/
theorem rect_apply (x : FVec Ideal S100000x64 .f32) (j : S100000x64.Idx) :
    rect x j = Cert.BiSpec.act (x j) := by
  unfold rect
  simp only [select_apply, cmpf_apply, mulf_apply, scalar_apply, constant_apply, id]
  rfl

/-- The dense layer at entry (r, q) is the cell of rows r and column q. -/
theorem dense_apply (h hn : FVec Ideal S100000x64 .f32) (W1 : FVec Ideal S64x64 .f32) (b1 : FVec Ideal S64 .f32) (W2 : FVec Ideal S64x64 .f32) (b2 : FVec Ideal S64 .f32) (r : Fin 100000) (q : Fin 64) :
    dense h hn W1 b1 W2 b2 (ValueIdx.ix2 r q)
      = Cert.BiSpec.cell (fun k => h (ValueIdx.ix2 r k)) (fun k => hn (ValueIdx.ix2 r k)) (fun k => W1 (ValueIdx.ix2 k q)) (b1 (ValueIdx.ix1 q)) (fun k => W2 (ValueIdx.ix2 k q)) (b2 (ValueIdx.ix1 q)) := by
  unfold dense
  simp only [addf_apply, rect_apply, spread_apply, mulf_apply, Cert.LibDot.dotGeneral_ix2 plainR]
  rfl

end Cert.ReferenceIdeal.Hand
-- ==== Proof.Bridge.lean ====
/-
  The two programs' host terms agree, and so do their layers.

  Between its regions the kernel program runs the same host operations as the reference: the aggregation
  hn[v] = Σ_{e : dst e = v} a e · h[src e]  by the same gather, scaling and scatter-add, the same slices of the stacked
  weights and biases, and the same final side-by-side array; the two spellings differ only in which program's shape
  records and side conditions they cite, and those are the same lists and propositions. A layer's output array on the
  kernel side, entry (r, q) the cell of row r of h, row r of the aggregation, column q of the weight matrices and
  entry (0, q) of the bias rows, is therefore the reference's dense layer of h and its aggregation: the reference's
  layer read at (r, q) is the same cell, and a bias vector laid as a one-row matrix reads its entry q at (0, q).
-/
import proofs.«100247_j50328426774833_1_alg».proof.Proof.KLayer
import proofs.«100247_j50328426774833_1_alg».proof.Proof.KernelIdealHost
import proofs.«100247_j50328426774833_1_alg».proof.Proof.RefTerms
import proofs.«100247_j50328426774833_1_alg».proof.Proof.RefDense
import Idealize.ShloMosaic.Lib.ValueIdx
import Idealize.ShloMosaic.Lib.ValueLayout

namespace Cert.Bridge

open Idealize.ShloMosaic Idealize.ShloMosaic.ValueIdx

/-- The two programs aggregate by the same gather, scaling and scatter-add. -/
theorem agg_eq (a : FVec Ideal Cert.KernelIdeal.S3200000 .f32) (src dst : IVec Cert.KernelIdeal.S3200000 32)
    (h : FVec Ideal Cert.KernelIdeal.S100000x64 .f32) :
    Cert.KernelIdeal.Hand.kagg a src dst h = Cert.ReferenceIdeal.Hand.agg a src dst h := rfl

/-- The two programs cut the same weight matrices out of the stacked array. -/
theorem wmat0_eq (w : FVec Ideal Cert.KernelIdeal.S3x64x64 .f32) :
    Cert.KernelIdeal.Hand.kwmat0 w = Cert.ReferenceIdeal.Hand.wmat0 w := rfl
theorem wmat1_eq (w : FVec Ideal Cert.KernelIdeal.S3x64x64 .f32) :
    Cert.KernelIdeal.Hand.kwmat1 w = Cert.ReferenceIdeal.Hand.wmat1 w := rfl
theorem wmat2_eq (w : FVec Ideal Cert.KernelIdeal.S3x64x64 .f32) :
    Cert.KernelIdeal.Hand.kwmat2 w = Cert.ReferenceIdeal.Hand.wmat2 w := rfl

/-- The two programs cut the same bias vectors out of the stacked array. -/
theorem bvec0_eq (b : FVec Ideal Cert.KernelIdeal.S3x64 .f32) :
    Cert.KernelIdeal.Hand.kbvec0 b = Cert.ReferenceIdeal.Hand.bvec0 b := rfl
theorem bvec1_eq (b : FVec Ideal Cert.KernelIdeal.S3x64 .f32) :
    Cert.KernelIdeal.Hand.kbvec1 b = Cert.ReferenceIdeal.Hand.bvec1 b := rfl
theorem bvec2_eq (b : FVec Ideal Cert.KernelIdeal.S3x64 .f32) :
    Cert.KernelIdeal.Hand.kbvec2 b = Cert.ReferenceIdeal.Hand.bvec2 b := rfl

/-- A vector laid as a one-row matrix reads, at (0, q), its entry q. -/
theorem krow_apply (b : FVec Ideal Cert.KernelIdeal.S64 .f32) (q : Fin 64) :
    Cert.KernelIdeal.Hand.krow b (ix2 (0 : Fin 1) q) = b (ix1 q) :=
  shapeCast_a_1a_apply b Cert.KernelIdeal.Facts₀.shapeCasts_S64_S1x64 0 q

/-- The two programs lay the same four arrays side by side. -/
theorem side_eq (x h1 h2 h3 : FVec Ideal Cert.KernelIdeal.S100000x64 .f32) :
    Cert.KernelIdeal.Hand.ksideBySide x h1 h2 h3 = Cert.ReferenceIdeal.Hand.sideBySide x h1 h2 h3 := rfl

/-- The first layer's array on the kernel side is the reference's first layer. -/
theorem layer0_eq (h : FVec Ideal Cert.KernelIdeal.S100000x64 .f32) (a : FVec Ideal Cert.KernelIdeal.S3200000 .f32) (src dst : IVec Cert.KernelIdeal.S3200000 32) (w1s : FVec Ideal Cert.KernelIdeal.S3x64x64 .f32) (b1s : FVec Ideal Cert.KernelIdeal.S3x64 .f32) (w2s : FVec Ideal Cert.KernelIdeal.S3x64x64 .f32) (b2s : FVec Ideal Cert.KernelIdeal.S3x64 .f32) :
    Cert.KernelIdeal.Hand.klayer h (Cert.KernelIdeal.Hand.kagg a src dst h) (Cert.KernelIdeal.Hand.kwmat0 w1s) (Cert.KernelIdeal.Hand.krow (Cert.KernelIdeal.Hand.kbvec0 b1s)) (Cert.KernelIdeal.Hand.kwmat0 w2s) (Cert.KernelIdeal.Hand.krow (Cert.KernelIdeal.Hand.kbvec0 b2s))
      = Cert.ReferenceIdeal.Hand.layerWith (Cert.ReferenceIdeal.Hand.wmat0 w1s) (Cert.ReferenceIdeal.Hand.bvec0 b1s) (Cert.ReferenceIdeal.Hand.wmat0 w2s) (Cert.ReferenceIdeal.Hand.bvec0 b2s) a src dst h := by
  funext i
  obtain ⟨r, q, rfl⟩ : ∃ (r : Fin 100000) (q : Fin 64), i = ix2 r q := ⟨i 0, i 1, eq_ix2 i⟩
  unfold Cert.ReferenceIdeal.Hand.layerWith
  refine Eq.trans ?_ (Cert.ReferenceIdeal.Hand.dense_apply _ _ _ _ _ _ r q).symm
  exact Cert.KernelIdeal.Hand.cell_congr (fun _ => rfl) (fun k => congrFun (agg_eq a src dst h) (ix2 r k))
    (fun k => congrFun (wmat0_eq w1s) (ix2 k q))
    ((krow_apply _ q).trans (congrFun (bvec0_eq b1s) (ix1 q)))
    (fun k => congrFun (wmat0_eq w2s) (ix2 k q))
    ((krow_apply _ q).trans (congrFun (bvec0_eq b2s) (ix1 q)))

/-- The second layer's array on the kernel side is the reference's second layer. -/
theorem layer1_eq (h : FVec Ideal Cert.KernelIdeal.S100000x64 .f32) (a : FVec Ideal Cert.KernelIdeal.S3200000 .f32) (src dst : IVec Cert.KernelIdeal.S3200000 32) (w1s : FVec Ideal Cert.KernelIdeal.S3x64x64 .f32) (b1s : FVec Ideal Cert.KernelIdeal.S3x64 .f32) (w2s : FVec Ideal Cert.KernelIdeal.S3x64x64 .f32) (b2s : FVec Ideal Cert.KernelIdeal.S3x64 .f32) :
    Cert.KernelIdeal.Hand.klayer h (Cert.KernelIdeal.Hand.kagg a src dst h) (Cert.KernelIdeal.Hand.kwmat1 w1s) (Cert.KernelIdeal.Hand.krow (Cert.KernelIdeal.Hand.kbvec1 b1s)) (Cert.KernelIdeal.Hand.kwmat1 w2s) (Cert.KernelIdeal.Hand.krow (Cert.KernelIdeal.Hand.kbvec1 b2s))
      = Cert.ReferenceIdeal.Hand.layerWith (Cert.ReferenceIdeal.Hand.wmat1 w1s) (Cert.ReferenceIdeal.Hand.bvec1 b1s) (Cert.ReferenceIdeal.Hand.wmat1 w2s) (Cert.ReferenceIdeal.Hand.bvec1 b2s) a src dst h := by
  funext i
  obtain ⟨r, q, rfl⟩ : ∃ (r : Fin 100000) (q : Fin 64), i = ix2 r q := ⟨i 0, i 1, eq_ix2 i⟩
  unfold Cert.ReferenceIdeal.Hand.layerWith
  refine Eq.trans ?_ (Cert.ReferenceIdeal.Hand.dense_apply _ _ _ _ _ _ r q).symm
  exact Cert.KernelIdeal.Hand.cell_congr (fun _ => rfl) (fun k => congrFun (agg_eq a src dst h) (ix2 r k))
    (fun k => congrFun (wmat1_eq w1s) (ix2 k q))
    ((krow_apply _ q).trans (congrFun (bvec1_eq b1s) (ix1 q)))
    (fun k => congrFun (wmat1_eq w2s) (ix2 k q))
    ((krow_apply _ q).trans (congrFun (bvec1_eq b2s) (ix1 q)))

/-- The third layer's array on the kernel side is the reference's third layer. -/
theorem layer2_eq (h : FVec Ideal Cert.KernelIdeal.S100000x64 .f32) (a : FVec Ideal Cert.KernelIdeal.S3200000 .f32) (src dst : IVec Cert.KernelIdeal.S3200000 32) (w1s : FVec Ideal Cert.KernelIdeal.S3x64x64 .f32) (b1s : FVec Ideal Cert.KernelIdeal.S3x64 .f32) (w2s : FVec Ideal Cert.KernelIdeal.S3x64x64 .f32) (b2s : FVec Ideal Cert.KernelIdeal.S3x64 .f32) :
    Cert.KernelIdeal.Hand.klayer h (Cert.KernelIdeal.Hand.kagg a src dst h) (Cert.KernelIdeal.Hand.kwmat2 w1s) (Cert.KernelIdeal.Hand.krow (Cert.KernelIdeal.Hand.kbvec2 b1s)) (Cert.KernelIdeal.Hand.kwmat2 w2s) (Cert.KernelIdeal.Hand.krow (Cert.KernelIdeal.Hand.kbvec2 b2s))
      = Cert.ReferenceIdeal.Hand.layerWith (Cert.ReferenceIdeal.Hand.wmat2 w1s) (Cert.ReferenceIdeal.Hand.bvec2 b1s) (Cert.ReferenceIdeal.Hand.wmat2 w2s) (Cert.ReferenceIdeal.Hand.bvec2 b2s) a src dst h := by
  funext i
  obtain ⟨r, q, rfl⟩ : ∃ (r : Fin 100000) (q : Fin 64), i = ix2 r q := ⟨i 0, i 1, eq_ix2 i⟩
  unfold Cert.ReferenceIdeal.Hand.layerWith
  refine Eq.trans ?_ (Cert.ReferenceIdeal.Hand.dense_apply _ _ _ _ _ _ r q).symm
  exact Cert.KernelIdeal.Hand.cell_congr (fun _ => rfl) (fun k => congrFun (agg_eq a src dst h) (ix2 r k))
    (fun k => congrFun (wmat2_eq w1s) (ix2 k q))
    ((krow_apply _ q).trans (congrFun (bvec2_eq b1s) (ix1 q)))
    (fun k => congrFun (wmat2_eq w2s) (ix2 k q))
    ((krow_apply _ q).trans (congrFun (bvec2_eq b2s) (ix1 q)))

end Cert.Bridge
-- ==== Proof.lean ====
/-
  The certificate's five claims.

  Both programs compute, layer by layer, the same function of their arguments: with hn the aggregation of the node
  features h along the edges (the same gather, scaling by the edge weights and scatter-add in both programs),

      h  ↦  act ((h + hn) W1 + b1) + act ((h ∘ hn) W2 + b2),

  three times over, and lay the input features and the three layers' features side by side.  The kernel program
  computes each layer's dense part in a pallas region, ten blocks of ten thousand rows, each block by two matrix
  products into a zero accumulator; the reference computes it by whole-array host operations.  On the extended reals
  an entry of either is the same cell of one row of features, one row of aggregated features, one column of each
  weight matrix and one entry of each bias, so the results agree entry by entry; no law of arithmetic beyond
  reading a matrix product as its sum is used, and the finiteness of the inputs is never needed.

  The frames: the kernel program (at either instance) runs its four stretches of host operations and three regions
  to the end and writes no argument array; the reference is host operations only.
-/
import proofs.«100247_j50328426774833_1_alg».proof.Defs
import proofs.«100247_j50328426774833_1_alg».proof.Proof.Gen.Kernel
import proofs.«100247_j50328426774833_1_alg».proof.Proof.Gen.KernelIdeal
import proofs.«100247_j50328426774833_1_alg».proof.Proof.Gen.ReferenceIdeal
import proofs.«100247_j50328426774833_1_alg».proof.Proof.Gen.Pre_finite_inputs
import proofs.«100247_j50328426774833_1_alg».proof.Proof.KernelRun
import proofs.«100247_j50328426774833_1_alg».proof.Proof.KernelIdealNet
import proofs.«100247_j50328426774833_1_alg».proof.Proof.RefRun
import proofs.«100247_j50328426774833_1_alg».proof.Proof.Bridge

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run m ρ)

/-- The idealization rewrote nothing. -/
theorem preserves : Cert.preserves_Kernel_KernelIdeal := trivial

/-- The kernel program's three layers are the reference's. -/
theorem layers_eq (m : (ℓ : Loc Cert.KernelIdeal.nD Cert.KernelIdeal.τ Cert.KernelIdeal.sig) → Buf (Elt Ideal) ℓ) (c : Dev Cert.KernelIdeal.nD) :
    Cert.KernelIdeal.Hand.kh1 m c = Cert.ReferenceIdeal.Hand.h1of (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    ∧ Cert.KernelIdeal.Hand.kh2 m c = Cert.ReferenceIdeal.Hand.h2of (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    ∧ Cert.KernelIdeal.Hand.kh3 m c = Cert.ReferenceIdeal.Hand.h3of (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  have k1 : Cert.KernelIdeal.Hand.kh1 m c = Cert.ReferenceIdeal.Hand.h1of (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
    Cert.Bridge.layer0_eq _ _ _ _ _ _ _ _
  have k2 : Cert.KernelIdeal.Hand.kh2 m c = Cert.ReferenceIdeal.Hand.h2of (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
    unfold Cert.KernelIdeal.Hand.kh2
    rw [k1]
    exact Cert.Bridge.layer1_eq _ _ _ _ _ _ _ _
  refine ⟨k1, k2, ?_⟩
  unfold Cert.KernelIdeal.Hand.kh3
  rw [k2]
  exact Cert.Bridge.layer2_eq _ _ _ _ _ _ _ _

/-- From memories agreeing on the arguments both idealized programs end with the same result array. -/
theorem algebraic : Cert.algebraic_KernelIdeal_ReferenceIdeal := by
  intro m ρ m' ρ' _ hagree
  refine ⟨fun c => Cert.KernelIdeal.Hand.ksideBySide (m ((c.tc : Thread Cert.KernelIdeal.nD Cert.KernelIdeal.τ).loc Cert.KernelIdeal.main_arg0)) (Cert.KernelIdeal.Hand.kh1 m c) (Cert.KernelIdeal.Hand.kh2 m c) (Cert.KernelIdeal.Hand.kh3 m c),
    Cert.KernelIdeal.Hand.run m ρ, ?_⟩
  refine (θ_run Cert.ReferenceIdeal.defs _ _).mono (fun _ h c => ⟨(h c).1.trans ?_, (h c).2⟩) (Cert.ReferenceIdeal.Hand.run m' ρ')
  obtain ⟨e0, e1, e2, e3, e4, e5, e6, e7⟩ := hagree c
  obtain ⟨k1, k2, k3⟩ := layers_eq m c
  beta_reduce
  rw [e0, e1, e2, e3, e4, e5, e6, e7, k1, k2, k3, Cert.Bridge.side_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
